-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128x128 .f32) (main_arg5 : FVec F S128x128 .f32) (main_arg6 : FVec F S128x128 .f32) (main_arg7 : FVec F S128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S800000x128 .f32) (main_arg2 : FVec F S128x128 .f32) (main_arg3 : FVec F S128x128 .f32) (main_arg4 : FVec F S128x128 .f32) (main_arg5 : FVec F S128x128 .f32) (main_arg6 : FVec F S128x128 .f32) (main_arg7 : FVec F S128 .f32) (main_arg8 : FVec F S128 .f32) (main_arg9 : IVec S800000 32) (main_arg10 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S800000 : Shape := ⟨1, ![800000]⟩
abbrev S128x512 : Shape := ⟨2, ![128, 512]⟩
abbrev S50000x512 : Shape := ⟨2, ![50000, 512]⟩
abbrev S5000x128 : Shape := ⟨2, ![5000, 128]⟩
abbrev S5000x512 : Shape := ⟨2, ![5000, 512]⟩
abbrev S8000x128 : Shape := ⟨2, ![8000, 128]⟩
abbrev S_ : Shape := ⟨0, ![]⟩
abbrev S800000x1 : Shape := ⟨2, ![800000, 1]⟩
abbrev S1x128 : Shape := ⟨2, ![1, 128]⟩

abbrev nBuf : Space → Nat
  | .hbm => 79
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S800000, .i32⟩
  | .hbm, ⟨10, _⟩ => ⟨S800000, .i32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x512, .f32⟩
  | .hbm, ⟨16, _⟩ => ⟨S50000x512, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S128x128, .f32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S800000x128, .f32⟩
  | .hbm, ⟨50, _⟩ => ⟨S800000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x512, .f32⟩
  | .local _ .vmem, ⟨3, _⟩ => ⟨S5000x512, .f32⟩
  | .local _ .vmem, ⟨4, _⟩ => ⟨S5000x512, .f32⟩
  | .local _ .vmem, ⟨5, _⟩ => ⟨S8000x128, .f32⟩
  | .local _ .vmem, ⟨6, _⟩ => ⟨S8000x128, .f32⟩
  | .local _ .vmem, ⟨7, _⟩ => ⟨S128x128, .f32⟩
  | .local _ .vmem, ⟨8, _⟩ => ⟨S8000x128, .f32⟩
  | .local _ .vmem, ⟨9, _⟩ => ⟨S8000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45_0 : Ref sig .tc := ⟨.hbm, 65, rfl⟩
abbrev main_v45_1 : Ref sig .tc := ⟨.hbm, 66, rfl⟩
abbrev main_v45_2 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_scratch0 : Ref sig .tc := ⟨.vmem, 18, rfl⟩
abbrev cc2_scratch1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_15 : BitVec 32 := 0#32
  let v26 : BitVec 1 := Scalar.cmpi .ne v25 c0_i32_15
  v26

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  transposes_S128x128_S128x128_1_0 : S128x128.Transposes [1, 0] S128x128
  concatenates_S128x128_S128x128_S128x128_S128x128_S128x512_d1 : Shape.Concatenates [S128x128, S128x128, S128x128, S128x128] S128x512 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S5000x512_S5000x512_0_0 : ∀ a, (![0, 0] : Fin 2 → Nat) a + S5000x512.size a ≤ S5000x512.size a
  h_S5000x512 : 0 < S5000x512.numel
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  dot_S5000x128_S128x512_S5000x512_1_0_0_1_n_n_wf : DotDims.WF S5000x128 S128x512 S5000x512 [1] [0] [0] [1] [] []
  dot_S8000x128_S128x128_S8000x128_1_0_0_1_n_n_wf : DotDims.WF S8000x128 S128x128 S8000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x512.size a ≤ S50000x512.size a
  hwx0_2 : ∀ i : grid0.Coords, EltTy.bits .f32 = 32 ∨ (Rect.block (s := S50000x512) S5000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S800000x128.size a
  hwx1_2 : ∀ i : grid1.Coords, EltTy.bits .f32 = 32 ∨ (Rect.block (s := S800000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45_0) S5000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45_1) S1x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45_2) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v45_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S800000, .i32⟩
  | .hbm, ⟨10, _⟩ => ⟨S800000, .i32⟩
  | .hbm, ⟨11, _⟩ => ⟨S128x128, .f32⟩
  | .hbm, ⟨12, _⟩ => ⟨S50000x128, .f32⟩
  | .hbm, ⟨13, _⟩ => ⟨S128x128, .f32⟩
  | .hbm, ⟨14, _⟩ => ⟨S50000x128, .f32⟩
  | .hbm, ⟨15, _⟩ => ⟨S128x128, .f32⟩
  | .hbm, ⟨16, _⟩ => ⟨S50000x128, .f32⟩
  | .hbm, ⟨17, _⟩ => ⟨S128x128, .f32⟩
  | .hbm, ⟨18, _⟩ => ⟨S800000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S800000x128, .f32⟩
  | .hbm, ⟨46, _⟩ => ⟨S800000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S128x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call0_cst : Ref sig .tc := ⟨.hbm, 94, rfl⟩
abbrev main_call0_v0 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.BitsProj0.lean ====
/-
  The node projection region: a row block of x (5000x128) against the whole of w (128x512), at each of the
  10 grid points, at any float instance.

  The body reads its x block and w whole, reads the output block once without using the value, and overwrites the
  whole output block with the product payload of the two values read. So after the body at point t the two input
  windows hold their blocks and the output window holds the payload of the two input blocks. The w window has one
  block for all points (it is moved in at the first point only); since the body leaves it in place it holds that
  block at every point.
-/
import proofs.«153656_j10943576670413_2_alg».proof.Proof.Gen.Kernel.Skeleton
import proofs.«153656_j10943576670413_2_alg».proof.Proof.Gen.Kernel.Points
import proofs.«153656_j10943576670413_2_alg».proof.Proof.LaunchKernelP
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's buffer holds its block at every point, for any proof data on the region's arrays whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The w window's buffer holds its (only) block at every point, moved in there or not: where it is not, the block
    index has not changed and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The whole output block, the whole x block and the whole of w, each as a rectangle of itself: what the body's store
    and its two used loads go through. -/
abbrev r0_0 : Rect S5000x512 := Rect.unit (s := S5000x512) ![0, 0] S5000x512.size inb_S5000x512_S5000x512_0_0
abbrev r0_x : Rect S5000x128 := Rect.unit (s := S5000x128) ![0, 0] S5000x128.size inb_S5000x128_S5000x128_0_0
abbrev r0_w : Rect S128x512 := Rect.unit (s := S128x512) ![0, 0] S128x512.size inb_S128x512_S128x512_0_0

/-- The output window's buffer after the body: its one store, of the product payload of the two blocks read, over
    the whole buffer. -/
def out0_2 (x0 : Vec F S5000x128 .f32) (x1 : Vec F S128x512 .f32) : Vec F S5000x512 .f32 :=
  View.canon [⟨r0_0, k0_pay1 (View.ld x0 r0_x) (View.ld x1 r0_w)⟩]

/-- The store covers the buffer. -/
theorem cover0_2 (p0 : Vec F S5000x512 .f32) (y : S5000x512.Idx) :
    ∃ pc ∈ ([⟨r0_0, p0⟩] : List (View.Piece (Elt F) S5000x512 .f32)), y ∈ pc.1.set :=
  View.cover_of_tiled [⟨r0_0, p0⟩] S5000x512.size (by rfl) y

/-! ## The body's triple -/

set_option maxHeartbeats 1000000 in
/-- The body on whole staging buffers, the inputs' at contents x0, x1 and the output's at anything, runs to the
    continuation holding the inputs' as they were and the output's at the payload of x0, x1. -/
theorem sound_kernel0 (c : Dev nD) (E : Set ℕ) (i : grid0.Coords)
    (arg1 : Memref sig .tc .vmem S5000x128 .f32) (harg1 : arg1.IsWhole)
    (arg2 : Memref sig .tc .vmem S128x512 .f32) (harg2 : arg2.IsWhole)
    (arg3 : Memref sig .tc .vmem S5000x512 .f32) (harg3 : arg3.IsWhole)
    (x0 : Vec F S5000x128 .f32) (x1 : Vec F S128x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core c: the arrays as the region finds them; after the body at point t
    each input's buffer at its block and the output's at the payload of the two input blocks; the invariant the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsProj1.lean ====
/-
  The edge projection region of the kernel program, at any interpretation of the floats.

  Its grid has one hundred points. At point t the body is handed rows 8000·t … 8000·t + 7999 of the array x and the
  whole 128 × 128 array w (the same block at every point); it leaves in the output block the product of the two, both
  narrowed first, accumulated from zero, and leaves the two input blocks as it found them. Below: each window's block
  at a point as a function of the arrays the region finds, the output block as a function of the two input blocks, the
  body's triple, and the pipeline's proof data with its body obligation.
-/
import proofs.«153656_j10943576670413_2_alg».proof.Proof.Gen.Kernel.Skeleton
import proofs.«153656_j10943576670413_2_alg».proof.Proof.Gen.Kernel.Points
import proofs.«153656_j10943576670413_2_alg».proof.Proof.LaunchKernelP
import Idealize.ShloMosaic.Lib.Pipeline.FrameBody
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in the output block -/

/-- The whole block of x and the whole output block (one shape), and the whole block of w, as rectangles of themselves:
    every access of the body is of a whole block. -/
abbrev r1_x : Rect S8000x128 := Rect.unit (s := S8000x128) ![0, 0] S8000x128.size inb_S8000x128_S8000x128_0_0
abbrev r1_w : Rect S128x128 := Rect.unit (s := S128x128) ![0, 0] S128x128.size inb_S128x128_S128x128_0_0

/-- The output block after the body, from the two input blocks: its one store, of the whole block. -/
def out1_2 (x0 : Vec F S8000x128 .f32) (x1 : Vec F S128x128 .f32) : Vec F S8000x128 .f32 :=
  View.canon [⟨r1_x, k1_pay1 (View.ld x0 r1_x) (View.ld x1 r1_w)⟩]

/-- The one store covers the block. -/
theorem cover1_2 (p0 : Vec F S8000x128 .f32) (y : S8000x128.Idx) :
    ∃ pc ∈ ([⟨r1_x, p0⟩] : List (View.Piece (Elt F) S8000x128 .f32)), y ∈ pc.1.set :=
  View.cover_of_tiled [⟨r1_x, p0⟩] S8000x128.size (by rfl) y

/-! ## The body's triple -/

set_option maxHeartbeats 1000000 in
/-- The body on whole blocks, the inputs' at contents x0, x1 and the output's at anything, runs to the continuation
    holding the inputs' as they were and the output's at out1_2 of them. Its read of the output block before the
    store is of a value nothing uses. -/
theorem sound_kernel1 (c : Dev nD) (E : Set ℕ) (i : grid1.Coords)
    (arg1 : Memref sig .tc .vmem S8000x128 .f32) (harg1 : arg1.IsWhole)
    (arg2 : Memref sig .tc .vmem S128x128 .f32) (harg2 : arg2.IsWhole)
    (arg3 : Memref sig .tc .vmem S8000x128 .f32) (harg3 : arg3.IsWhole)
    (x0 : Vec F S8000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core c: the arrays as the region finds them; after the body at point t each
    input block as it was and the output block at out1_2 of the two input blocks; the invariant that of a region
    whose body touches its blocks only; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the contents the region finds. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Each input's current block holds its block of the array at every point, fetched there or not: a block that is
    not fetched at a point has the index it had at the point before, and the body left it in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' blocks hold their blocks of the arrays, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsStats2Conds.lean ====
import proofs.«153656_j10943576670413_2_alg».proof.Proof.Gen.Kernel.Skeleton
import proofs.«153656_j10943576670413_2_alg».proof.Proof.Gen.Kernel.Points
import proofs.«153656_j10943576670413_2_alg».proof.Proof.LaunchKernelP
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

/-! ## The statistics region's two conditionals, decided over its ten grid points

The body resets its two accumulators under "the point is the first" and copies them out under "the point is the last". -/

/-- The first conditional's condition, from the grid coordinate: the point is the first. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second conditional's condition: the point is the last, the tenth. -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-- The two inputs and the entrywise-sum output are live at every point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The two statistics outputs are idle, and not written back, at every point but the last; live at the last. -/
theorem idleAt2_3 : ∀ t : Fin cfg2.N, ¬cond2_1 (grid2.coords t) → cfg2.idle 3 (grid2.coords t) = true := by decide +kernel
theorem idleAt2_4 : ∀ t : Fin cfg2.N, ¬cond2_1 (grid2.coords t) → cfg2.idle 4 (grid2.coords t) = true := by decide +kernel
theorem noFlush2_3 : ∀ t : Fin cfg2.N, ¬cond2_1 (grid2.coords t) → (cfg2.win 3).flush t = false := by decide +kernel
theorem noFlush2_4 : ∀ t : Fin cfg2.N, ¬cond2_1 (grid2.coords t) → (cfg2.win 4).flush t = false := by decide +kernel
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-- Each window's current staging memref at a point, and the two accumulators' buffers. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev scM2_0 : Memref sig .tc .vmem S1x128 .f32 := Memref.whole cc2_scratch0
abbrev scM2_1 : Memref sig .tc .vmem S1x128 .f32 := Memref.whole cc2_scratch1

end Cert.Kernel.Hand

end
-- ==== Proof.BitsStats2RunA.lean ====
import proofs.«153656_j10943576670413_2_alg».proof.Proof.BitsStats2Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

set_option maxHeartbeats 4000000 in
/-- The body at the FIRST point (the reset taken, the copy-out not): on whole staging memrefs — the two inputs at their
    blocks, the sum output at anything, the two statistics outputs handed back untouched, the two accumulators at
    anything — it runs to the continuation with each written buffer holding its stores, as pieces, last first. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32) :
    Σ' (L2 : List (View.Piece (Elt F) S5000x128 .f32)), Σ' (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__bn_stats_kernel i arg1 harg1 arg2 harg2 arg3 harg3 arg4 harg4 arg5 harg5 arg6 harg6 arg7 harg7) K } := by
  refine ⟨?_, ?_, ?_, fun xi3 xi4 E K => ?run⟩
  case run =>
    simp only [cc2__bn_stats_kernel_eq_skeleton]; unfold cc2__bn_stats_kernel_skel
    unfold owns
    iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.Kernel.Hand

end
-- ==== Proof.BitsStats2RunB.lean ====
import proofs.«153656_j10943576670413_2_alg».proof.Proof.BitsStats2Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

set_option maxHeartbeats 4000000 in
/-- The body at a MIDDLE point (neither conditional taken): the two inputs at their blocks, the sum output at anything,
    the two statistics outputs handed back untouched, the two accumulators at the contents xs0, xs1 the point before
    left — it runs to the continuation with each written buffer holding its stores, as pieces, last first. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) :
    Σ' (L2 : List (View.Piece (Elt F) S5000x128 .f32)), Σ' (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__bn_stats_kernel i arg1 harg1 arg2 harg2 arg3 harg3 arg4 harg4 arg5 harg5 arg6 harg6 arg7 harg7) K } := by
  refine ⟨?_, ?_, ?_, fun xi3 xi4 E K => ?run⟩
  case run =>
    simp only [cc2__bn_stats_kernel_eq_skeleton]; unfold cc2__bn_stats_kernel_skel
    unfold owns
    iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg4.eq_unread hf4; obtain rfl := harg5.eq_unread hf5
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.Kernel.Hand

end
-- ==== Proof.BitsStats2RunC.lean ====
import proofs.«153656_j10943576670413_2_alg».proof.Proof.BitsStats2Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

set_option maxHeartbeats 4000000 in
/-- The body at the LAST point (the reset not taken, the copy-out taken): the two inputs at their blocks, the three
    outputs at anything, the two accumulators at the contents xs0, xs1 the point before left — it runs to the
    continuation with each written buffer holding its stores, as pieces, last first. -/
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) :
    Σ' (L2 : List (View.Piece (Elt F) S5000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__bn_stats_kernel i arg1 harg1 arg2 harg2 arg3 harg3 arg4 harg4 arg5 harg5 arg6 harg6 arg7 harg7) K } := by
  refine ⟨?_, ?_, ?_, ?_, ?_, fun E K => ?run⟩
  case run =>
    simp only [cc2__bn_stats_kernel_eq_skeleton]; unfold cc2__bn_stats_kernel_skel
    unfold owns
    iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf1; obtain rfl := harg2.eq_unread hf2
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    isplitl [H5]; · iexists _; iexact H5
    isplitl [H6]; · iexists _; iexact H6
    iexists _; iexact H7

end Cert.Kernel.Hand

end
-- ==== Proof.BitsStats2Pieces.lean ====
import proofs.«153656_j10943576670413_2_alg».proof.Proof.BitsStats2RunA
import proofs.«153656_j10943576670413_2_alg».proof.Proof.BitsStats2RunB
import proofs.«153656_j10943576670413_2_alg».proof.Proof.BitsStats2RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

/-! ## What each case of the statistics body leaves in the buffers it writes

Each buffer's contents after the body are its stores read back; the stores cover the buffer (each is a whole-buffer store). -/

abbrev VO2_2 : View sig .tc .vmem S5000x128 .f32 := (Memref.whole cc2_stg2_0 : Memref sig .tc .vmem S5000x128 .f32).view
abbrev VO2_3 : View sig .tc .vmem S1x128 .f32 := (Memref.whole cc2_stg3_0 : Memref sig .tc .vmem S1x128 .f32).view
abbrev VO2_4 : View sig .tc .vmem S1x128 .f32 := (Memref.whole cc2_stg4_0 : Memref sig .tc .vmem S1x128 .f32).view
abbrev VS2_0 : View sig .tc .vmem S1x128 .f32 := scM2_0.view
abbrev VS2_1 : View sig .tc .vmem S1x128 .f32 := scM2_1.view

theorem cover_out2_A_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32)  (y : S5000x128.Idx) :
    ∃ pc ∈ (kernelRun2_A c i arg1 harg1 arg2 harg2 arg3 harg3 arg4 harg4 arg5 harg5 arg6 harg6 arg7 harg7 hc0 hc1 x0 x1).1, y ∈ pc.1.set :=
  View.cover_of_tiledL (kernelRun2_A c i arg1 harg1 arg2 harg2 arg3 harg3 arg4 harg4 arg5 harg5 arg6 harg6 arg7 harg7 hc0 hc1 x0 x1).1 S5000x128.size (by sl_kernel_rfl) y

def out2_A_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32)  : Vec F S5000x128 .f32 :=
  VO2_2.read (Elt F) (VO2_2.writes (Elt F) VO2_2.junk (kernelRun2_A c i arg1 harg1 arg2 harg2 arg3 harg3 arg4 harg4 arg5 harg5 arg6 harg6 arg7 harg7 hc0 hc1 x0 x1).1)

theorem cover_sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32)  (y : S1x128.Idx) :
    ∃ pc ∈ (kernelRun2_A c i arg1 harg1 arg2 harg2 arg3 harg3 arg4 harg4 arg5 harg5 arg6 harg6 arg7 harg7 hc0 hc1 x0 x1).2.1, y ∈ pc.1.set :=
  View.cover_of_tiledL (kernelRun2_A c i arg1 harg1 arg2 harg2 arg3 harg3 arg4 harg4 arg5 harg5 arg6 harg6 arg7 harg7 hc0 hc1 x0 x1).2.1 S1x128.size (by sl_kernel_rfl) y

def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32)  : Vec F S1x128 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1).2.1)

theorem cover_sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32)  (y : S1x128.Idx) :
    ∃ pc ∈ (kernelRun2_A c i arg1 harg1 arg2 harg2 arg3 harg3 arg4 harg4 arg5 harg5 arg6 harg6 arg7 harg7 hc0 hc1 x0 x1).2.2.1, y ∈ pc.1.set :=
  View.cover_of_tiledL (kernelRun2_A c i arg1 harg1 arg2 harg2 arg3 harg3 arg4 harg4 arg5 harg5 arg6 harg6 arg7 harg7 hc0 hc1 x0 x1).2.2.1 S1x128.size (by sl_kernel_rfl) y

def sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32)  : Vec F S1x128 .f32 :=
  VS2_1.read (Elt F) (VS2_1.writes (Elt F) VS2_1.junk (kernelRun2_A c i arg1 harg1 arg2 harg2 arg3 harg3 arg4 harg4 arg5 harg5 arg6 harg6 arg7 harg7 hc0 hc1 x0 x1).2.2.1)

theorem cover_out2_B_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) (y : S5000x128.Idx) :
    ∃ pc ∈ (kernelRun2_B c i arg1 harg1 arg2 harg2 arg3 harg3 arg4 harg4 arg5 harg5 arg6 harg6 arg7 harg7 hc0 hc1 x0 x1 xs0 xs1).1, y ∈ pc.1.set :=
  View.cover_of_tiledL (kernelRun2_B c i arg1 harg1 arg2 harg2 arg3 harg3 arg4 harg4 arg5 harg5 arg6 harg6 arg7 harg7 hc0 hc1 x0 x1 xs0 xs1).1 S5000x128.size (by sl_kernel_rfl) y

def out2_B_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) : Vec F S5000x128 .f32 :=
  VO2_2.read (Elt F) (VO2_2.writes (Elt F) VO2_2.junk (kernelRun2_B c i arg1 harg1 arg2 harg2 arg3 harg3 arg4 harg4 arg5 harg5 arg6 harg6 arg7 harg7 hc0 hc1 x0 x1 xs0 xs1).1)

theorem cover_sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) (y : S1x128.Idx) :
    ∃ pc ∈ (kernelRun2_B c i arg1 harg1 arg2 harg2 arg3 harg3 arg4 harg4 arg5 harg5 arg6 harg6 arg7 harg7 hc0 hc1 x0 x1 xs0 xs1).2.1, y ∈ pc.1.set :=
  View.cover_of_tiledL (kernelRun2_B c i arg1 harg1 arg2 harg2 arg3 harg3 arg4 harg4 arg5 harg5 arg6 harg6 arg7 harg7 hc0 hc1 x0 x1 xs0 xs1).2.1 S1x128.size (by sl_kernel_rfl) y

def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 xs0 xs1).2.1)

theorem cover_sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) (y : S1x128.Idx) :
    ∃ pc ∈ (kernelRun2_B c i arg1 harg1 arg2 harg2 arg3 harg3 arg4 harg4 arg5 harg5 arg6 harg6 arg7 harg7 hc0 hc1 x0 x1 xs0 xs1).2.2.1, y ∈ pc.1.set :=
  View.cover_of_tiledL (kernelRun2_B c i arg1 harg1 arg2 harg2 arg3 harg3 arg4 harg4 arg5 harg5 arg6 harg6 arg7 harg7 hc0 hc1 x0 x1 xs0 xs1).2.2.1 S1x128.size (by sl_kernel_rfl) y

def sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 hc0 hc1 x0 x1 xs0 xs1).2.2.1)

theorem cover_out2_C_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) (y : S5000x128.Idx) :
    ∃ pc ∈ (kernelRun2_C c i arg1 harg1 arg2 harg2 arg3 harg3 arg4 harg4 arg5 harg5 arg6 harg6 arg7 harg7 hc0 hc1 x0 x1 xs0 xs1).1, y ∈ pc.1.set :=
  View.cover_of_tiledL (kernelRun2_C c i arg1 harg1 arg2 harg2 arg3 harg3 arg4 harg4 arg5 harg5 arg6 harg6 arg7 harg7 hc0 hc1 x0 x1 xs0 xs1).1 S5000x128.size (by sl_kernel_rfl) y

def out2_C_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) : Vec F S5000x128 .f32 :=
  VO2_2.read (Elt F) (VO2_2.writes (Elt F) VO2_2.junk (kernelRun2_C c i arg1 harg1 arg2 harg2 arg3 harg3 arg4 harg4 arg5 harg5 arg6 harg6 arg7 harg7 hc0 hc1 x0 x1 xs0 xs1).1)

theorem cover_out2_C_3 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.1, y ∈ pc.1.set :=
  View.cover_of_tiledL (kernelRun2_C c i arg1 harg1 arg2 harg2 arg3 harg3 arg4 harg4 arg5 harg5 arg6 harg6 arg7 harg7 hc0 hc1 x0 x1 xs0 xs1).2.1 S1x128.size (by sl_kernel_rfl) y

def out2_C_3 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) : Vec F S1x128 .f32 :=
  VO2_3.read (Elt F) (VO2_3.writes (Elt F) VO2_3.junk (kernelRun2_C c i arg1 harg1 arg2 harg2 arg3 harg3 arg4 harg4 arg5 harg5 arg6 harg6 arg7 harg7 hc0 hc1 x0 x1 xs0 xs1).2.1)

theorem cover_out2_C_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.2.1, y ∈ pc.1.set :=
  View.cover_of_tiledL (kernelRun2_C c i arg1 harg1 arg2 harg2 arg3 harg3 arg4 harg4 arg5 harg5 arg6 harg6 arg7 harg7 hc0 hc1 x0 x1 xs0 xs1).2.2.1 S1x128.size (by sl_kernel_rfl) y

def out2_C_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 hc0 hc1 x0 x1 xs0 xs1).2.2.1)

theorem cover_sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.2.2.1, y ∈ pc.1.set :=
  View.cover_of_tiledL (kernelRun2_C c i arg1 harg1 arg2 harg2 arg3 harg3 arg4 harg4 arg5 harg5 arg6 harg6 arg7 harg7 hc0 hc1 x0 x1 xs0 xs1).2.2.2.1 S1x128.size (by sl_kernel_rfl) y

def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 xs0 xs1).2.2.2.1)

theorem cover_sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.2.2.2.1, y ∈ pc.1.set :=
  View.cover_of_tiledL (kernelRun2_C c i arg1 harg1 arg2 harg2 arg3 harg3 arg4 harg4 arg5 harg5 arg6 harg6 arg7 harg7 hc0 hc1 x0 x1 xs0 xs1).2.2.2.2.1 S1x128.size (by sl_kernel_rfl) y

def sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 hc0 hc1 x0 x1 xs0 xs1).2.2.2.2.1)

end Cert.Kernel.Hand

end
-- ==== Proof.BitsStats2.lean ====
import proofs.«153656_j10943576670413_2_alg».proof.Proof.BitsStats2Pieces

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The statistics region: the windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulation over the ten points -/

/-- What the three output buffers and the two accumulators hold after the body at position n (the sum output, the two
    statistics outputs, the two accumulators): at the first point the reset case; at the last the copy-out case and at
    the others the plain case, both over the accumulators the point before left. The statistics outputs are written only
    at the last point; before it their components are placeholders nothing reads. -/
def outsAt2 (c : Dev nD) : (n : ℕ) → n < cfg2.N → Vec F S5000x128 .f32 × Vec F S1x128 .f32 × Vec F S1x128 .f32 × Vec F S1x128 .f32 × Vec F S1x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 9 by decide)) (iblk2 V c 0 ⟨0, hn⟩) (iblk2 V c 1 ⟨0, hn⟩),
      VO2_3.read (Elt F) VO2_3.junk, VO2_4.read (Elt F) VO2_4.junk,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 9 by decide)) (iblk2 V c 0 ⟨0, hn⟩) (iblk2 V c 1 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 9 by decide)) (iblk2 V c 0 ⟨0, hn⟩) (iblk2 V c 1 ⟨0, hn⟩))
  | n + 1, hn =>
    if h1 : n + 1 = 9 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2.2.2.1 (outsAt2 c n (Nat.lt_of_succ_lt hn)).2.2.2.2,
        out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2.2.2.1 (outsAt2 c n (Nat.lt_of_succ_lt hn)).2.2.2.2,
        out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2.2.2.1 (outsAt2 c n (Nat.lt_of_succ_lt hn)).2.2.2.2,
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2.2.2.1 (outsAt2 c n (Nat.lt_of_succ_lt hn)).2.2.2.2,
        sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2.2.2.1 (outsAt2 c n (Nat.lt_of_succ_lt hn)).2.2.2.2)
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (outsAt2 c n (Nat.lt_of_succ_lt hn)).2.2.2.1 (outsAt2 c n (Nat.lt_of_succ_lt hn)).2.2.2.2,
        VO2_3.read (Elt F) VO2_3.junk, VO2_4.read (Elt F) VO2_4.junk,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (outsAt2 c n (Nat.lt_of_succ_lt hn)).2.2.2.1 (outsAt2 c n (Nat.lt_of_succ_lt hn)).2.2.2.2,
        sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (outsAt2 c n (Nat.lt_of_succ_lt hn)).2.2.2.1 (outsAt2 c n (Nat.lt_of_succ_lt hn)).2.2.2.2)

/-- The accumulators the point before t left (t not the first). -/
abbrev prevS0 (c : Dev nD) (t : Fin cfg2.N) : Vec F S1x128 .f32 := (outsAt2 V c (t.val - 1) (Nat.lt_of_le_of_lt (Nat.sub_le _ _) t.isLt)).2.2.2.1
abbrev prevS1 (c : Dev nD) (t : Fin cfg2.N) : Vec F S1x128 .f32 := (outsAt2 V c (t.val - 1) (Nat.lt_of_le_of_lt (Nat.sub_le _ _) t.isLt)).2.2.2.2

/-- The accumulation at the first point. -/
theorem outsAt2_A (c : Dev nD) (t : Fin cfg2.N) (h0 : t.val = 0) :
    outsAt2 V c t.val t.isLt = (out2_A_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => absurd ((hcond2_1 t).mp h) (by omega)) (iblk2 V c 0 t) (iblk2 V c 1 t),
      VO2_3.read (Elt F) VO2_3.junk, VO2_4.read (Elt F) VO2_4.junk,
      sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => absurd ((hcond2_1 t).mp h) (by omega)) (iblk2 V c 0 t) (iblk2 V c 1 t),
      sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => absurd ((hcond2_1 t).mp h) (by omega)) (iblk2 V c 0 t) (iblk2 V c 1 t)) := by
  obtain ⟨n, hn⟩ := t
  cases n with
  | zero => exact rfl
  | succ n => exact absurd h0 (Nat.succ_ne_zero n)

/-- The accumulation at a middle point. -/
theorem outsAt2_B (c : Dev nD) (t : Fin cfg2.N) (h0 : ¬t.val = 0) (h1 : ¬t.val = 9) :
    outsAt2 V c t.val t.isLt = (out2_B_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (prevS0 V c t) (prevS1 V c t),
      VO2_3.read (Elt F) VO2_3.junk, VO2_4.read (Elt F) VO2_4.junk,
      sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (prevS0 V c t) (prevS1 V c t),
      sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (prevS0 V c t) (prevS1 V c t)) := by
  obtain ⟨n, hn⟩ := t
  cases n with
  | zero => exact absurd rfl h0
  | succ n => exact (dif_neg h1).trans rfl

/-- The accumulation at the last point. -/
theorem outsAt2_C (c : Dev nD) (t : Fin cfg2.N) (h0 : ¬t.val = 0) (h1 : t.val = 9) :
    outsAt2 V c t.val t.isLt = (out2_C_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (prevS0 V c t) (prevS1 V c t),
      out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (prevS0 V c t) (prevS1 V c t),
      out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (prevS0 V c t) (prevS1 V c t),
      sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (prevS0 V c t) (prevS1 V c t),
      sout2_C_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (prevS0 V c t) (prevS1 V c t)) := by
  obtain ⟨n, hn⟩ := t
  cases n with
  | zero => exact absurd rfl h0
  | succ n => exact (dif_pos h1).trans rfl

/-! ## The region invariant -/

/-- The core's scoped buffers other than the two accumulators — the other regions' staging buffers —, each at some
    contents, and the generator register at some state: what the body never touches. -/
def Rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg5_1), ((c : Thread nD τ).loc cc3_stg5_1) ↦{fullShare} f) ∗ (∃ r, prngReg c r))

/-- The class invariant is the two accumulators at anything beside the rest. -/
theorem PhiA2_split (c : Dev nD) :
    (Pipeline.ΦA spec2 c : sProp 𝕄) ⊢ iprop((∃ d, owns (c : Thread nD τ) scM2_0 fullShare d) ∗ (∃ d, owns (c : Thread nD τ) scM2_1 fullShare d) ∗ Rest2 c) := by
  unfold Pipeline.ΦA Rest2; rw [scopedRest2_eq]; simp only [scM2_0, scM2_1, owns_whole]
  iintro ⟨⟨H1, H2, H3, H4, H5, H6, H7, H8, H9, H10, H11, H12, H13, H14, H15, H16, H17, H18, H19, H20⟩, Hg⟩
  isplitl [H11]; · iexact H11
  isplitl [H12]; · iexact H12
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact Hg

theorem PhiA2_join (c : Dev nD) :
    iprop((∃ d, owns (c : Thread nD τ) scM2_0 fullShare d) ∗ (∃ d, owns (c : Thread nD τ) scM2_1 fullShare d) ∗ Rest2 c) ⊢ (Pipeline.ΦA spec2 c : sProp 𝕄) := by
  unfold Pipeline.ΦA Rest2; rw [scopedRest2_eq]; simp only [scM2_0, scM2_1, owns_whole]
  iintro ⟨H11, H12, H1, H2, H3, H4, H5, H6, H7, H8, H9, H10, H13, H14, H15, H16, H17, H18, H19, H20, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The invariant before position n: before the first point the class's (both accumulators at anything); afterwards
    the two accumulators at what the point before left, beside the rest. -/
def PhiS (c : Dev nD) : (n : ℕ) → n ≤ cfg2.N → sProp 𝕄
  | 0, _ => Pipeline.ΦA spec2 c
  | n + 1, hn => iprop(owns (c : Thread nD τ) scM2_0 fullShare ((outsAt2 V c n hn).2.2.2.1) ∗ owns (c : Thread nD τ) scM2_1 fullShare ((outsAt2 V c n hn).2.2.2.2) ∗ Rest2 c)

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(owns (c : Thread nD τ) scM2_0 fullShare ((outsAt2 V c n hn).2.2.2.1) ∗ owns (c : Thread nD τ) scM2_1 fullShare ((outsAt2 V c n hn).2.2.2.2) ∗ Rest2 c) := rfl
theorem PhiS_pos (c : Dev nD) (n : ℕ) (h : n ≤ cfg2.N) (hz : n ≠ 0) :
    PhiS V c n h = iprop(owns (c : Thread nD τ) scM2_0 fullShare ((outsAt2 V c (n - 1) (by omega)).2.2.2.1) ∗ owns (c : Thread nD τ) scM2_1 fullShare ((outsAt2 V c (n - 1) (by omega)).2.2.2.2) ∗ Rest2 c) := by
  cases n with
  | zero => exact absurd rfl hz
  | succ n => rfl

/-! ## The pipeline's proof data -/

/-- The statistics region's proof data on core c: the arrays as the region finds them; after the body at point t each
    input's buffer at its block and the outputs' at the accumulation's components; the invariant with the two
    accumulators tracked; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
    | ⟨4, _⟩ => (outsAt2 V c t.val t.isLt).2.2.1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]
theorem after2_4 (c : Dev nD) (t : Fin cfg2.N) : (dat2 V c).after 4 t = (outsAt2 V c t.val t.isLt).2.2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.Kernel.Hand

end
-- ==== Proof.BitsStats2Body.lean ====
import proofs.«153656_j10943576670413_2_alg».proof.Proof.BitsStats2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The statistics region's body obligation -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 8000000 in
/-- The body at any point: the inputs' memrefs hold their blocks; the point is the first, a middle one or the last, and
    that case's run applies; the invariant hands the body the two accumulators (at anything at the first point, else at
    what the point before left) and takes them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 10 := lt_of_lt_of_eq t.isLt (show cfg2.N = 10 from N_2)
  by_cases h0 : t.val = 0
  · have h1 : ¬t.val = 9 := by omega
    rw [Dat.leavesExact_idle (dat2 V c) 3 t (idleAt2_3 t (fun h => h1 ((hcond2_1 t).mp h))) (noFlush2_3 t (fun h => h1 ((hcond2_1 t).mp h)))]
    rw [Dat.leavesExact_idle (dat2 V c) 4 t (idleAt2_4 t (fun h => h1 ((hcond2_1 t).mp h))) (noFlush2_4 t (fun h => h1 ((hcond2_1 t).mp h)))]
    rw [outsAt2_A V c t h0]
    (try dsimp only)
    rw [PhiS_castSucc V c t, PhiS_zero V c _ _ h0]
    iintro ⟨HΦ, Ho, ⟨%d0, H0⟩, ⟨%d1, H1⟩, ⟨%d2, H2⟩, ⟨%d3, H3⟩, ⟨%d4, H4⟩⟩
    ihave HΦ' := (PhiA2_split c) $$ HΦ
    icases HΦ' with ⟨HS0, HS1, HR⟩
    iapply ((kernelRun2_A c (grid2.coords t) _ _ _ _ _ _ _ _ _ _ _ _ _ _ ((hcond2_0 t).mpr h0) (fun h => absurd ((hcond2_1 t).mp h) (by omega)) (iblk2 V c 0 t) (iblk2 V c 1 t)).2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [HS0 HS1 HR]
    · isplitl [HS0]
      · unfold owns; iexists _; isplitr
        swap; · iexact HS0
        ipureintro; exact View.read_writes_of_cover _ _ _ _ _ (cover_sout2_A_0 c _ _ _ _ _ _ _ _ _ _ _ _ _ _ _ _ _ _ _)
      isplitl [HS1]
      · unfold owns; iexists _; isplitr
        swap; · iexact HS1
        ipureintro; exact View.read_writes_of_cover _ _ _ _ _ (cover_sout2_A_1 c _ _ _ _ _ _ _ _ _ _ _ _ _ _ _ _ _ _ _)
      iexact HR
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_out2_A_2 c _ _ _ _ _ _ _ _ _ _ _ _ _ _ _ _ _ _ _)
    isplitl [H3]; · iexists _; iexact H3
    iexists _; iexact H4
  · by_cases h1 : t.val = 9
    · rw [show (dat2 V c).leavesExact 3 t = owns (c : Thread nD τ) (ms2_3 t) fullShare ((dat2 V c).after 3 t) from by
        unfold Dat.leavesExact; rw [liveAt2_3 t ((hcond2_1 t).mpr h1)], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      (try dsimp only)
      rw [PhiS_castSucc V c t, PhiS_pos V c _ _ h0]
      iintro ⟨⟨HS0, HS1, HR⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR]
      · isplitl [HS0]
        · unfold owns; iexists _; isplitr
          swap; · iexact HS0
          ipureintro; exact View.read_writes_of_cover _ _ _ _ _ (cover_sout2_C_0 c _ _ _ _ _ _ _ _ _ _ _ _ _ _ _ _ _ _ _ _ _)
        isplitl [HS1]
        · unfold owns; iexists _; isplitr
          swap; · iexact HS1
          ipureintro; exact View.read_writes_of_cover _ _ _ _ _ (cover_sout2_C_1 c _ _ _ _ _ _ _ _ _ _ _ _ _ _ _ _ _ _ _ _ _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover_out2_C_2 c _ _ _ _ _ _ _ _ _ _ _ _ _ _ _ _ _ _ _ _ _)
      isplitl [H3]
      · unfold owns; iexists _; isplitr
        swap; · iexact H3
        ipureintro; exact View.read_writes_of_cover _ _ _ _ _ (cover_out2_C_3 c _ _ _ _ _ _ _ _ _ _ _ _ _ _ _ _ _ _ _ _ _)
      · unfold owns; iexists _; isplitr
        swap; · iexact H4
        ipureintro; exact View.read_writes_of_cover _ _ _ _ _ (cover_out2_C_4 c _ _ _ _ _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [outsAt2_B V c t h0 h1]
      (try dsimp only)
      rw [PhiS_castSucc V c t, PhiS_pos V c _ _ h0]
      iintro ⟨⟨HS0, HS1, HR⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR]
      · isplitl [HS0]
        · unfold owns; iexists _; isplitr
          swap; · iexact HS0
          ipureintro; exact View.read_writes_of_cover _ _ _ _ _ (cover_sout2_B_0 c _ _ _ _ _ _ _ _ _ _ _ _ _ _ _ _ _ _ _ _ _)
        isplitl [HS1]
        · unfold owns; iexists _; isplitr
          swap; · iexact HS1
          ipureintro; exact View.read_writes_of_cover _ _ _ _ _ (cover_sout2_B_1 c _ _ _ _ _ _ _ _ _ _ _ _ _ _ _ _ _ _ _ _ _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover_out2_B_2 c _ _ _ _ _ _ _ _ _ _ _ _ _ _ _ _ _ _ _ _ _)
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with — the generator register, the scoped buffers no window stages — is the invariant
    before the first point (P: what rides along unused). -/
theorem hin2 (c : Dev nD) (P : sProp 𝕄) :
    iprop((∃ r, prngReg c r) ∗ P ∗ Pipeline.scopedRest spec2 c) ⊢ (dat2 V c).Φ 0 := by
  rw [show (dat2 V c).Φ 0 = PhiS V c 0 (Nat.zero_le _) from rfl, PhiS_zero V c 0 _ rfl]
  unfold Pipeline.ΦA
  iintro ⟨Hp, -, Hr⟩
  isplitl [Hr]; · iexact Hr
  iexact Hp

/-- After the last point the invariant gives the same back: the accumulators' named contents are forgotten. -/
theorem hout2 (c : Dev nD) :
    (dat2 V c).Φ (Fin.last cfg2.N) ⊢ iprop((∃ r, prngReg c r) ∗ Pipeline.scopedRest spec2 c) := by
  have hN : cfg2.N = 10 := N_2
  rw [show (dat2 V c).Φ (Fin.last cfg2.N) = PhiS V c (Fin.last cfg2.N).val (Nat.le_of_lt_succ (Fin.last cfg2.N).isLt) from rfl,
    PhiS_pos V c _ _ (by rw [Fin.val_last]; omega)]
  iintro ⟨HS0, HS1, HR⟩
  ihave H := (PhiA2_join c) $$ [HS0 HS1 HR]
  · isplitl [HS0]; · iexists _; iexact HS0
    isplitl [HS1]; · iexists _; iexact HS1
    iexact HR
  unfold Pipeline.ΦA
  icases H with ⟨Hr, Hp⟩
  isplitl [Hp]; · iexact Hp
  iexact Hr

end Cert.Kernel.Hand

end
-- ==== Proof.BitsNorm3.lean ====
/-
  The normalisation region of the kernel program, at any interpretation of the floats.

  Its grid has ten points. At point t the body is handed rows 5000·t … 5000·t + 4999 of the array x to normalise and
  the four 1 × 128 rows mean, var, gamma, beta (the same block at every point); it leaves in the output block
      max(((x − mean) · rsqrt(var + ε)) · gamma + beta, 0),
  the four rows spread down the 5000 rows of the block, and leaves the five input blocks as it found them. Below:
  each window's block at a point as a function of the arrays the region finds, the output block as a function of the
  five input blocks, the body's triple, and the pipeline's proof data with its body obligation.
-/
import proofs.«153656_j10943576670413_2_alg».proof.Proof.Gen.Kernel.Skeleton
import proofs.«153656_j10943576670413_2_alg».proof.Proof.Gen.Kernel.Points
import proofs.«153656_j10943576670413_2_alg».proof.Proof.LaunchKernelP
import Idealize.ShloMosaic.Lib.Pipeline.FrameBody
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every one of them is of a whole block -/

abbrev r3_x : Rect S5000x128 := Rect.unit (s := S5000x128) ![0, 0] S5000x128.size inb_S5000x128_S5000x128_0_0
abbrev r3_v : Rect S1x128 := Rect.unit (s := S1x128) ![0, 0] S1x128.size inb_S1x128_S1x128_0_0

/-! ## What the body leaves in the output block -/

/-- The output block after the body, from the five input blocks: its one store, of the whole block. -/
def out3_5 (x0 : Vec F S5000x128 .f32) (x1 x2 x3 x4 : Vec F S1x128 .f32) : Vec F S5000x128 .f32 :=
  View.canon [⟨r3_x, k3_pay1 (View.ld x0 r3_x) (View.ld x1 r3_v) (View.ld x2 r3_v) (View.ld x3 r3_v) (View.ld x4 r3_v)⟩]

/-- The one store covers the block. -/
theorem cover3_5 (p0 : Vec F S5000x128 .f32) (y : S5000x128.Idx) :
    ∃ pc ∈ ([⟨r3_x, p0⟩] : List (View.Piece (Elt F) S5000x128 .f32)), y ∈ pc.1.set :=
  View.cover_of_tiled [⟨r3_x, p0⟩] S5000x128.size (by rfl) y

/-! ## The body's triple -/

set_option maxHeartbeats 1000000 in
/-- The body on whole blocks, the inputs' at contents x0 … x4 and the output's at anything, runs to the continuation
    holding the inputs' as they were and the output's at out3_5 of them. Its read of the output block before the
    store is of a value nothing uses. -/
theorem sound_kernel3 (c : Dev nD) (E : Set ℕ) (i : grid3.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__bn_norm_kernel i arg1 harg1 arg2 harg2 arg3 harg3 arg4 harg4 arg5 harg5 arg6 harg6) K := by
  simp only [cc3__bn_norm_kernel_eq_skeleton]; unfold cc3__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the region on core c: the arrays as the region finds them; after the body at point t each
    input block as it was and the output block at out3_5 of the five input blocks; the invariant that of a region
    whose body touches its blocks only; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the contents the region finds. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by
  dsimp only [dat3]

/-- Each input's current block holds its block of the array at every point, fetched there or not: a block that is
    not fetched at a point has the index it had at the point before, and the body left it in place. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' blocks hold their blocks of the arrays, so the body's triple applies; the
    invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsRun.lean ====
/-
  The run of the kernel program's @main: four pipelined regions among four stretches of host operations, for any
  float instance, over four families of proof data that are parameters here.

  * The buffer contents at the nine segment boundaries are a fold from the launch memory m: a host stretch maps the
    contents W to what its operations leave (each operation's result written over W at the operation's output
    reference); a region overwrites its windows' arrays with what its write-backs leave and keeps every other buffer.
  * Each family of proof data is only asked for: its entry contents are the entering buffers' (A_eq), it holds each
    array whole (q_eq), it owes no other core anything (owed_eq), its body obligation (hbody), and its invariant at
    the two ends of the grid against the generator register and the scoped buffers no window stages (hin, hout).
  * The run theorem: from any memory with zero counters every weakly fair execution of @main terminates without a
    fault, and every final state has every unscoped buffer at the last boundary's contents W8.
  * Reading W8 back: no host operation writes an argument and no region writes an array it only reads, so W8 at an
    argument is the launch memory there; W8 at the last region's output is what that region's write-backs leave.
-/
import proofs.«153656_j10943576670413_2_alg».proof.Proof.LaunchKernelP
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

/-- The TensorCores' buffer contents, core by core. -/
abbrev Vals (F : FTy → Type) [FloatOps F] := (c : Dev nD) → (b : Ref sig .tc) → Buf (Elt F) ((c : Thread nD τ).loc b)
/-- A family of proof data for one pipeline: for every entry contents, every core's data. -/
abbrev Fam (F : FTy → Type) [FloatOps F] (cfg : Pipeline.Cfg sig Λ₀) :=
  Vals F → (c : Dev nD) → Pipeline.Dat τ (Elt F) Unit ℕ (UR sig nD τ) ℕ cfg c

/-- No pipeline has a prefetched table. -/
abbrev adm : (p : Fin 4) → (pcfgs (F := F) p).Adm := fun p => (cfgs p).toPCfg_adm

/-- What the run asks of region 0's family of proof data. -/
structure Fits0 (d : Fam F cfg0) : Prop where
  A_eq : ∀ (V : Vals F) (c : Dev nD) (w : Fin cfg0.W), (d V c).A w = V c (Pipeline.arrRef spec0 w)
  q_eq : ∀ (V : Vals F) (c : Dev nD) (w : Fin cfg0.W), (d V c).q w = fullShare
  owed_eq : ∀ (V : Vals F) (c : Dev nD) (t : Fin (cfg0.N + 1)), (d V c).owed t = 0
  recorded_eq : ∀ (V : Vals F) (c : Dev nD), (d V c).recorded 0 = Set.univ
  hbody : ∀ (V : Vals F) (c : Dev nD), Pipeline.BodyObligation (d V c) (defs₀ (F := F)) Variants.none () Set.univ
  hin : ∀ (V : Vals F) (c : Dev nD),
    iprop((∃ r, prngReg c r) ∗ Pipeline.prefHeld (pcfgs (F := F) 0).pre c (fun _ => fullShare) (adm 0).1
      ∗ Pipeline.scopedRest (Ix := Unit) (Name := ℕ) (U := UR sig nD τ) (Lvl := ℕ) spec0 c) ⊢ (d V c).Φ 0
  hout : ∀ (V : Vals F) (c : Dev nD),
    (d V c).Φ (Fin.last cfg0.N) ⊢ iprop((∃ r, prngReg c r) ∗ Pipeline.ownSems0 (fun k : PEmpty => k.elim) c
      ∗ Pipeline.scopedRest (Ix := Unit) (Name := ℕ) (U := UR sig nD τ) (Lvl := ℕ) spec0 c)

/-- What the run asks of region 1's family of proof data. -/
structure Fits1 (d : Fam F cfg1) : Prop where
  A_eq : ∀ (V : Vals F) (c : Dev nD) (w : Fin cfg1.W), (d V c).A w = V c (Pipeline.arrRef spec1 w)
  q_eq : ∀ (V : Vals F) (c : Dev nD) (w : Fin cfg1.W), (d V c).q w = fullShare
  owed_eq : ∀ (V : Vals F) (c : Dev nD) (t : Fin (cfg1.N + 1)), (d V c).owed t = 0
  recorded_eq : ∀ (V : Vals F) (c : Dev nD), (d V c).recorded 0 = Set.univ
  hbody : ∀ (V : Vals F) (c : Dev nD), Pipeline.BodyObligation (d V c) (defs₀ (F := F)) Variants.none () Set.univ
  hin : ∀ (V : Vals F) (c : Dev nD),
    iprop((∃ r, prngReg c r) ∗ Pipeline.prefHeld (pcfgs (F := F) 1).pre c (fun _ => fullShare) (adm 1).1
      ∗ Pipeline.scopedRest (Ix := Unit) (Name := ℕ) (U := UR sig nD τ) (Lvl := ℕ) spec1 c) ⊢ (d V c).Φ 0
  hout : ∀ (V : Vals F) (c : Dev nD),
    (d V c).Φ (Fin.last cfg1.N) ⊢ iprop((∃ r, prngReg c r) ∗ Pipeline.ownSems0 (fun k : PEmpty => k.elim) c
      ∗ Pipeline.scopedRest (Ix := Unit) (Name := ℕ) (U := UR sig nD τ) (Lvl := ℕ) spec1 c)

/-- What the run asks of region 2's family of proof data. -/
structure Fits2 (d : Fam F cfg2) : Prop where
  A_eq : ∀ (V : Vals F) (c : Dev nD) (w : Fin cfg2.W), (d V c).A w = V c (Pipeline.arrRef spec2 w)
  q_eq : ∀ (V : Vals F) (c : Dev nD) (w : Fin cfg2.W), (d V c).q w = fullShare
  owed_eq : ∀ (V : Vals F) (c : Dev nD) (t : Fin (cfg2.N + 1)), (d V c).owed t = 0
  recorded_eq : ∀ (V : Vals F) (c : Dev nD), (d V c).recorded 0 = Set.univ
  hbody : ∀ (V : Vals F) (c : Dev nD), Pipeline.BodyObligation (d V c) (defs₀ (F := F)) Variants.none () Set.univ
  hin : ∀ (V : Vals F) (c : Dev nD),
    iprop((∃ r, prngReg c r) ∗ Pipeline.prefHeld (pcfgs (F := F) 2).pre c (fun _ => fullShare) (adm 2).1
      ∗ Pipeline.scopedRest (Ix := Unit) (Name := ℕ) (U := UR sig nD τ) (Lvl := ℕ) spec2 c) ⊢ (d V c).Φ 0
  hout : ∀ (V : Vals F) (c : Dev nD),
    (d V c).Φ (Fin.last cfg2.N) ⊢ iprop((∃ r, prngReg c r) ∗ Pipeline.ownSems0 (fun k : PEmpty => k.elim) c
      ∗ Pipeline.scopedRest (Ix := Unit) (Name := ℕ) (U := UR sig nD τ) (Lvl := ℕ) spec2 c)

/-- What the run asks of region 3's family of proof data. -/
structure Fits3 (d : Fam F cfg3) : Prop where
  A_eq : ∀ (V : Vals F) (c : Dev nD) (w : Fin cfg3.W), (d V c).A w = V c (Pipeline.arrRef spec3 w)
  q_eq : ∀ (V : Vals F) (c : Dev nD) (w : Fin cfg3.W), (d V c).q w = fullShare
  owed_eq : ∀ (V : Vals F) (c : Dev nD) (t : Fin (cfg3.N + 1)), (d V c).owed t = 0
  recorded_eq : ∀ (V : Vals F) (c : Dev nD), (d V c).recorded 0 = Set.univ
  hbody : ∀ (V : Vals F) (c : Dev nD), Pipeline.BodyObligation (d V c) (defs₀ (F := F)) Variants.none () Set.univ
  hin : ∀ (V : Vals F) (c : Dev nD),
    iprop((∃ r, prngReg c r) ∗ Pipeline.prefHeld (pcfgs (F := F) 3).pre c (fun _ => fullShare) (adm 3).1
      ∗ Pipeline.scopedRest (Ix := Unit) (Name := ℕ) (U := UR sig nD τ) (Lvl := ℕ) spec3 c) ⊢ (d V c).Φ 0
  hout : ∀ (V : Vals F) (c : Dev nD),
    (d V c).Φ (Fin.last cfg3.N) ⊢ iprop((∃ r, prngReg c r) ∗ Pipeline.ownSems0 (fun k : PEmpty => k.elim) c
      ∗ Pipeline.scopedRest (Ix := Unit) (Name := ℕ) (U := UR sig nD τ) (Lvl := ℕ) spec3 c)

variable (d0 : Fam F cfg0) (d1 : Fam F cfg1) (d2 : Fam F cfg2) (d3 : Fam F cfg3)
variable (m : (ℓ : Loc nD τ sig) → Buf (Elt F) ℓ)

/-! ## What the host stretches write -/

/-- No operation of host stretch 0 allocates a buffer. -/
theorem hostOps0_fresh : (hostOps0 : List (HloOp τ sig (Elt F))).Forall fun op => op.fresh = ∅ := by
  simp only [List.Forall]; repeat' constructor
/-- The references host stretch 0's operations write: each operation's output. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)

/-- No operation of host stretch 1 allocates a buffer. -/
theorem hostOps1_fresh : (hostOps1 : List (HloOp τ sig (Elt F))).Forall fun op => op.fresh = ∅ := by
  simp only [List.Forall]; repeat' constructor
/-- The references host stretch 1's operations write: each operation's output. -/
abbrev hostOps1_W : List (Ref sig .tc) := [main_v6, main_v7, main_v8, main_v9, main_v10]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)

/-- No operation of host stretch 2 allocates a buffer. -/
theorem hostOps2_fresh : (hostOps2 : List (HloOp τ sig (Elt F))).Forall fun op => op.fresh = ∅ := by
  simp only [List.Forall]; repeat' constructor
/-- The references host stretch 2's operations write: each operation's output. -/
abbrev hostOps2_W : List (Ref sig .tc) := [main_c, main_v12, main_v13, main_c_0, main_v14, main_v15, main_v16, main_v17, main_v18, main_c_1, main_v19, main_v20, main_c_2, main_v21, main_v22, main_v23, main_v24, main_v25, main_v26, main_v27, main_v28, main_v29, main_cst, main_v30, main_v31, main_cst_3, main_v32, main_v33, main_c_4, main_v34, main_v35, main_c_5, main_v36, main_v37, main_v38, main_v39, main_v40, main_v41, main_cst_6, main_v42, main_v43, main_v44]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)

/-- No operation of host stretch 3 allocates a buffer. -/
theorem hostOps3_fresh : (hostOps3 : List (HloOp τ sig (Elt F))).Forall fun op => op.fresh = ∅ := by
  simp only [List.Forall]; repeat' constructor
/-- The references host stretch 3's operations write: each operation's output. -/
abbrev hostOps3_W : List (Ref sig .tc) := [main_cst_7, main_v46, main_v47, main_cst_8, main_v48, main_v49, main_v50, main_v51, main_v52, main_v53]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)

/-! ## The buffer contents at each segment boundary: a fold through @main -/

/-- Core c's buffers at launch. -/
abbrev W0 : Dev nD → Valuation τ sig (Elt F) := fun c b => m (c, b)

/-- After host stretch 0: region 0's entry contents. -/
abbrev W1 : Dev nD → Valuation τ sig (Elt F) := fun c => StableHlo.after hostOps0 (W0 m c)
/-- The same read at the TensorCore's references (what region 0's proof data take). -/
abbrev V1 : Vals F := fun c b => W1 m c b
/-- A reference host stretch 0 does not write holds what it held. -/
theorem W1_of (c : Dev nD) (r : Ref sig .tc) (h : r ∉ hostOps0_W) :
    W1 m c (Proc.devRef .tc r) = W0 m c (Proc.devRef .tc r) :=
  StableHlo.after_of_writes_sub hostOps0 _ hostOps0_writes h
/-- At region 0's exit: its arrays at what the pipeline leaves (an input as entered, an output with every
    write-back folded in), every other buffer as entered. -/
def W2 (c : Dev nD) : Valuation τ sig (Elt F) :=
  Pipeline.withArrays spec0 c (W1 m c) fun w => (d0 (V1 m) c).arrAt w cfg0.N
theorem W2_arr (c : Dev nD) (w : Fin cfg0.W) :
    W2 d0 m c (Proc.devRef .tc (Pipeline.arrRef spec0 w)) = (d0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 d0 m c (Proc.devRef .tc b) = W1 m c (Proc.devRef .tc b) := by
  unfold W2; exact Pipeline.withArrays_of_ne spec0 c _ _ b hb
/-- The same read at the TensorCore's references (region 0's exit contents). -/
abbrev V2 : Vals F := fun c b => W2 d0 m c b
/-- At region 0's exit each of its arrays holds what the pipeline leaves, and every other buffer what it held at entry. -/
theorem hF0 (c : Dev nD) (w : Fin cfg0.W) : (d0 (V1 m) c).arrAt w cfg0.N = V2 d0 m c (Pipeline.arrRef spec0 w) :=
  (W2_arr d0 m c w).symm
theorem hrest0 (c : Dev nD) : ∀ b, b ∉ Finset.univ.image (Pipeline.arrRef spec0) → V2 d0 m c b = V1 m c b :=
  fun b hb => W2_of_ne d0 m c b fun w e => hb (Finset.mem_image.mpr ⟨w, Finset.mem_univ _, e⟩)

/-- After host stretch 1: region 1's entry contents. -/
abbrev W3 : Dev nD → Valuation τ sig (Elt F) := fun c => StableHlo.after hostOps1 (W2 d0 m c)
/-- The same read at the TensorCore's references (what region 1's proof data take). -/
abbrev V3 : Vals F := fun c b => W3 d0 m c b
/-- A reference host stretch 1 does not write holds what it held. -/
theorem W3_of (c : Dev nD) (r : Ref sig .tc) (h : r ∉ hostOps1_W) :
    W3 d0 m c (Proc.devRef .tc r) = W2 d0 m c (Proc.devRef .tc r) :=
  StableHlo.after_of_writes_sub hostOps1 _ hostOps1_writes h
/-- At region 1's exit: its arrays at what the pipeline leaves (an input as entered, an output with every
    write-back folded in), every other buffer as entered. -/
def W4 (c : Dev nD) : Valuation τ sig (Elt F) :=
  Pipeline.withArrays spec1 c (W3 d0 m c) fun w => (d1 (V3 d0 m) c).arrAt w cfg1.N
theorem W4_arr (c : Dev nD) (w : Fin cfg1.W) :
    W4 d0 d1 m c (Proc.devRef .tc (Pipeline.arrRef spec1 w)) = (d1 (V3 d0 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 d0 d1 m c (Proc.devRef .tc b) = W3 d0 m c (Proc.devRef .tc b) := by
  unfold W4; exact Pipeline.withArrays_of_ne spec1 c _ _ b hb
/-- The same read at the TensorCore's references (region 1's exit contents). -/
abbrev V4 : Vals F := fun c b => W4 d0 d1 m c b
/-- At region 1's exit each of its arrays holds what the pipeline leaves, and every other buffer what it held at entry. -/
theorem hF1 (c : Dev nD) (w : Fin cfg1.W) : (d1 (V3 d0 m) c).arrAt w cfg1.N = V4 d0 d1 m c (Pipeline.arrRef spec1 w) :=
  (W4_arr d0 d1 m c w).symm
theorem hrest1 (c : Dev nD) : ∀ b, b ∉ Finset.univ.image (Pipeline.arrRef spec1) → V4 d0 d1 m c b = V3 d0 m c b :=
  fun b hb => W4_of_ne d0 d1 m c b fun w e => hb (Finset.mem_image.mpr ⟨w, Finset.mem_univ _, e⟩)

/-- After host stretch 2: region 2's entry contents. -/
abbrev W5 : Dev nD → Valuation τ sig (Elt F) := fun c => StableHlo.after hostOps2 (W4 d0 d1 m c)
/-- The same read at the TensorCore's references (what region 2's proof data take). -/
abbrev V5 : Vals F := fun c b => W5 d0 d1 m c b
/-- A reference host stretch 2 does not write holds what it held. -/
theorem W5_of (c : Dev nD) (r : Ref sig .tc) (h : r ∉ hostOps2_W) :
    W5 d0 d1 m c (Proc.devRef .tc r) = W4 d0 d1 m c (Proc.devRef .tc r) :=
  StableHlo.after_of_writes_sub hostOps2 _ hostOps2_writes h
/-- At region 2's exit: its arrays at what the pipeline leaves (an input as entered, an output with every
    write-back folded in), every other buffer as entered. -/
def W6 (c : Dev nD) : Valuation τ sig (Elt F) :=
  Pipeline.withArrays spec2 c (W5 d0 d1 m c) fun w => (d2 (V5 d0 d1 m) c).arrAt w cfg2.N
theorem W6_arr (c : Dev nD) (w : Fin cfg2.W) :
    W6 d0 d1 d2 m c (Proc.devRef .tc (Pipeline.arrRef spec2 w)) = (d2 (V5 d0 d1 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 d0 d1 d2 m c (Proc.devRef .tc b) = W5 d0 d1 m c (Proc.devRef .tc b) := by
  unfold W6; exact Pipeline.withArrays_of_ne spec2 c _ _ b hb
/-- The same read at the TensorCore's references (region 2's exit contents). -/
abbrev V6 : Vals F := fun c b => W6 d0 d1 d2 m c b
/-- At region 2's exit each of its arrays holds what the pipeline leaves, and every other buffer what it held at entry. -/
theorem hF2 (c : Dev nD) (w : Fin cfg2.W) : (d2 (V5 d0 d1 m) c).arrAt w cfg2.N = V6 d0 d1 d2 m c (Pipeline.arrRef spec2 w) :=
  (W6_arr d0 d1 d2 m c w).symm
theorem hrest2 (c : Dev nD) : ∀ b, b ∉ Finset.univ.image (Pipeline.arrRef spec2) → V6 d0 d1 d2 m c b = V5 d0 d1 m c b :=
  fun b hb => W6_of_ne d0 d1 d2 m c b fun w e => hb (Finset.mem_image.mpr ⟨w, Finset.mem_univ _, e⟩)

/-- After host stretch 3: region 3's entry contents. -/
abbrev W7 : Dev nD → Valuation τ sig (Elt F) := fun c => StableHlo.after hostOps3 (W6 d0 d1 d2 m c)
/-- The same read at the TensorCore's references (what region 3's proof data take). -/
abbrev V7 : Vals F := fun c b => W7 d0 d1 d2 m c b
/-- A reference host stretch 3 does not write holds what it held. -/
theorem W7_of (c : Dev nD) (r : Ref sig .tc) (h : r ∉ hostOps3_W) :
    W7 d0 d1 d2 m c (Proc.devRef .tc r) = W6 d0 d1 d2 m c (Proc.devRef .tc r) :=
  StableHlo.after_of_writes_sub hostOps3 _ hostOps3_writes h
/-- At region 3's exit: its arrays at what the pipeline leaves (an input as entered, an output with every
    write-back folded in), every other buffer as entered. -/
def W8 (c : Dev nD) : Valuation τ sig (Elt F) :=
  Pipeline.withArrays spec3 c (W7 d0 d1 d2 m c) fun w => (d3 (V7 d0 d1 d2 m) c).arrAt w cfg3.N
theorem W8_arr (c : Dev nD) (w : Fin cfg3.W) :
    W8 d0 d1 d2 d3 m c (Proc.devRef .tc (Pipeline.arrRef spec3 w)) = (d3 (V7 d0 d1 d2 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 d0 d1 d2 d3 m c (Proc.devRef .tc b) = W7 d0 d1 d2 m c (Proc.devRef .tc b) := by
  unfold W8; exact Pipeline.withArrays_of_ne spec3 c _ _ b hb
/-- The same read at the TensorCore's references (region 3's exit contents). -/
abbrev V8 : Vals F := fun c b => W8 d0 d1 d2 d3 m c b
/-- At region 3's exit each of its arrays holds what the pipeline leaves, and every other buffer what it held at entry. -/
theorem hF3 (c : Dev nD) (w : Fin cfg3.W) : (d3 (V7 d0 d1 d2 m) c).arrAt w cfg3.N = V8 d0 d1 d2 d3 m c (Pipeline.arrRef spec3 w) :=
  (W8_arr d0 d1 d2 d3 m c w).symm
theorem hrest3 (c : Dev nD) : ∀ b, b ∉ Finset.univ.image (Pipeline.arrRef spec3) → V8 d0 d1 d2 d3 m c b = V7 d0 d1 d2 m c b :=
  fun b hb => W8_of_ne d0 d1 d2 d3 m c b fun w e => hb (Finset.mem_image.mpr ⟨w, Finset.mem_univ _, e⟩)

/-! ## The proof data of every pipeline and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => d0 (V1 m) c
  | ⟨1, _⟩ => fun c => d1 (V3 d0 m) c
  | ⟨2, _⟩ => fun c => d2 (V5 d0 d1 m) c
  | ⟨3, _⟩ => fun c => d3 (V7 d0 d1 d2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts to other cores, none. -/
abbrev R (c : Dev nD) : sProp 𝕄 := iprop((∃ r, prngReg c r) ∗ ∃ W, owes (c : Thread nD τ) (0 : CellTallies nD τ sig Unit) W)
/-- A host stretch as a segment: over the unscoped references from the contents W, R riding along; it ends at the
    stretch's contents after W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W8 d0 d1 d2 d3 m c) ∗ ∃ r, prngReg c r)

/-! ## The regions as segments -/

set_option backward.isDefEq.respectTransparency.types false in
/-- REGION 0 over the thread state: entered from every unscoped buffer at W1, left at W2. Its arrays are split
    out of the unscoped buffers and put back at the exit contents; the generator register goes into the region's
    invariant and comes out; nothing is owed; the kernel has no semaphore of its own. -/
def reg0 (h0 : Fits0 d0) : Pipeline.RegionSeg (pcfgs (F := F)) adm (pdats d0 d1 d2 d3 m) () defs₀ 𝒱₀ L lv 0 where
  win := launch0.win.to₀
  block_pos := launch0.block_pos
  stage_whole := launch0.stage_whole
  K := PEmpty
  osem k := k.elim
  ho := Pipeline.OwnSemFacts.none _
  hbody c := (h0.hbody (V1 m) c).loose
  hwaits := Pipeline.hwaits_of_owed_zero _ _ _ _ L lv 0 fun c t => h0.owed_eq (V1 m) c t
  pre c := iprop(StableHlo.held (c : Thread nD τ) (Pipeline.ucRefs τ sig) (W1 m c) ∗ R c)
  post c := iprop(StableHlo.held (c : Thread nD τ) (Pipeline.ucRefs τ sig) (W2 d0 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats d0 d1 d2 d3 m) launch0.win launch0.arr_whole c
      ((pdats d0 d1 d2 d3 m 0 c).share_full fun w => h0.q_eq (V1 m) c w) (V1 m c) fun w => h0.A_eq (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 d2 d3 m 0 c).owed 0 = 0 from h0.owed_eq (V1 m) c 0]
      icases HO with ⟨%W, HO⟩; iexists W; isplitr; · ipureintro; exact fun x _ => Or.inl (show x ∈ (d0 (V1 m) c).recorded 0 by rw [h0.recorded_eq (V1 m) c]; exact Set.mem_univ x)
      iexact HO
    isplitl [Hp]; · iexact Hp
    iexact Hrest
  hin c := h0.hin (V1 m) c
  hout c := h0.hout (V1 m) c
  hexit c := by
    have hjoin := Pipeline.unscopedBufs_of_arrays (p := 0) (pcfgs (F := F)) adm (Ix := Unit) (Name := ℕ) (U := UR sig nD τ) (Lvl := ℕ)
      launch0.win launch0.arr_whole c (pdats d0 d1 d2 d3 m) ((pdats d0 d1 d2 d3 m 0 c).share_full fun w => h0.q_eq (V1 m) c w)
      (V1 m c) (V2 d0 m c) ((pdats d0 d1 d2 d3 m 0 c).arrAt · cfg0.N) (hF0 d0 m c) (hrest0 d0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats d0 d1 d2 d3 m 0 c).owed (Fin.last _) = 0 from h0.owed_eq (V1 m) c (Fin.last _)]
    icases HO with ⟨%W, -, HO⟩; iexists W; iexact HO

set_option backward.isDefEq.respectTransparency.types false in
/-- REGION 1 over the thread state: entered from every unscoped buffer at W3, left at W4. Its arrays are split
    out of the unscoped buffers and put back at the exit contents; the generator register goes into the region's
    invariant and comes out; nothing is owed; the kernel has no semaphore of its own. -/
def reg1 (h1 : Fits1 d1) : Pipeline.RegionSeg (pcfgs (F := F)) adm (pdats d0 d1 d2 d3 m) () defs₀ 𝒱₀ L lv 1 where
  win := launch1.win.to₀
  block_pos := launch1.block_pos
  stage_whole := launch1.stage_whole
  K := PEmpty
  osem k := k.elim
  ho := Pipeline.OwnSemFacts.none _
  hbody c := (h1.hbody (V3 d0 m) c).loose
  hwaits := Pipeline.hwaits_of_owed_zero _ _ _ _ L lv 1 fun c t => h1.owed_eq (V3 d0 m) c t
  pre c := iprop(StableHlo.held (c : Thread nD τ) (Pipeline.ucRefs τ sig) (W3 d0 m c) ∗ R c)
  post c := iprop(StableHlo.held (c : Thread nD τ) (Pipeline.ucRefs τ sig) (W4 d0 d1 m c) ∗ R c)
  X c := iprop(∃ r, prngReg c r)
  Y c := iprop(∃ r, prngReg c r)
  Z c := Pipeline.unscopedRest (Ix := Unit) (Name := ℕ) (U := UR sig nD τ) (Lvl := ℕ) spec1 c (V3 d0 m c)
  hentry c := by
    rw [Pipeline.ownSems0_none]
    have hsplit := Pipeline.arrays_of_unscopedBufs (p := 1) (pcfgs (F := F)) adm (pdats d0 d1 d2 d3 m) launch1.win launch1.arr_whole c
      ((pdats d0 d1 d2 d3 m 1 c).share_full fun w => h1.q_eq (V3 d0 m) c w) (V3 d0 m c) fun w => h1.A_eq (V3 d0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 d2 d3 m 1 c).owed 0 = 0 from h1.owed_eq (V3 d0 m) c 0]
      icases HO with ⟨%W, HO⟩; iexists W; isplitr; · ipureintro; exact fun x _ => Or.inl (show x ∈ (d1 (V3 d0 m) c).recorded 0 by rw [h1.recorded_eq (V3 d0 m) c]; exact Set.mem_univ x)
      iexact HO
    isplitl [Hp]; · iexact Hp
    iexact Hrest
  hin c := h1.hin (V3 d0 m) c
  hout c := h1.hout (V3 d0 m) c
  hexit c := by
    have hjoin := Pipeline.unscopedBufs_of_arrays (p := 1) (pcfgs (F := F)) adm (Ix := Unit) (Name := ℕ) (U := UR sig nD τ) (Lvl := ℕ)
      launch1.win launch1.arr_whole c (pdats d0 d1 d2 d3 m) ((pdats d0 d1 d2 d3 m 1 c).share_full fun w => h1.q_eq (V3 d0 m) c w)
      (V3 d0 m c) (V4 d0 d1 m c) ((pdats d0 d1 d2 d3 m 1 c).arrAt · cfg1.N) (hF1 d0 d1 m c) (hrest1 d0 d1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats d0 d1 d2 d3 m 1 c).owed (Fin.last _) = 0 from h1.owed_eq (V3 d0 m) c (Fin.last _)]
    icases HO with ⟨%W, -, HO⟩; iexists W; iexact HO

set_option backward.isDefEq.respectTransparency.types false in
/-- REGION 2 over the thread state: entered from every unscoped buffer at W5, left at W6. Its arrays are split
    out of the unscoped buffers and put back at the exit contents; the generator register goes into the region's
    invariant and comes out; nothing is owed; the kernel has no semaphore of its own. -/
def reg2 (h2 : Fits2 d2) : Pipeline.RegionSeg (pcfgs (F := F)) adm (pdats d0 d1 d2 d3 m) () defs₀ 𝒱₀ L lv 2 where
  win := launch2.win.to₀
  block_pos := launch2.block_pos
  stage_whole := launch2.stage_whole
  K := PEmpty
  osem k := k.elim
  ho := Pipeline.OwnSemFacts.none _
  hbody c := (h2.hbody (V5 d0 d1 m) c).loose
  hwaits := Pipeline.hwaits_of_owed_zero _ _ _ _ L lv 2 fun c t => h2.owed_eq (V5 d0 d1 m) c t
  pre c := iprop(StableHlo.held (c : Thread nD τ) (Pipeline.ucRefs τ sig) (W5 d0 d1 m c) ∗ R c)
  post c := iprop(StableHlo.held (c : Thread nD τ) (Pipeline.ucRefs τ sig) (W6 d0 d1 d2 m c) ∗ R c)
  X c := iprop(∃ r, prngReg c r)
  Y c := iprop(∃ r, prngReg c r)
  Z c := Pipeline.unscopedRest (Ix := Unit) (Name := ℕ) (U := UR sig nD τ) (Lvl := ℕ) spec2 c (V5 d0 d1 m c)
  hentry c := by
    rw [Pipeline.ownSems0_none]
    have hsplit := Pipeline.arrays_of_unscopedBufs (p := 2) (pcfgs (F := F)) adm (pdats d0 d1 d2 d3 m) launch2.win launch2.arr_whole c
      ((pdats d0 d1 d2 d3 m 2 c).share_full fun w => h2.q_eq (V5 d0 d1 m) c w) (V5 d0 d1 m c) fun w => h2.A_eq (V5 d0 d1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 d2 d3 m 2 c).owed 0 = 0 from h2.owed_eq (V5 d0 d1 m) c 0]
      icases HO with ⟨%W, HO⟩; iexists W; isplitr; · ipureintro; exact fun x _ => Or.inl (show x ∈ (d2 (V5 d0 d1 m) c).recorded 0 by rw [h2.recorded_eq (V5 d0 d1 m) c]; exact Set.mem_univ x)
      iexact HO
    isplitl [Hp]; · iexact Hp
    iexact Hrest
  hin c := h2.hin (V5 d0 d1 m) c
  hout c := h2.hout (V5 d0 d1 m) c
  hexit c := by
    have hjoin := Pipeline.unscopedBufs_of_arrays (p := 2) (pcfgs (F := F)) adm (Ix := Unit) (Name := ℕ) (U := UR sig nD τ) (Lvl := ℕ)
      launch2.win launch2.arr_whole c (pdats d0 d1 d2 d3 m) ((pdats d0 d1 d2 d3 m 2 c).share_full fun w => h2.q_eq (V5 d0 d1 m) c w)
      (V5 d0 d1 m c) (V6 d0 d1 d2 m c) ((pdats d0 d1 d2 d3 m 2 c).arrAt · cfg2.N) (hF2 d0 d1 d2 m c) (hrest2 d0 d1 d2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats d0 d1 d2 d3 m 2 c).owed (Fin.last _) = 0 from h2.owed_eq (V5 d0 d1 m) c (Fin.last _)]
    icases HO with ⟨%W, -, HO⟩; iexists W; iexact HO

set_option backward.isDefEq.respectTransparency.types false in
/-- REGION 3 over the thread state: entered from every unscoped buffer at W7, left at W8. Its arrays are split
    out of the unscoped buffers and put back at the exit contents; the generator register goes into the region's
    invariant and comes out; nothing is owed; the kernel has no semaphore of its own. -/
def reg3 (h3 : Fits3 d3) : Pipeline.RegionSeg (pcfgs (F := F)) adm (pdats d0 d1 d2 d3 m) () defs₀ 𝒱₀ L lv 3 where
  win := launch3.win.to₀
  block_pos := launch3.block_pos
  stage_whole := launch3.stage_whole
  K := PEmpty
  osem k := k.elim
  ho := Pipeline.OwnSemFacts.none _
  hbody c := (h3.hbody (V7 d0 d1 d2 m) c).loose
  hwaits := Pipeline.hwaits_of_owed_zero _ _ _ _ L lv 3 fun c t => h3.owed_eq (V7 d0 d1 d2 m) c t
  pre c := iprop(StableHlo.held (c : Thread nD τ) (Pipeline.ucRefs τ sig) (W7 d0 d1 d2 m c) ∗ R c)
  post c := iprop(Tₙ d0 d1 d2 d3 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 d0 d1 d2 m c)
  hentry c := by
    rw [Pipeline.ownSems0_none]
    have hsplit := Pipeline.arrays_of_unscopedBufs (p := 3) (pcfgs (F := F)) adm (pdats d0 d1 d2 d3 m) launch3.win launch3.arr_whole c
      ((pdats d0 d1 d2 d3 m 3 c).share_full fun w => h3.q_eq (V7 d0 d1 d2 m) c w) (V7 d0 d1 d2 m c) fun w => h3.A_eq (V7 d0 d1 d2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 d2 d3 m 3 c).owed 0 = 0 from h3.owed_eq (V7 d0 d1 d2 m) c 0]
      icases HO with ⟨%W, HO⟩; iexists W; isplitr; · ipureintro; exact fun x _ => Or.inl (show x ∈ (d3 (V7 d0 d1 d2 m) c).recorded 0 by rw [h3.recorded_eq (V7 d0 d1 d2 m) c]; exact Set.mem_univ x)
      iexact HO
    isplitl [Hp]; · iexact Hp
    iexact Hrest
  hin c := h3.hin (V7 d0 d1 d2 m) c
  hout c := h3.hout (V7 d0 d1 d2 m) c
  hexit c := by
    have hjoin := Pipeline.unscopedBufs_of_arrays (p := 3) (pcfgs (F := F)) adm (Ix := Unit) (Name := ℕ) (U := UR sig nD τ) (Lvl := ℕ)
      launch3.win launch3.arr_whole c (pdats d0 d1 d2 d3 m) ((pdats d0 d1 d2 d3 m 3 c).share_full fun w => h3.q_eq (V7 d0 d1 d2 m) c w)
      (V7 d0 d1 d2 m c) (V8 d0 d1 d2 d3 m c) ((pdats d0 d1 d2 d3 m 3 c).arrAt · cfg3.N) (hF3 d0 d1 d2 d3 m c) (hrest3 d0 d1 d2 d3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats d0 d1 d2 d3 m 3 c).owed (Fin.last _) = 0 from h3.owed_eq (V7 d0 d1 d2 m) c (Fin.last _)]
    icases HO with ⟨%W, -, HO⟩; iexists W; iexact HO

/-! ## @main as segments, and the launch -/

/-- @main's 8 segments in order: a host segment per stretch from its boundary's contents, a region per pipeline. -/
abbrev segs (h0 : Fits0 d0) (h1 : Fits1 d1) (h2 : Fits2 d2) (h3 : Fits3 d3) :
    List (Pipeline.Seg (pcfgs (F := F)) adm (pdats d0 d1 d2 d3 m) () defs₀ 𝒱₀ L lv) :=
  [ .host (hseg hostOps0 hostOps0_sub hostOps0_fresh (W0 m)),
    .region (reg0 d0 d1 d2 d3 m h0),
    .host (hseg hostOps1 hostOps1_sub hostOps1_fresh (W2 d0 m)),
    .region (reg1 d0 d1 d2 d3 m h1),
    .host (hseg hostOps2 hostOps2_sub hostOps2_fresh (W4 d0 d1 m)),
    .region (reg2 d0 d1 d2 d3 m h2),
    .host (hseg hostOps3 hostOps3_sub hostOps3_fresh (W6 d0 d1 d2 m)),
    .region (reg3 d0 d1 d2 d3 m h3) ]
/-- @main is the run of the segments: both are the same chain of items. -/
theorem main_run (h0 : Fits0 d0) (h1 : Fits1 d1) (h2 : Fits2 d2) (h3 : Fits3 d3) (c : Dev nD) :
    main (F := F) c = Pipeline.Seg.run (segs d0 d1 d2 d3 m h0 h1 h2 h3) := (main_chain c).trans (by chain_rfl)

set_option backward.isDefEq.respectTransparency.types false in
/-- THE RUN: at the compiled mesh, from any memory with zero counters, every weakly fair execution of @main on the
    TensorCores terminates, nothing faulting, and every final state holds every unscoped buffer at the last boundary's
    contents W8: the launch over the segments, the last thread state read against the final state. -/
theorem run_main (h0 : Fits0 d0) (h1 : Fits1 d1) (h2 : Fits2 d2) (h3 : Fits3 d3) (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = W8 d0 d1 d2 d3 m c b) :=
  Pipeline.θ_run_regions_kit (pcfgs (F := F)) adm (pdats d0 d1 d2 d3 m) () cellOf_inj emb₁ defs₀ 𝒱₀ L lv m ρ main (segs d0 d1 d2 d3 m h0 h1 h2 h3)
    (fun c Q => by rw [main_run d0 d1 d2 d3 m h0 h1 h2 h3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ d0 d1 d2 d3 m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 d0 d1 d2 d3 m c b)
    (hfin := fun c s' => by
      iintro ⟨⟨Hh, -⟩, HSI⟩
      unfold StableHlo.held
      imodintro
      iapply (pointsTo_read_all (Pipeline.ucRefs τ sig) (fun b => (((c : Thread nD τ)).1, b)) (W8 d0 d1 d2 d3 m c) s')
      isplitl [Hh] <;> iassumption)
    (hQ := fun s h => h)

/-! ## Reading the last contents back

No host operation writes an argument, and no region writes an array it only reads (a region reads an argument through
an input window or bypasses it): the fold at an argument's buffer walks back to the launch memory. -/

theorem W8_main_arg0 (h0 : Fits0 d0) (c : Dev nD) : W8 d0 d1 d2 d3 m c (Proc.devRef .tc main_arg0) = m ((c : Thread nD τ).loc main_arg0) :=
  calc W8 d0 d1 d2 d3 m c (Proc.devRef .tc main_arg0)
    _ = W7 d0 d1 d2 m c (Proc.devRef .tc main_arg0) := W8_of_ne d0 d1 d2 d3 m c main_arg0 (by decide)
    _ = W6 d0 d1 d2 m c (Proc.devRef .tc main_arg0) := W7_of d0 d1 d2 m c main_arg0 (by decide)
    _ = W5 d0 d1 m c (Proc.devRef .tc main_arg0) := W6_of_ne d0 d1 d2 m c main_arg0 (by decide)
    _ = W4 d0 d1 m c (Proc.devRef .tc main_arg0) := W5_of d0 d1 m c main_arg0 (by decide)
    _ = W3 d0 m c (Proc.devRef .tc main_arg0) := W4_of_ne d0 d1 m c main_arg0 (by decide)
    _ = W2 d0 m c (Proc.devRef .tc main_arg0) := W3_of d0 m c main_arg0 (by decide)
    _ = W1 m c (Proc.devRef .tc main_arg0) := (W2_arr d0 m c 0).trans (((d0 (V1 m) c).arrAt_in 0 rfl _).trans (h0.A_eq (V1 m) c 0))
    _ = W0 m c (Proc.devRef .tc main_arg0) := W1_of m c main_arg0 (by decide)
    _ = m ((c : Thread nD τ).loc main_arg0) := rfl

theorem W8_main_arg1 (h1 : Fits1 d1) (c : Dev nD) : W8 d0 d1 d2 d3 m c (Proc.devRef .tc main_arg1) = m ((c : Thread nD τ).loc main_arg1) :=
  calc W8 d0 d1 d2 d3 m c (Proc.devRef .tc main_arg1)
    _ = W7 d0 d1 d2 m c (Proc.devRef .tc main_arg1) := W8_of_ne d0 d1 d2 d3 m c main_arg1 (by decide)
    _ = W6 d0 d1 d2 m c (Proc.devRef .tc main_arg1) := W7_of d0 d1 d2 m c main_arg1 (by decide)
    _ = W5 d0 d1 m c (Proc.devRef .tc main_arg1) := W6_of_ne d0 d1 d2 m c main_arg1 (by decide)
    _ = W4 d0 d1 m c (Proc.devRef .tc main_arg1) := W5_of d0 d1 m c main_arg1 (by decide)
    _ = W3 d0 m c (Proc.devRef .tc main_arg1) := (W4_arr d0 d1 m c 0).trans (((d1 (V3 d0 m) c).arrAt_in 0 rfl _).trans (h1.A_eq (V3 d0 m) c 0))
    _ = W2 d0 m c (Proc.devRef .tc main_arg1) := W3_of d0 m c main_arg1 (by decide)
    _ = W1 m c (Proc.devRef .tc main_arg1) := W2_of_ne d0 m c main_arg1 (by decide)
    _ = W0 m c (Proc.devRef .tc main_arg1) := W1_of m c main_arg1 (by decide)
    _ = m ((c : Thread nD τ).loc main_arg1) := rfl

theorem W8_main_arg2 (c : Dev nD) : W8 d0 d1 d2 d3 m c (Proc.devRef .tc main_arg2) = m ((c : Thread nD τ).loc main_arg2) :=
  calc W8 d0 d1 d2 d3 m c (Proc.devRef .tc main_arg2)
    _ = W7 d0 d1 d2 m c (Proc.devRef .tc main_arg2) := W8_of_ne d0 d1 d2 d3 m c main_arg2 (by decide)
    _ = W6 d0 d1 d2 m c (Proc.devRef .tc main_arg2) := W7_of d0 d1 d2 m c main_arg2 (by decide)
    _ = W5 d0 d1 m c (Proc.devRef .tc main_arg2) := W6_of_ne d0 d1 d2 m c main_arg2 (by decide)
    _ = W4 d0 d1 m c (Proc.devRef .tc main_arg2) := W5_of d0 d1 m c main_arg2 (by decide)
    _ = W3 d0 m c (Proc.devRef .tc main_arg2) := W4_of_ne d0 d1 m c main_arg2 (by decide)
    _ = W2 d0 m c (Proc.devRef .tc main_arg2) := W3_of d0 m c main_arg2 (by decide)
    _ = W1 m c (Proc.devRef .tc main_arg2) := W2_of_ne d0 m c main_arg2 (by decide)
    _ = W0 m c (Proc.devRef .tc main_arg2) := W1_of m c main_arg2 (by decide)
    _ = m ((c : Thread nD τ).loc main_arg2) := rfl

theorem W8_main_arg3 (c : Dev nD) : W8 d0 d1 d2 d3 m c (Proc.devRef .tc main_arg3) = m ((c : Thread nD τ).loc main_arg3) :=
  calc W8 d0 d1 d2 d3 m c (Proc.devRef .tc main_arg3)
    _ = W7 d0 d1 d2 m c (Proc.devRef .tc main_arg3) := W8_of_ne d0 d1 d2 d3 m c main_arg3 (by decide)
    _ = W6 d0 d1 d2 m c (Proc.devRef .tc main_arg3) := W7_of d0 d1 d2 m c main_arg3 (by decide)
    _ = W5 d0 d1 m c (Proc.devRef .tc main_arg3) := W6_of_ne d0 d1 d2 m c main_arg3 (by decide)
    _ = W4 d0 d1 m c (Proc.devRef .tc main_arg3) := W5_of d0 d1 m c main_arg3 (by decide)
    _ = W3 d0 m c (Proc.devRef .tc main_arg3) := W4_of_ne d0 d1 m c main_arg3 (by decide)
    _ = W2 d0 m c (Proc.devRef .tc main_arg3) := W3_of d0 m c main_arg3 (by decide)
    _ = W1 m c (Proc.devRef .tc main_arg3) := W2_of_ne d0 m c main_arg3 (by decide)
    _ = W0 m c (Proc.devRef .tc main_arg3) := W1_of m c main_arg3 (by decide)
    _ = m ((c : Thread nD τ).loc main_arg3) := rfl

theorem W8_main_arg4 (c : Dev nD) : W8 d0 d1 d2 d3 m c (Proc.devRef .tc main_arg4) = m ((c : Thread nD τ).loc main_arg4) :=
  calc W8 d0 d1 d2 d3 m c (Proc.devRef .tc main_arg4)
    _ = W7 d0 d1 d2 m c (Proc.devRef .tc main_arg4) := W8_of_ne d0 d1 d2 d3 m c main_arg4 (by decide)
    _ = W6 d0 d1 d2 m c (Proc.devRef .tc main_arg4) := W7_of d0 d1 d2 m c main_arg4 (by decide)
    _ = W5 d0 d1 m c (Proc.devRef .tc main_arg4) := W6_of_ne d0 d1 d2 m c main_arg4 (by decide)
    _ = W4 d0 d1 m c (Proc.devRef .tc main_arg4) := W5_of d0 d1 m c main_arg4 (by decide)
    _ = W3 d0 m c (Proc.devRef .tc main_arg4) := W4_of_ne d0 d1 m c main_arg4 (by decide)
    _ = W2 d0 m c (Proc.devRef .tc main_arg4) := W3_of d0 m c main_arg4 (by decide)
    _ = W1 m c (Proc.devRef .tc main_arg4) := W2_of_ne d0 m c main_arg4 (by decide)
    _ = W0 m c (Proc.devRef .tc main_arg4) := W1_of m c main_arg4 (by decide)
    _ = m ((c : Thread nD τ).loc main_arg4) := rfl

theorem W8_main_arg5 (c : Dev nD) : W8 d0 d1 d2 d3 m c (Proc.devRef .tc main_arg5) = m ((c : Thread nD τ).loc main_arg5) :=
  calc W8 d0 d1 d2 d3 m c (Proc.devRef .tc main_arg5)
    _ = W7 d0 d1 d2 m c (Proc.devRef .tc main_arg5) := W8_of_ne d0 d1 d2 d3 m c main_arg5 (by decide)
    _ = W6 d0 d1 d2 m c (Proc.devRef .tc main_arg5) := W7_of d0 d1 d2 m c main_arg5 (by decide)
    _ = W5 d0 d1 m c (Proc.devRef .tc main_arg5) := W6_of_ne d0 d1 d2 m c main_arg5 (by decide)
    _ = W4 d0 d1 m c (Proc.devRef .tc main_arg5) := W5_of d0 d1 m c main_arg5 (by decide)
    _ = W3 d0 m c (Proc.devRef .tc main_arg5) := W4_of_ne d0 d1 m c main_arg5 (by decide)
    _ = W2 d0 m c (Proc.devRef .tc main_arg5) := W3_of d0 m c main_arg5 (by decide)
    _ = W1 m c (Proc.devRef .tc main_arg5) := W2_of_ne d0 m c main_arg5 (by decide)
    _ = W0 m c (Proc.devRef .tc main_arg5) := W1_of m c main_arg5 (by decide)
    _ = m ((c : Thread nD τ).loc main_arg5) := rfl

theorem W8_main_arg6 (c : Dev nD) : W8 d0 d1 d2 d3 m c (Proc.devRef .tc main_arg6) = m ((c : Thread nD τ).loc main_arg6) :=
  calc W8 d0 d1 d2 d3 m c (Proc.devRef .tc main_arg6)
    _ = W7 d0 d1 d2 m c (Proc.devRef .tc main_arg6) := W8_of_ne d0 d1 d2 d3 m c main_arg6 (by decide)
    _ = W6 d0 d1 d2 m c (Proc.devRef .tc main_arg6) := W7_of d0 d1 d2 m c main_arg6 (by decide)
    _ = W5 d0 d1 m c (Proc.devRef .tc main_arg6) := W6_of_ne d0 d1 d2 m c main_arg6 (by decide)
    _ = W4 d0 d1 m c (Proc.devRef .tc main_arg6) := W5_of d0 d1 m c main_arg6 (by decide)
    _ = W3 d0 m c (Proc.devRef .tc main_arg6) := W4_of_ne d0 d1 m c main_arg6 (by decide)
    _ = W2 d0 m c (Proc.devRef .tc main_arg6) := W3_of d0 m c main_arg6 (by decide)
    _ = W1 m c (Proc.devRef .tc main_arg6) := W2_of_ne d0 m c main_arg6 (by decide)
    _ = W0 m c (Proc.devRef .tc main_arg6) := W1_of m c main_arg6 (by decide)
    _ = m ((c : Thread nD τ).loc main_arg6) := rfl

theorem W8_main_arg7 (c : Dev nD) : W8 d0 d1 d2 d3 m c (Proc.devRef .tc main_arg7) = m ((c : Thread nD τ).loc main_arg7) :=
  calc W8 d0 d1 d2 d3 m c (Proc.devRef .tc main_arg7)
    _ = W7 d0 d1 d2 m c (Proc.devRef .tc main_arg7) := W8_of_ne d0 d1 d2 d3 m c main_arg7 (by decide)
    _ = W6 d0 d1 d2 m c (Proc.devRef .tc main_arg7) := W7_of d0 d1 d2 m c main_arg7 (by decide)
    _ = W5 d0 d1 m c (Proc.devRef .tc main_arg7) := W6_of_ne d0 d1 d2 m c main_arg7 (by decide)
    _ = W4 d0 d1 m c (Proc.devRef .tc main_arg7) := W5_of d0 d1 m c main_arg7 (by decide)
    _ = W3 d0 m c (Proc.devRef .tc main_arg7) := W4_of_ne d0 d1 m c main_arg7 (by decide)
    _ = W2 d0 m c (Proc.devRef .tc main_arg7) := W3_of d0 m c main_arg7 (by decide)
    _ = W1 m c (Proc.devRef .tc main_arg7) := W2_of_ne d0 m c main_arg7 (by decide)
    _ = W0 m c (Proc.devRef .tc main_arg7) := W1_of m c main_arg7 (by decide)
    _ = m ((c : Thread nD τ).loc main_arg7) := rfl

theorem W8_main_arg8 (c : Dev nD) : W8 d0 d1 d2 d3 m c (Proc.devRef .tc main_arg8) = m ((c : Thread nD τ).loc main_arg8) :=
  calc W8 d0 d1 d2 d3 m c (Proc.devRef .tc main_arg8)
    _ = W7 d0 d1 d2 m c (Proc.devRef .tc main_arg8) := W8_of_ne d0 d1 d2 d3 m c main_arg8 (by decide)
    _ = W6 d0 d1 d2 m c (Proc.devRef .tc main_arg8) := W7_of d0 d1 d2 m c main_arg8 (by decide)
    _ = W5 d0 d1 m c (Proc.devRef .tc main_arg8) := W6_of_ne d0 d1 d2 m c main_arg8 (by decide)
    _ = W4 d0 d1 m c (Proc.devRef .tc main_arg8) := W5_of d0 d1 m c main_arg8 (by decide)
    _ = W3 d0 m c (Proc.devRef .tc main_arg8) := W4_of_ne d0 d1 m c main_arg8 (by decide)
    _ = W2 d0 m c (Proc.devRef .tc main_arg8) := W3_of d0 m c main_arg8 (by decide)
    _ = W1 m c (Proc.devRef .tc main_arg8) := W2_of_ne d0 m c main_arg8 (by decide)
    _ = W0 m c (Proc.devRef .tc main_arg8) := W1_of m c main_arg8 (by decide)
    _ = m ((c : Thread nD τ).loc main_arg8) := rfl

theorem W8_main_arg9 (c : Dev nD) : W8 d0 d1 d2 d3 m c (Proc.devRef .tc main_arg9) = m ((c : Thread nD τ).loc main_arg9) :=
  calc W8 d0 d1 d2 d3 m c (Proc.devRef .tc main_arg9)
    _ = W7 d0 d1 d2 m c (Proc.devRef .tc main_arg9) := W8_of_ne d0 d1 d2 d3 m c main_arg9 (by decide)
    _ = W6 d0 d1 d2 m c (Proc.devRef .tc main_arg9) := W7_of d0 d1 d2 m c main_arg9 (by decide)
    _ = W5 d0 d1 m c (Proc.devRef .tc main_arg9) := W6_of_ne d0 d1 d2 m c main_arg9 (by decide)
    _ = W4 d0 d1 m c (Proc.devRef .tc main_arg9) := W5_of d0 d1 m c main_arg9 (by decide)
    _ = W3 d0 m c (Proc.devRef .tc main_arg9) := W4_of_ne d0 d1 m c main_arg9 (by decide)
    _ = W2 d0 m c (Proc.devRef .tc main_arg9) := W3_of d0 m c main_arg9 (by decide)
    _ = W1 m c (Proc.devRef .tc main_arg9) := W2_of_ne d0 m c main_arg9 (by decide)
    _ = W0 m c (Proc.devRef .tc main_arg9) := W1_of m c main_arg9 (by decide)
    _ = m ((c : Thread nD τ).loc main_arg9) := rfl

theorem W8_main_arg10 (c : Dev nD) : W8 d0 d1 d2 d3 m c (Proc.devRef .tc main_arg10) = m ((c : Thread nD τ).loc main_arg10) :=
  calc W8 d0 d1 d2 d3 m c (Proc.devRef .tc main_arg10)
    _ = W7 d0 d1 d2 m c (Proc.devRef .tc main_arg10) := W8_of_ne d0 d1 d2 d3 m c main_arg10 (by decide)
    _ = W6 d0 d1 d2 m c (Proc.devRef .tc main_arg10) := W7_of d0 d1 d2 m c main_arg10 (by decide)
    _ = W5 d0 d1 m c (Proc.devRef .tc main_arg10) := W6_of_ne d0 d1 d2 m c main_arg10 (by decide)
    _ = W4 d0 d1 m c (Proc.devRef .tc main_arg10) := W5_of d0 d1 m c main_arg10 (by decide)
    _ = W3 d0 m c (Proc.devRef .tc main_arg10) := W4_of_ne d0 d1 m c main_arg10 (by decide)
    _ = W2 d0 m c (Proc.devRef .tc main_arg10) := W3_of d0 m c main_arg10 (by decide)
    _ = W1 m c (Proc.devRef .tc main_arg10) := W2_of_ne d0 m c main_arg10 (by decide)
    _ = W0 m c (Proc.devRef .tc main_arg10) := W1_of m c main_arg10 (by decide)
    _ = m ((c : Thread nD τ).loc main_arg10) := rfl

/-- The program's result: the last region's output array at what its write-backs leave. -/
theorem W8_main_v54 (c : Dev nD) : W8 d0 d1 d2 d3 m c (Proc.devRef .tc main_v54) = (d3 (V7 d0 d1 d2 m) c).arrAt 5 cfg3.N :=
  W8_arr d0 d1 d2 d3 m c 5

/-- The edge projection's output array at what region 1's write-backs leave: nothing after region 1 writes it. -/
theorem W8_main_v11 (c : Dev nD) : W8 d0 d1 d2 d3 m c (Proc.devRef .tc main_v11) = (d1 (V3 d0 m) c).arrAt 2 cfg1.N :=
  calc W8 d0 d1 d2 d3 m c (Proc.devRef .tc main_v11)
    _ = W7 d0 d1 d2 m c (Proc.devRef .tc main_v11) := W8_of_ne d0 d1 d2 d3 m c main_v11 (by decide)
    _ = W6 d0 d1 d2 m c (Proc.devRef .tc main_v11) := W7_of d0 d1 d2 m c main_v11 (by decide)
    _ = W5 d0 d1 m c (Proc.devRef .tc main_v11) := W6_of_ne d0 d1 d2 m c main_v11 (by decide)
    _ = W4 d0 d1 m c (Proc.devRef .tc main_v11) := W5_of d0 d1 m c main_v11 (by decide)
    _ = (d1 (V3 d0 m) c).arrAt 2 cfg1.N := W4_arr d0 d1 m c 2

end Cert.Kernel.Hand

end
-- ==== Proof.BitsFrames.lean ====
import proofs.«153656_j10943576670413_2_alg».proof.Proof.BitsProj0
import proofs.«153656_j10943576670413_2_alg».proof.Proof.BitsProj1
import proofs.«153656_j10943576670413_2_alg».proof.Proof.BitsStats2Body
import proofs.«153656_j10943576670413_2_alg».proof.Proof.BitsNorm3
import proofs.«153656_j10943576670413_2_alg».proof.Proof.BitsRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

/-! ## The four regions' proof data fit the run; the program's frame -/

theorem fits0 : Fits0 (F := F) (fun V c => dat0 V c) where
  A_eq := fun V c w => A_eq0 V c w
  q_eq := fun _ _ _ => rfl
  owed_eq := fun _ _ _ => rfl
  recorded_eq := fun _ _ => rfl
  hbody := fun V c => body_obligation0 V c
  hin := fun V c => by
    rw [show (dat0 V c).Φ 0 = Pipeline.ΦA spec0 c from rfl]; unfold Pipeline.ΦA
    iintro ⟨Hp, -, Hr⟩
    isplitl [Hr]; · iexact Hr
    iexact Hp
  hout := fun V c => by
    rw [Pipeline.ownSems0_none, show (dat0 V c).Φ (Fin.last _) = Pipeline.ΦA spec0 c from rfl]; unfold Pipeline.ΦA
    iintro ⟨Hr, Hp⟩
    isplitl [Hp]; · iexact Hp
    isplitr; · iempintro
    iexact Hr

theorem fits1 : Fits1 (F := F) (fun V c => dat1 V c) where
  A_eq := fun V c w => A_eq1 V c w
  q_eq := fun _ _ _ => rfl
  owed_eq := fun _ _ _ => rfl
  recorded_eq := fun _ _ => rfl
  hbody := fun V c => body_obligation1 V c
  hin := fun V c => by
    rw [show (dat1 V c).Φ 0 = Pipeline.ΦA spec1 c from rfl]; unfold Pipeline.ΦA
    iintro ⟨Hp, -, Hr⟩
    isplitl [Hr]; · iexact Hr
    iexact Hp
  hout := fun V c => by
    rw [Pipeline.ownSems0_none, show (dat1 V c).Φ (Fin.last _) = Pipeline.ΦA spec1 c from rfl]; unfold Pipeline.ΦA
    iintro ⟨Hr, Hp⟩
    isplitl [Hp]; · iexact Hp
    isplitr; · iempintro
    iexact Hr

theorem fits2 : Fits2 (F := F) (fun V c => dat2 V c) where
  A_eq := fun V c w => A_eq2 V c w
  q_eq := fun _ _ _ => rfl
  owed_eq := fun _ _ _ => rfl
  recorded_eq := fun _ _ => rfl
  hbody := fun V c => body_obligation2 V c
  hin := fun V c => hin2 V c _
  hout := fun V c => (hout2 V c).trans (by
    rw [Pipeline.ownSems0_none]
    iintro ⟨Hp, Hr⟩
    isplitl [Hp]; · iexact Hp
    isplitr; · iempintro
    iexact Hr)

theorem fits3 : Fits3 (F := F) (fun V c => dat3 V c) where
  A_eq := fun V c w => A_eq3 V c w
  q_eq := fun _ _ _ => rfl
  owed_eq := fun _ _ _ => rfl
  recorded_eq := fun _ _ => rfl
  hbody := fun V c => body_obligation3 V c
  hin := fun V c => by
    rw [show (dat3 V c).Φ 0 = Pipeline.ΦA spec3 c from rfl]; unfold Pipeline.ΦA
    iintro ⟨Hp, -, Hr⟩
    isplitl [Hr]; · iexact Hr
    iexact Hp
  hout := fun V c => by
    rw [Pipeline.ownSems0_none, show (dat3 V c).Φ (Fin.last _) = Pipeline.ΦA spec3 c from rfl]; unfold Pipeline.ΦA
    iintro ⟨Hr, Hp⟩
    isplitl [Hp]; · iexact Hp
    isplitr; · iempintro
    iexact Hr

/-- The four proof-data families, named. -/
abbrev D0 : Fam F cfg0 := fun V c => dat0 V c
abbrev D1 : Fam F cfg1 := fun V c => dat1 V c
abbrev D2 : Fam F cfg2 := fun V c => dat2 V c
abbrev D3 : Fam F cfg3 := fun V c => dat3 V c

/-- The program runs — every weakly fair execution terminates, nothing faults — and every unscoped buffer ends at the
    last boundary's contents. -/
theorem run_all (m : (ℓ : Loc nD τ sig) → Buf (Elt F) ℓ) (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = W8 (D0 (F := F)) D1 D2 D3 m c b) :=
  run_main D0 D1 D2 D3 m fits0 fits1 fits2 fits3 ρ

/-- The frame: the program runs and its eleven argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W8_main_arg0 D0 D1 D2 D3 m fits0 c),
     (h c _ (mem_uc main_arg1 (by decide))).trans (W8_main_arg1 D0 D1 D2 D3 m fits1 c),
     (h c _ (mem_uc main_arg2 (by decide))).trans (W8_main_arg2 D0 D1 D2 D3 m c),
     (h c _ (mem_uc main_arg3 (by decide))).trans (W8_main_arg3 D0 D1 D2 D3 m c),
     (h c _ (mem_uc main_arg4 (by decide))).trans (W8_main_arg4 D0 D1 D2 D3 m c),
     (h c _ (mem_uc main_arg5 (by decide))).trans (W8_main_arg5 D0 D1 D2 D3 m c),
     (h c _ (mem_uc main_arg6 (by decide))).trans (W8_main_arg6 D0 D1 D2 D3 m c),
     (h c _ (mem_uc main_arg7 (by decide))).trans (W8_main_arg7 D0 D1 D2 D3 m c),
     (h c _ (mem_uc main_arg8 (by decide))).trans (W8_main_arg8 D0 D1 D2 D3 m c),
     (h c _ (mem_uc main_arg9 (by decide))).trans (W8_main_arg9 D0 D1 D2 D3 m c),
     (h c _ (mem_uc main_arg10 (by decide))).trans (W8_main_arg10 D0 D1 D2 D3 m c)⟩) (run_all m ρ)

end Cert.Kernel.Hand

end
-- ==== Proof.Proj0.lean ====
/-
  The node projection region: a row block of x (5000x128) against the whole of w (128x512), at each of the
  10 grid points, at any float instance.

  The body reads its x block and w whole, reads the output block once without using the value, and overwrites the
  whole output block with the product payload of the two values read. So after the body at point t the two input
  windows hold their blocks and the output window holds the payload of the two input blocks. The w window has one
  block for all points (it is moved in at the first point only); since the body leaves it in place it holds that
  block at every point.
-/
import proofs.«153656_j10943576670413_2_alg».proof.Proof.Gen.KernelIdeal.Skeleton
import proofs.«153656_j10943576670413_2_alg».proof.Proof.Gen.KernelIdeal.Points
import proofs.«153656_j10943576670413_2_alg».proof.Proof.LaunchKernelIdealP
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's buffer holds its block at every point, for any proof data on the region's arrays whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The w window's buffer holds its (only) block at every point, moved in there or not: where it is not, the block
    index has not changed and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The whole output block, the whole x block and the whole of w, each as a rectangle of itself: what the body's store
    and its two used loads go through. -/
abbrev r0_0 : Rect S5000x512 := Rect.unit (s := S5000x512) ![0, 0] S5000x512.size inb_S5000x512_S5000x512_0_0
abbrev r0_x : Rect S5000x128 := Rect.unit (s := S5000x128) ![0, 0] S5000x128.size inb_S5000x128_S5000x128_0_0
abbrev r0_w : Rect S128x512 := Rect.unit (s := S128x512) ![0, 0] S128x512.size inb_S128x512_S128x512_0_0

/-- The output window's buffer after the body: its one store, of the product payload of the two blocks read, over
    the whole buffer. -/
def out0_2 (x0 : Vec F S5000x128 .f32) (x1 : Vec F S128x512 .f32) : Vec F S5000x512 .f32 :=
  View.canon [⟨r0_0, k0_pay1 (View.ld x0 r0_x) (View.ld x1 r0_w)⟩]

/-- The store covers the buffer. -/
theorem cover0_2 (p0 : Vec F S5000x512 .f32) (y : S5000x512.Idx) :
    ∃ pc ∈ ([⟨r0_0, p0⟩] : List (View.Piece (Elt F) S5000x512 .f32)), y ∈ pc.1.set :=
  View.cover_of_tiled [⟨r0_0, p0⟩] S5000x512.size (by rfl) y

/-! ## The body's triple -/

set_option maxHeartbeats 1000000 in
/-- The body on whole staging buffers, the inputs' at contents x0, x1 and the output's at anything, runs to the
    continuation holding the inputs' as they were and the output's at the payload of x0, x1. -/
theorem sound_kernel0 (c : Dev nD) (E : Set ℕ) (i : grid0.Coords)
    (arg1 : Memref sig .tc .vmem S5000x128 .f32) (harg1 : arg1.IsWhole)
    (arg2 : Memref sig .tc .vmem S128x512 .f32) (harg2 : arg2.IsWhole)
    (arg3 : Memref sig .tc .vmem S5000x512 .f32) (harg3 : arg3.IsWhole)
    (x0 : Vec F S5000x128 .f32) (x1 : Vec F S128x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core c: the arrays as the region finds them; after the body at point t
    each input's buffer at its block and the output's at the payload of the two input blocks; the invariant the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Proj1.lean ====
/-
  The edge projection region of the kernel program, at any interpretation of the floats.

  Its grid has one hundred points. At point t the body is handed rows 8000·t … 8000·t + 7999 of the array x and the
  whole 128 × 128 array w (the same block at every point); it leaves in the output block the product of the two, both
  narrowed first, accumulated from zero, and leaves the two input blocks as it found them. Below: each window's block
  at a point as a function of the arrays the region finds, the output block as a function of the two input blocks, the
  body's triple, and the pipeline's proof data with its body obligation.
-/
import proofs.«153656_j10943576670413_2_alg».proof.Proof.Gen.KernelIdeal.Skeleton
import proofs.«153656_j10943576670413_2_alg».proof.Proof.Gen.KernelIdeal.Points
import proofs.«153656_j10943576670413_2_alg».proof.Proof.LaunchKernelIdealP
import Idealize.ShloMosaic.Lib.Pipeline.FrameBody
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in the output block -/

/-- The whole block of x and the whole output block (one shape), and the whole block of w, as rectangles of themselves:
    every access of the body is of a whole block. -/
abbrev r1_x : Rect S8000x128 := Rect.unit (s := S8000x128) ![0, 0] S8000x128.size inb_S8000x128_S8000x128_0_0
abbrev r1_w : Rect S128x128 := Rect.unit (s := S128x128) ![0, 0] S128x128.size inb_S128x128_S128x128_0_0

/-- The output block after the body, from the two input blocks: its one store, of the whole block. -/
def out1_2 (x0 : Vec F S8000x128 .f32) (x1 : Vec F S128x128 .f32) : Vec F S8000x128 .f32 :=
  View.canon [⟨r1_x, k1_pay1 (View.ld x0 r1_x) (View.ld x1 r1_w)⟩]

/-- The one store covers the block. -/
theorem cover1_2 (p0 : Vec F S8000x128 .f32) (y : S8000x128.Idx) :
    ∃ pc ∈ ([⟨r1_x, p0⟩] : List (View.Piece (Elt F) S8000x128 .f32)), y ∈ pc.1.set :=
  View.cover_of_tiled [⟨r1_x, p0⟩] S8000x128.size (by rfl) y

/-! ## The body's triple -/

set_option maxHeartbeats 1000000 in
/-- The body on whole blocks, the inputs' at contents x0, x1 and the output's at anything, runs to the continuation
    holding the inputs' as they were and the output's at out1_2 of them. Its read of the output block before the
    store is of a value nothing uses. -/
theorem sound_kernel1 (c : Dev nD) (E : Set ℕ) (i : grid1.Coords)
    (arg1 : Memref sig .tc .vmem S8000x128 .f32) (harg1 : arg1.IsWhole)
    (arg2 : Memref sig .tc .vmem S128x128 .f32) (harg2 : arg2.IsWhole)
    (arg3 : Memref sig .tc .vmem S8000x128 .f32) (harg3 : arg3.IsWhole)
    (x0 : Vec F S8000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core c: the arrays as the region finds them; after the body at point t each
    input block as it was and the output block at out1_2 of the two input blocks; the invariant that of a region
    whose body touches its blocks only; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the contents the region finds. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Each input's current block holds its block of the array at every point, fetched there or not: a block that is
    not fetched at a point has the index it had at the point before, and the body left it in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' blocks hold their blocks of the arrays, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Stats2Conds.lean ====
import proofs.«153656_j10943576670413_2_alg».proof.Proof.Gen.KernelIdeal.Skeleton
import proofs.«153656_j10943576670413_2_alg».proof.Proof.Gen.KernelIdeal.Points
import proofs.«153656_j10943576670413_2_alg».proof.Proof.LaunchKernelIdealP
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

/-! ## The statistics region's two conditionals, decided over its ten grid points

The body resets its two accumulators under "the point is the first" and copies them out under "the point is the last". -/

/-- The first conditional's condition, from the grid coordinate: the point is the first. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second conditional's condition: the point is the last, the tenth. -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-- The two inputs and the entrywise-sum output are live at every point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The two statistics outputs are idle, and not written back, at every point but the last; live at the last. -/
theorem idleAt2_3 : ∀ t : Fin cfg2.N, ¬cond2_1 (grid2.coords t) → cfg2.idle 3 (grid2.coords t) = true := by decide +kernel
theorem idleAt2_4 : ∀ t : Fin cfg2.N, ¬cond2_1 (grid2.coords t) → cfg2.idle 4 (grid2.coords t) = true := by decide +kernel
theorem noFlush2_3 : ∀ t : Fin cfg2.N, ¬cond2_1 (grid2.coords t) → (cfg2.win 3).flush t = false := by decide +kernel
theorem noFlush2_4 : ∀ t : Fin cfg2.N, ¬cond2_1 (grid2.coords t) → (cfg2.win 4).flush t = false := by decide +kernel
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-- Each window's current staging memref at a point, and the two accumulators' buffers. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev scM2_0 : Memref sig .tc .vmem S1x128 .f32 := Memref.whole cc2_scratch0
abbrev scM2_1 : Memref sig .tc .vmem S1x128 .f32 := Memref.whole cc2_scratch1

end Cert.KernelIdeal.Hand

end
-- ==== Proof.Stats2RunA.lean ====
import proofs.«153656_j10943576670413_2_alg».proof.Proof.Stats2Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

set_option maxHeartbeats 4000000 in
/-- The body at the FIRST point (the reset taken, the copy-out not): on whole staging memrefs — the two inputs at their
    blocks, the sum output at anything, the two statistics outputs handed back untouched, the two accumulators at
    anything — it runs to the continuation with each written buffer holding its stores, as pieces, last first. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32) :
    Σ' (L2 : List (View.Piece (Elt F) S5000x128 .f32)), Σ' (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__bn_stats_kernel i arg1 harg1 arg2 harg2 arg3 harg3 arg4 harg4 arg5 harg5 arg6 harg6 arg7 harg7) K } := by
  refine ⟨?_, ?_, ?_, fun xi3 xi4 E K => ?run⟩
  case run =>
    simp only [cc2__bn_stats_kernel_eq_skeleton]; unfold cc2__bn_stats_kernel_skel
    unfold owns
    iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.KernelIdeal.Hand

end
-- ==== Proof.Stats2RunB.lean ====
import proofs.«153656_j10943576670413_2_alg».proof.Proof.Stats2Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

set_option maxHeartbeats 4000000 in
/-- The body at a MIDDLE point (neither conditional taken): the two inputs at their blocks, the sum output at anything,
    the two statistics outputs handed back untouched, the two accumulators at the contents xs0, xs1 the point before
    left — it runs to the continuation with each written buffer holding its stores, as pieces, last first. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) :
    Σ' (L2 : List (View.Piece (Elt F) S5000x128 .f32)), Σ' (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__bn_stats_kernel i arg1 harg1 arg2 harg2 arg3 harg3 arg4 harg4 arg5 harg5 arg6 harg6 arg7 harg7) K } := by
  refine ⟨?_, ?_, ?_, fun xi3 xi4 E K => ?run⟩
  case run =>
    simp only [cc2__bn_stats_kernel_eq_skeleton]; unfold cc2__bn_stats_kernel_skel
    unfold owns
    iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg4.eq_unread hf4; obtain rfl := harg5.eq_unread hf5
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.KernelIdeal.Hand

end
-- ==== Proof.Stats2RunC.lean ====
import proofs.«153656_j10943576670413_2_alg».proof.Proof.Stats2Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

set_option maxHeartbeats 4000000 in
/-- The body at the LAST point (the reset not taken, the copy-out taken): the two inputs at their blocks, the three
    outputs at anything, the two accumulators at the contents xs0, xs1 the point before left — it runs to the
    continuation with each written buffer holding its stores, as pieces, last first. -/
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) :
    Σ' (L2 : List (View.Piece (Elt F) S5000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__bn_stats_kernel i arg1 harg1 arg2 harg2 arg3 harg3 arg4 harg4 arg5 harg5 arg6 harg6 arg7 harg7) K } := by
  refine ⟨?_, ?_, ?_, ?_, ?_, fun E K => ?run⟩
  case run =>
    simp only [cc2__bn_stats_kernel_eq_skeleton]; unfold cc2__bn_stats_kernel_skel
    unfold owns
    iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf1; obtain rfl := harg2.eq_unread hf2
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    isplitl [H5]; · iexists _; iexact H5
    isplitl [H6]; · iexists _; iexact H6
    iexists _; iexact H7

end Cert.KernelIdeal.Hand

end
-- ==== Proof.Stats2Pieces.lean ====
import proofs.«153656_j10943576670413_2_alg».proof.Proof.Stats2RunA
import proofs.«153656_j10943576670413_2_alg».proof.Proof.Stats2RunB
import proofs.«153656_j10943576670413_2_alg».proof.Proof.Stats2RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

/-! ## What each case of the statistics body leaves in the buffers it writes

Each buffer's contents after the body are its stores read back; the stores cover the buffer (each is a whole-buffer store). -/

abbrev VO2_2 : View sig .tc .vmem S5000x128 .f32 := (Memref.whole cc2_stg2_0 : Memref sig .tc .vmem S5000x128 .f32).view
abbrev VO2_3 : View sig .tc .vmem S1x128 .f32 := (Memref.whole cc2_stg3_0 : Memref sig .tc .vmem S1x128 .f32).view
abbrev VO2_4 : View sig .tc .vmem S1x128 .f32 := (Memref.whole cc2_stg4_0 : Memref sig .tc .vmem S1x128 .f32).view
abbrev VS2_0 : View sig .tc .vmem S1x128 .f32 := scM2_0.view
abbrev VS2_1 : View sig .tc .vmem S1x128 .f32 := scM2_1.view

theorem cover_out2_A_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32)  (y : S5000x128.Idx) :
    ∃ pc ∈ (kernelRun2_A c i arg1 harg1 arg2 harg2 arg3 harg3 arg4 harg4 arg5 harg5 arg6 harg6 arg7 harg7 hc0 hc1 x0 x1).1, y ∈ pc.1.set :=
  View.cover_of_tiledL (kernelRun2_A c i arg1 harg1 arg2 harg2 arg3 harg3 arg4 harg4 arg5 harg5 arg6 harg6 arg7 harg7 hc0 hc1 x0 x1).1 S5000x128.size (by sl_kernel_rfl) y

def out2_A_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32)  : Vec F S5000x128 .f32 :=
  VO2_2.read (Elt F) (VO2_2.writes (Elt F) VO2_2.junk (kernelRun2_A c i arg1 harg1 arg2 harg2 arg3 harg3 arg4 harg4 arg5 harg5 arg6 harg6 arg7 harg7 hc0 hc1 x0 x1).1)

theorem cover_sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32)  (y : S1x128.Idx) :
    ∃ pc ∈ (kernelRun2_A c i arg1 harg1 arg2 harg2 arg3 harg3 arg4 harg4 arg5 harg5 arg6 harg6 arg7 harg7 hc0 hc1 x0 x1).2.1, y ∈ pc.1.set :=
  View.cover_of_tiledL (kernelRun2_A c i arg1 harg1 arg2 harg2 arg3 harg3 arg4 harg4 arg5 harg5 arg6 harg6 arg7 harg7 hc0 hc1 x0 x1).2.1 S1x128.size (by sl_kernel_rfl) y

def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32)  : Vec F S1x128 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1).2.1)

theorem cover_sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32)  (y : S1x128.Idx) :
    ∃ pc ∈ (kernelRun2_A c i arg1 harg1 arg2 harg2 arg3 harg3 arg4 harg4 arg5 harg5 arg6 harg6 arg7 harg7 hc0 hc1 x0 x1).2.2.1, y ∈ pc.1.set :=
  View.cover_of_tiledL (kernelRun2_A c i arg1 harg1 arg2 harg2 arg3 harg3 arg4 harg4 arg5 harg5 arg6 harg6 arg7 harg7 hc0 hc1 x0 x1).2.2.1 S1x128.size (by sl_kernel_rfl) y

def sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32)  : Vec F S1x128 .f32 :=
  VS2_1.read (Elt F) (VS2_1.writes (Elt F) VS2_1.junk (kernelRun2_A c i arg1 harg1 arg2 harg2 arg3 harg3 arg4 harg4 arg5 harg5 arg6 harg6 arg7 harg7 hc0 hc1 x0 x1).2.2.1)

theorem cover_out2_B_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) (y : S5000x128.Idx) :
    ∃ pc ∈ (kernelRun2_B c i arg1 harg1 arg2 harg2 arg3 harg3 arg4 harg4 arg5 harg5 arg6 harg6 arg7 harg7 hc0 hc1 x0 x1 xs0 xs1).1, y ∈ pc.1.set :=
  View.cover_of_tiledL (kernelRun2_B c i arg1 harg1 arg2 harg2 arg3 harg3 arg4 harg4 arg5 harg5 arg6 harg6 arg7 harg7 hc0 hc1 x0 x1 xs0 xs1).1 S5000x128.size (by sl_kernel_rfl) y

def out2_B_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) : Vec F S5000x128 .f32 :=
  VO2_2.read (Elt F) (VO2_2.writes (Elt F) VO2_2.junk (kernelRun2_B c i arg1 harg1 arg2 harg2 arg3 harg3 arg4 harg4 arg5 harg5 arg6 harg6 arg7 harg7 hc0 hc1 x0 x1 xs0 xs1).1)

theorem cover_sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) (y : S1x128.Idx) :
    ∃ pc ∈ (kernelRun2_B c i arg1 harg1 arg2 harg2 arg3 harg3 arg4 harg4 arg5 harg5 arg6 harg6 arg7 harg7 hc0 hc1 x0 x1 xs0 xs1).2.1, y ∈ pc.1.set :=
  View.cover_of_tiledL (kernelRun2_B c i arg1 harg1 arg2 harg2 arg3 harg3 arg4 harg4 arg5 harg5 arg6 harg6 arg7 harg7 hc0 hc1 x0 x1 xs0 xs1).2.1 S1x128.size (by sl_kernel_rfl) y

def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 xs0 xs1).2.1)

theorem cover_sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) (y : S1x128.Idx) :
    ∃ pc ∈ (kernelRun2_B c i arg1 harg1 arg2 harg2 arg3 harg3 arg4 harg4 arg5 harg5 arg6 harg6 arg7 harg7 hc0 hc1 x0 x1 xs0 xs1).2.2.1, y ∈ pc.1.set :=
  View.cover_of_tiledL (kernelRun2_B c i arg1 harg1 arg2 harg2 arg3 harg3 arg4 harg4 arg5 harg5 arg6 harg6 arg7 harg7 hc0 hc1 x0 x1 xs0 xs1).2.2.1 S1x128.size (by sl_kernel_rfl) y

def sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 hc0 hc1 x0 x1 xs0 xs1).2.2.1)

theorem cover_out2_C_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) (y : S5000x128.Idx) :
    ∃ pc ∈ (kernelRun2_C c i arg1 harg1 arg2 harg2 arg3 harg3 arg4 harg4 arg5 harg5 arg6 harg6 arg7 harg7 hc0 hc1 x0 x1 xs0 xs1).1, y ∈ pc.1.set :=
  View.cover_of_tiledL (kernelRun2_C c i arg1 harg1 arg2 harg2 arg3 harg3 arg4 harg4 arg5 harg5 arg6 harg6 arg7 harg7 hc0 hc1 x0 x1 xs0 xs1).1 S5000x128.size (by sl_kernel_rfl) y

def out2_C_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) : Vec F S5000x128 .f32 :=
  VO2_2.read (Elt F) (VO2_2.writes (Elt F) VO2_2.junk (kernelRun2_C c i arg1 harg1 arg2 harg2 arg3 harg3 arg4 harg4 arg5 harg5 arg6 harg6 arg7 harg7 hc0 hc1 x0 x1 xs0 xs1).1)

theorem cover_out2_C_3 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.1, y ∈ pc.1.set :=
  View.cover_of_tiledL (kernelRun2_C c i arg1 harg1 arg2 harg2 arg3 harg3 arg4 harg4 arg5 harg5 arg6 harg6 arg7 harg7 hc0 hc1 x0 x1 xs0 xs1).2.1 S1x128.size (by sl_kernel_rfl) y

def out2_C_3 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) : Vec F S1x128 .f32 :=
  VO2_3.read (Elt F) (VO2_3.writes (Elt F) VO2_3.junk (kernelRun2_C c i arg1 harg1 arg2 harg2 arg3 harg3 arg4 harg4 arg5 harg5 arg6 harg6 arg7 harg7 hc0 hc1 x0 x1 xs0 xs1).2.1)

theorem cover_out2_C_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.2.1, y ∈ pc.1.set :=
  View.cover_of_tiledL (kernelRun2_C c i arg1 harg1 arg2 harg2 arg3 harg3 arg4 harg4 arg5 harg5 arg6 harg6 arg7 harg7 hc0 hc1 x0 x1 xs0 xs1).2.2.1 S1x128.size (by sl_kernel_rfl) y

def out2_C_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 hc0 hc1 x0 x1 xs0 xs1).2.2.1)

theorem cover_sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.2.2.1, y ∈ pc.1.set :=
  View.cover_of_tiledL (kernelRun2_C c i arg1 harg1 arg2 harg2 arg3 harg3 arg4 harg4 arg5 harg5 arg6 harg6 arg7 harg7 hc0 hc1 x0 x1 xs0 xs1).2.2.2.1 S1x128.size (by sl_kernel_rfl) y

def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 xs0 xs1).2.2.2.1)

theorem cover_sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.2.2.2.1, y ∈ pc.1.set :=
  View.cover_of_tiledL (kernelRun2_C c i arg1 harg1 arg2 harg2 arg3 harg3 arg4 harg4 arg5 harg5 arg6 harg6 arg7 harg7 hc0 hc1 x0 x1 xs0 xs1).2.2.2.2.1 S1x128.size (by sl_kernel_rfl) y

def sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 hc0 hc1 x0 x1 xs0 xs1).2.2.2.2.1)

end Cert.KernelIdeal.Hand

end
-- ==== Proof.Stats2.lean ====
import proofs.«153656_j10943576670413_2_alg».proof.Proof.Stats2Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The statistics region: the windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulation over the ten points -/

/-- What the three output buffers and the two accumulators hold after the body at position n (the sum output, the two
    statistics outputs, the two accumulators): at the first point the reset case; at the last the copy-out case and at
    the others the plain case, both over the accumulators the point before left. The statistics outputs are written only
    at the last point; before it their components are placeholders nothing reads. -/
def outsAt2 (c : Dev nD) : (n : ℕ) → n < cfg2.N → Vec F S5000x128 .f32 × Vec F S1x128 .f32 × Vec F S1x128 .f32 × Vec F S1x128 .f32 × Vec F S1x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 9 by decide)) (iblk2 V c 0 ⟨0, hn⟩) (iblk2 V c 1 ⟨0, hn⟩),
      VO2_3.read (Elt F) VO2_3.junk, VO2_4.read (Elt F) VO2_4.junk,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 9 by decide)) (iblk2 V c 0 ⟨0, hn⟩) (iblk2 V c 1 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 9 by decide)) (iblk2 V c 0 ⟨0, hn⟩) (iblk2 V c 1 ⟨0, hn⟩))
  | n + 1, hn =>
    if h1 : n + 1 = 9 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2.2.2.1 (outsAt2 c n (Nat.lt_of_succ_lt hn)).2.2.2.2,
        out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2.2.2.1 (outsAt2 c n (Nat.lt_of_succ_lt hn)).2.2.2.2,
        out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2.2.2.1 (outsAt2 c n (Nat.lt_of_succ_lt hn)).2.2.2.2,
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2.2.2.1 (outsAt2 c n (Nat.lt_of_succ_lt hn)).2.2.2.2,
        sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2.2.2.1 (outsAt2 c n (Nat.lt_of_succ_lt hn)).2.2.2.2)
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (outsAt2 c n (Nat.lt_of_succ_lt hn)).2.2.2.1 (outsAt2 c n (Nat.lt_of_succ_lt hn)).2.2.2.2,
        VO2_3.read (Elt F) VO2_3.junk, VO2_4.read (Elt F) VO2_4.junk,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (outsAt2 c n (Nat.lt_of_succ_lt hn)).2.2.2.1 (outsAt2 c n (Nat.lt_of_succ_lt hn)).2.2.2.2,
        sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (outsAt2 c n (Nat.lt_of_succ_lt hn)).2.2.2.1 (outsAt2 c n (Nat.lt_of_succ_lt hn)).2.2.2.2)

/-- The accumulators the point before t left (t not the first). -/
abbrev prevS0 (c : Dev nD) (t : Fin cfg2.N) : Vec F S1x128 .f32 := (outsAt2 V c (t.val - 1) (Nat.lt_of_le_of_lt (Nat.sub_le _ _) t.isLt)).2.2.2.1
abbrev prevS1 (c : Dev nD) (t : Fin cfg2.N) : Vec F S1x128 .f32 := (outsAt2 V c (t.val - 1) (Nat.lt_of_le_of_lt (Nat.sub_le _ _) t.isLt)).2.2.2.2

/-- The accumulation at the first point. -/
theorem outsAt2_A (c : Dev nD) (t : Fin cfg2.N) (h0 : t.val = 0) :
    outsAt2 V c t.val t.isLt = (out2_A_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => absurd ((hcond2_1 t).mp h) (by omega)) (iblk2 V c 0 t) (iblk2 V c 1 t),
      VO2_3.read (Elt F) VO2_3.junk, VO2_4.read (Elt F) VO2_4.junk,
      sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => absurd ((hcond2_1 t).mp h) (by omega)) (iblk2 V c 0 t) (iblk2 V c 1 t),
      sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => absurd ((hcond2_1 t).mp h) (by omega)) (iblk2 V c 0 t) (iblk2 V c 1 t)) := by
  obtain ⟨n, hn⟩ := t
  cases n with
  | zero => exact rfl
  | succ n => exact absurd h0 (Nat.succ_ne_zero n)

/-- The accumulation at a middle point. -/
theorem outsAt2_B (c : Dev nD) (t : Fin cfg2.N) (h0 : ¬t.val = 0) (h1 : ¬t.val = 9) :
    outsAt2 V c t.val t.isLt = (out2_B_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (prevS0 V c t) (prevS1 V c t),
      VO2_3.read (Elt F) VO2_3.junk, VO2_4.read (Elt F) VO2_4.junk,
      sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (prevS0 V c t) (prevS1 V c t),
      sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (prevS0 V c t) (prevS1 V c t)) := by
  obtain ⟨n, hn⟩ := t
  cases n with
  | zero => exact absurd rfl h0
  | succ n => exact (dif_neg h1).trans rfl

/-- The accumulation at the last point. -/
theorem outsAt2_C (c : Dev nD) (t : Fin cfg2.N) (h0 : ¬t.val = 0) (h1 : t.val = 9) :
    outsAt2 V c t.val t.isLt = (out2_C_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (prevS0 V c t) (prevS1 V c t),
      out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (prevS0 V c t) (prevS1 V c t),
      out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (prevS0 V c t) (prevS1 V c t),
      sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (prevS0 V c t) (prevS1 V c t),
      sout2_C_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (prevS0 V c t) (prevS1 V c t)) := by
  obtain ⟨n, hn⟩ := t
  cases n with
  | zero => exact absurd rfl h0
  | succ n => exact (dif_pos h1).trans rfl

/-! ## The region invariant -/

/-- The core's scoped buffers other than the two accumulators — the other regions' staging buffers —, each at some
    contents, and the generator register at some state: what the body never touches. -/
def Rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg5_1), ((c : Thread nD τ).loc cc3_stg5_1) ↦{fullShare} f) ∗ (∃ r, prngReg c r))

/-- The class invariant is the two accumulators at anything beside the rest. -/
theorem PhiA2_split (c : Dev nD) :
    (Pipeline.ΦA spec2 c : sProp 𝕄) ⊢ iprop((∃ d, owns (c : Thread nD τ) scM2_0 fullShare d) ∗ (∃ d, owns (c : Thread nD τ) scM2_1 fullShare d) ∗ Rest2 c) := by
  unfold Pipeline.ΦA Rest2; rw [scopedRest2_eq]; simp only [scM2_0, scM2_1, owns_whole]
  iintro ⟨⟨H1, H2, H3, H4, H5, H6, H7, H8, H9, H10, H11, H12, H13, H14, H15, H16, H17, H18, H19, H20⟩, Hg⟩
  isplitl [H11]; · iexact H11
  isplitl [H12]; · iexact H12
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact Hg

theorem PhiA2_join (c : Dev nD) :
    iprop((∃ d, owns (c : Thread nD τ) scM2_0 fullShare d) ∗ (∃ d, owns (c : Thread nD τ) scM2_1 fullShare d) ∗ Rest2 c) ⊢ (Pipeline.ΦA spec2 c : sProp 𝕄) := by
  unfold Pipeline.ΦA Rest2; rw [scopedRest2_eq]; simp only [scM2_0, scM2_1, owns_whole]
  iintro ⟨H11, H12, H1, H2, H3, H4, H5, H6, H7, H8, H9, H10, H13, H14, H15, H16, H17, H18, H19, H20, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The invariant before position n: before the first point the class's (both accumulators at anything); afterwards
    the two accumulators at what the point before left, beside the rest. -/
def PhiS (c : Dev nD) : (n : ℕ) → n ≤ cfg2.N → sProp 𝕄
  | 0, _ => Pipeline.ΦA spec2 c
  | n + 1, hn => iprop(owns (c : Thread nD τ) scM2_0 fullShare ((outsAt2 V c n hn).2.2.2.1) ∗ owns (c : Thread nD τ) scM2_1 fullShare ((outsAt2 V c n hn).2.2.2.2) ∗ Rest2 c)

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(owns (c : Thread nD τ) scM2_0 fullShare ((outsAt2 V c n hn).2.2.2.1) ∗ owns (c : Thread nD τ) scM2_1 fullShare ((outsAt2 V c n hn).2.2.2.2) ∗ Rest2 c) := rfl
theorem PhiS_pos (c : Dev nD) (n : ℕ) (h : n ≤ cfg2.N) (hz : n ≠ 0) :
    PhiS V c n h = iprop(owns (c : Thread nD τ) scM2_0 fullShare ((outsAt2 V c (n - 1) (by omega)).2.2.2.1) ∗ owns (c : Thread nD τ) scM2_1 fullShare ((outsAt2 V c (n - 1) (by omega)).2.2.2.2) ∗ Rest2 c) := by
  cases n with
  | zero => exact absurd rfl hz
  | succ n => rfl

/-! ## The pipeline's proof data -/

/-- The statistics region's proof data on core c: the arrays as the region finds them; after the body at point t each
    input's buffer at its block and the outputs' at the accumulation's components; the invariant with the two
    accumulators tracked; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
    | ⟨4, _⟩ => (outsAt2 V c t.val t.isLt).2.2.1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]
theorem after2_4 (c : Dev nD) (t : Fin cfg2.N) : (dat2 V c).after 4 t = (outsAt2 V c t.val t.isLt).2.2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.KernelIdeal.Hand

end
-- ==== Proof.Stats2Body.lean ====
import proofs.«153656_j10943576670413_2_alg».proof.Proof.Stats2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The statistics region's body obligation -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 8000000 in
/-- The body at any point: the inputs' memrefs hold their blocks; the point is the first, a middle one or the last, and
    that case's run applies; the invariant hands the body the two accumulators (at anything at the first point, else at
    what the point before left) and takes them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 10 := lt_of_lt_of_eq t.isLt (show cfg2.N = 10 from N_2)
  by_cases h0 : t.val = 0
  · have h1 : ¬t.val = 9 := by omega
    rw [Dat.leavesExact_idle (dat2 V c) 3 t (idleAt2_3 t (fun h => h1 ((hcond2_1 t).mp h))) (noFlush2_3 t (fun h => h1 ((hcond2_1 t).mp h)))]
    rw [Dat.leavesExact_idle (dat2 V c) 4 t (idleAt2_4 t (fun h => h1 ((hcond2_1 t).mp h))) (noFlush2_4 t (fun h => h1 ((hcond2_1 t).mp h)))]
    rw [outsAt2_A V c t h0]
    (try dsimp only)
    rw [PhiS_castSucc V c t, PhiS_zero V c _ _ h0]
    iintro ⟨HΦ, Ho, ⟨%d0, H0⟩, ⟨%d1, H1⟩, ⟨%d2, H2⟩, ⟨%d3, H3⟩, ⟨%d4, H4⟩⟩
    ihave HΦ' := (PhiA2_split c) $$ HΦ
    icases HΦ' with ⟨HS0, HS1, HR⟩
    iapply ((kernelRun2_A c (grid2.coords t) _ _ _ _ _ _ _ _ _ _ _ _ _ _ ((hcond2_0 t).mpr h0) (fun h => absurd ((hcond2_1 t).mp h) (by omega)) (iblk2 V c 0 t) (iblk2 V c 1 t)).2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [HS0 HS1 HR]
    · isplitl [HS0]
      · unfold owns; iexists _; isplitr
        swap; · iexact HS0
        ipureintro; exact View.read_writes_of_cover _ _ _ _ _ (cover_sout2_A_0 c _ _ _ _ _ _ _ _ _ _ _ _ _ _ _ _ _ _ _)
      isplitl [HS1]
      · unfold owns; iexists _; isplitr
        swap; · iexact HS1
        ipureintro; exact View.read_writes_of_cover _ _ _ _ _ (cover_sout2_A_1 c _ _ _ _ _ _ _ _ _ _ _ _ _ _ _ _ _ _ _)
      iexact HR
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_out2_A_2 c _ _ _ _ _ _ _ _ _ _ _ _ _ _ _ _ _ _ _)
    isplitl [H3]; · iexists _; iexact H3
    iexists _; iexact H4
  · by_cases h1 : t.val = 9
    · rw [show (dat2 V c).leavesExact 3 t = owns (c : Thread nD τ) (ms2_3 t) fullShare ((dat2 V c).after 3 t) from by
        unfold Dat.leavesExact; rw [liveAt2_3 t ((hcond2_1 t).mpr h1)], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      (try dsimp only)
      rw [PhiS_castSucc V c t, PhiS_pos V c _ _ h0]
      iintro ⟨⟨HS0, HS1, HR⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR]
      · isplitl [HS0]
        · unfold owns; iexists _; isplitr
          swap; · iexact HS0
          ipureintro; exact View.read_writes_of_cover _ _ _ _ _ (cover_sout2_C_0 c _ _ _ _ _ _ _ _ _ _ _ _ _ _ _ _ _ _ _ _ _)
        isplitl [HS1]
        · unfold owns; iexists _; isplitr
          swap; · iexact HS1
          ipureintro; exact View.read_writes_of_cover _ _ _ _ _ (cover_sout2_C_1 c _ _ _ _ _ _ _ _ _ _ _ _ _ _ _ _ _ _ _ _ _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover_out2_C_2 c _ _ _ _ _ _ _ _ _ _ _ _ _ _ _ _ _ _ _ _ _)
      isplitl [H3]
      · unfold owns; iexists _; isplitr
        swap; · iexact H3
        ipureintro; exact View.read_writes_of_cover _ _ _ _ _ (cover_out2_C_3 c _ _ _ _ _ _ _ _ _ _ _ _ _ _ _ _ _ _ _ _ _)
      · unfold owns; iexists _; isplitr
        swap; · iexact H4
        ipureintro; exact View.read_writes_of_cover _ _ _ _ _ (cover_out2_C_4 c _ _ _ _ _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [outsAt2_B V c t h0 h1]
      (try dsimp only)
      rw [PhiS_castSucc V c t, PhiS_pos V c _ _ h0]
      iintro ⟨⟨HS0, HS1, HR⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR]
      · isplitl [HS0]
        · unfold owns; iexists _; isplitr
          swap; · iexact HS0
          ipureintro; exact View.read_writes_of_cover _ _ _ _ _ (cover_sout2_B_0 c _ _ _ _ _ _ _ _ _ _ _ _ _ _ _ _ _ _ _ _ _)
        isplitl [HS1]
        · unfold owns; iexists _; isplitr
          swap; · iexact HS1
          ipureintro; exact View.read_writes_of_cover _ _ _ _ _ (cover_sout2_B_1 c _ _ _ _ _ _ _ _ _ _ _ _ _ _ _ _ _ _ _ _ _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover_out2_B_2 c _ _ _ _ _ _ _ _ _ _ _ _ _ _ _ _ _ _ _ _ _)
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with — the generator register, the scoped buffers no window stages — is the invariant
    before the first point (P: what rides along unused). -/
theorem hin2 (c : Dev nD) (P : sProp 𝕄) :
    iprop((∃ r, prngReg c r) ∗ P ∗ Pipeline.scopedRest spec2 c) ⊢ (dat2 V c).Φ 0 := by
  rw [show (dat2 V c).Φ 0 = PhiS V c 0 (Nat.zero_le _) from rfl, PhiS_zero V c 0 _ rfl]
  unfold Pipeline.ΦA
  iintro ⟨Hp, -, Hr⟩
  isplitl [Hr]; · iexact Hr
  iexact Hp

/-- After the last point the invariant gives the same back: the accumulators' named contents are forgotten. -/
theorem hout2 (c : Dev nD) :
    (dat2 V c).Φ (Fin.last cfg2.N) ⊢ iprop((∃ r, prngReg c r) ∗ Pipeline.scopedRest spec2 c) := by
  have hN : cfg2.N = 10 := N_2
  rw [show (dat2 V c).Φ (Fin.last cfg2.N) = PhiS V c (Fin.last cfg2.N).val (Nat.le_of_lt_succ (Fin.last cfg2.N).isLt) from rfl,
    PhiS_pos V c _ _ (by rw [Fin.val_last]; omega)]
  iintro ⟨HS0, HS1, HR⟩
  ihave H := (PhiA2_join c) $$ [HS0 HS1 HR]
  · isplitl [HS0]; · iexists _; iexact HS0
    isplitl [HS1]; · iexists _; iexact HS1
    iexact HR
  unfold Pipeline.ΦA
  icases H with ⟨Hr, Hp⟩
  isplitl [Hp]; · iexact Hp
  iexact Hr

end Cert.KernelIdeal.Hand

end
-- ==== Proof.Norm3.lean ====
/-
  The normalisation region of the kernel program, at any interpretation of the floats.

  Its grid has ten points. At point t the body is handed rows 5000·t … 5000·t + 4999 of the array x to normalise and
  the four 1 × 128 rows mean, var, gamma, beta (the same block at every point); it leaves in the output block
      max(((x − mean) · rsqrt(var + ε)) · gamma + beta, 0),
  the four rows spread down the 5000 rows of the block, and leaves the five input blocks as it found them. Below:
  each window's block at a point as a function of the arrays the region finds, the output block as a function of the
  five input blocks, the body's triple, and the pipeline's proof data with its body obligation.
-/
import proofs.«153656_j10943576670413_2_alg».proof.Proof.Gen.KernelIdeal.Skeleton
import proofs.«153656_j10943576670413_2_alg».proof.Proof.Gen.KernelIdeal.Points
import proofs.«153656_j10943576670413_2_alg».proof.Proof.LaunchKernelIdealP
import Idealize.ShloMosaic.Lib.Pipeline.FrameBody
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every one of them is of a whole block -/

abbrev r3_x : Rect S5000x128 := Rect.unit (s := S5000x128) ![0, 0] S5000x128.size inb_S5000x128_S5000x128_0_0
abbrev r3_v : Rect S1x128 := Rect.unit (s := S1x128) ![0, 0] S1x128.size inb_S1x128_S1x128_0_0

/-! ## What the body leaves in the output block -/

/-- The output block after the body, from the five input blocks: its one store, of the whole block. -/
def out3_5 (x0 : Vec F S5000x128 .f32) (x1 x2 x3 x4 : Vec F S1x128 .f32) : Vec F S5000x128 .f32 :=
  View.canon [⟨r3_x, k3_pay1 (View.ld x0 r3_x) (View.ld x1 r3_v) (View.ld x2 r3_v) (View.ld x3 r3_v) (View.ld x4 r3_v)⟩]

/-- The one store covers the block. -/
theorem cover3_5 (p0 : Vec F S5000x128 .f32) (y : S5000x128.Idx) :
    ∃ pc ∈ ([⟨r3_x, p0⟩] : List (View.Piece (Elt F) S5000x128 .f32)), y ∈ pc.1.set :=
  View.cover_of_tiled [⟨r3_x, p0⟩] S5000x128.size (by rfl) y

/-! ## The body's triple -/

set_option maxHeartbeats 1000000 in
/-- The body on whole blocks, the inputs' at contents x0 … x4 and the output's at anything, runs to the continuation
    holding the inputs' as they were and the output's at out3_5 of them. Its read of the output block before the
    store is of a value nothing uses. -/
theorem sound_kernel3 (c : Dev nD) (E : Set ℕ) (i : grid3.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__bn_norm_kernel i arg1 harg1 arg2 harg2 arg3 harg3 arg4 harg4 arg5 harg5 arg6 harg6) K := by
  simp only [cc3__bn_norm_kernel_eq_skeleton]; unfold cc3__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the region on core c: the arrays as the region finds them; after the body at point t each
    input block as it was and the output block at out3_5 of the five input blocks; the invariant that of a region
    whose body touches its blocks only; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the contents the region finds. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by
  dsimp only [dat3]

/-- Each input's current block holds its block of the array at every point, fetched there or not: a block that is
    not fetched at a point has the index it had at the point before, and the body left it in place. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' blocks hold their blocks of the arrays, so the body's triple applies; the
    invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Run.lean ====
/-
  The run of the kernel program's @main: four pipelined regions among four stretches of host operations, for any
  float instance, over four families of proof data that are parameters here.

  * The buffer contents at the nine segment boundaries are a fold from the launch memory m: a host stretch maps the
    contents W to what its operations leave (each operation's result written over W at the operation's output
    reference); a region overwrites its windows' arrays with what its write-backs leave and keeps every other buffer.
  * Each family of proof data is only asked for: its entry contents are the entering buffers' (A_eq), it holds each
    array whole (q_eq), it owes no other core anything (owed_eq), its body obligation (hbody), and its invariant at
    the two ends of the grid against the generator register and the scoped buffers no window stages (hin, hout).
  * The run theorem: from any memory with zero counters every weakly fair execution of @main terminates without a
    fault, and every final state has every unscoped buffer at the last boundary's contents W8.
  * Reading W8 back: no host operation writes an argument and no region writes an array it only reads, so W8 at an
    argument is the launch memory there; W8 at the last region's output is what that region's write-backs leave.
-/
import proofs.«153656_j10943576670413_2_alg».proof.Proof.LaunchKernelIdealP
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

/-- The TensorCores' buffer contents, core by core. -/
abbrev Vals (F : FTy → Type) [FloatOps F] := (c : Dev nD) → (b : Ref sig .tc) → Buf (Elt F) ((c : Thread nD τ).loc b)
/-- A family of proof data for one pipeline: for every entry contents, every core's data. -/
abbrev Fam (F : FTy → Type) [FloatOps F] (cfg : Pipeline.Cfg sig Λ₀) :=
  Vals F → (c : Dev nD) → Pipeline.Dat τ (Elt F) Unit ℕ (UR sig nD τ) ℕ cfg c

/-- No pipeline has a prefetched table. -/
abbrev adm : (p : Fin 4) → (pcfgs (F := F) p).Adm := fun p => (cfgs p).toPCfg_adm

/-- What the run asks of region 0's family of proof data. -/
structure Fits0 (d : Fam F cfg0) : Prop where
  A_eq : ∀ (V : Vals F) (c : Dev nD) (w : Fin cfg0.W), (d V c).A w = V c (Pipeline.arrRef spec0 w)
  q_eq : ∀ (V : Vals F) (c : Dev nD) (w : Fin cfg0.W), (d V c).q w = fullShare
  owed_eq : ∀ (V : Vals F) (c : Dev nD) (t : Fin (cfg0.N + 1)), (d V c).owed t = 0
  recorded_eq : ∀ (V : Vals F) (c : Dev nD), (d V c).recorded 0 = Set.univ
  hbody : ∀ (V : Vals F) (c : Dev nD), Pipeline.BodyObligation (d V c) (defs₀ (F := F)) Variants.none () Set.univ
  hin : ∀ (V : Vals F) (c : Dev nD),
    iprop((∃ r, prngReg c r) ∗ Pipeline.prefHeld (pcfgs (F := F) 0).pre c (fun _ => fullShare) (adm 0).1
      ∗ Pipeline.scopedRest (Ix := Unit) (Name := ℕ) (U := UR sig nD τ) (Lvl := ℕ) spec0 c) ⊢ (d V c).Φ 0
  hout : ∀ (V : Vals F) (c : Dev nD),
    (d V c).Φ (Fin.last cfg0.N) ⊢ iprop((∃ r, prngReg c r) ∗ Pipeline.ownSems0 (fun k : PEmpty => k.elim) c
      ∗ Pipeline.scopedRest (Ix := Unit) (Name := ℕ) (U := UR sig nD τ) (Lvl := ℕ) spec0 c)

/-- What the run asks of region 1's family of proof data. -/
structure Fits1 (d : Fam F cfg1) : Prop where
  A_eq : ∀ (V : Vals F) (c : Dev nD) (w : Fin cfg1.W), (d V c).A w = V c (Pipeline.arrRef spec1 w)
  q_eq : ∀ (V : Vals F) (c : Dev nD) (w : Fin cfg1.W), (d V c).q w = fullShare
  owed_eq : ∀ (V : Vals F) (c : Dev nD) (t : Fin (cfg1.N + 1)), (d V c).owed t = 0
  recorded_eq : ∀ (V : Vals F) (c : Dev nD), (d V c).recorded 0 = Set.univ
  hbody : ∀ (V : Vals F) (c : Dev nD), Pipeline.BodyObligation (d V c) (defs₀ (F := F)) Variants.none () Set.univ
  hin : ∀ (V : Vals F) (c : Dev nD),
    iprop((∃ r, prngReg c r) ∗ Pipeline.prefHeld (pcfgs (F := F) 1).pre c (fun _ => fullShare) (adm 1).1
      ∗ Pipeline.scopedRest (Ix := Unit) (Name := ℕ) (U := UR sig nD τ) (Lvl := ℕ) spec1 c) ⊢ (d V c).Φ 0
  hout : ∀ (V : Vals F) (c : Dev nD),
    (d V c).Φ (Fin.last cfg1.N) ⊢ iprop((∃ r, prngReg c r) ∗ Pipeline.ownSems0 (fun k : PEmpty => k.elim) c
      ∗ Pipeline.scopedRest (Ix := Unit) (Name := ℕ) (U := UR sig nD τ) (Lvl := ℕ) spec1 c)

/-- What the run asks of region 2's family of proof data. -/
structure Fits2 (d : Fam F cfg2) : Prop where
  A_eq : ∀ (V : Vals F) (c : Dev nD) (w : Fin cfg2.W), (d V c).A w = V c (Pipeline.arrRef spec2 w)
  q_eq : ∀ (V : Vals F) (c : Dev nD) (w : Fin cfg2.W), (d V c).q w = fullShare
  owed_eq : ∀ (V : Vals F) (c : Dev nD) (t : Fin (cfg2.N + 1)), (d V c).owed t = 0
  recorded_eq : ∀ (V : Vals F) (c : Dev nD), (d V c).recorded 0 = Set.univ
  hbody : ∀ (V : Vals F) (c : Dev nD), Pipeline.BodyObligation (d V c) (defs₀ (F := F)) Variants.none () Set.univ
  hin : ∀ (V : Vals F) (c : Dev nD),
    iprop((∃ r, prngReg c r) ∗ Pipeline.prefHeld (pcfgs (F := F) 2).pre c (fun _ => fullShare) (adm 2).1
      ∗ Pipeline.scopedRest (Ix := Unit) (Name := ℕ) (U := UR sig nD τ) (Lvl := ℕ) spec2 c) ⊢ (d V c).Φ 0
  hout : ∀ (V : Vals F) (c : Dev nD),
    (d V c).Φ (Fin.last cfg2.N) ⊢ iprop((∃ r, prngReg c r) ∗ Pipeline.ownSems0 (fun k : PEmpty => k.elim) c
      ∗ Pipeline.scopedRest (Ix := Unit) (Name := ℕ) (U := UR sig nD τ) (Lvl := ℕ) spec2 c)

/-- What the run asks of region 3's family of proof data. -/
structure Fits3 (d : Fam F cfg3) : Prop where
  A_eq : ∀ (V : Vals F) (c : Dev nD) (w : Fin cfg3.W), (d V c).A w = V c (Pipeline.arrRef spec3 w)
  q_eq : ∀ (V : Vals F) (c : Dev nD) (w : Fin cfg3.W), (d V c).q w = fullShare
  owed_eq : ∀ (V : Vals F) (c : Dev nD) (t : Fin (cfg3.N + 1)), (d V c).owed t = 0
  recorded_eq : ∀ (V : Vals F) (c : Dev nD), (d V c).recorded 0 = Set.univ
  hbody : ∀ (V : Vals F) (c : Dev nD), Pipeline.BodyObligation (d V c) (defs₀ (F := F)) Variants.none () Set.univ
  hin : ∀ (V : Vals F) (c : Dev nD),
    iprop((∃ r, prngReg c r) ∗ Pipeline.prefHeld (pcfgs (F := F) 3).pre c (fun _ => fullShare) (adm 3).1
      ∗ Pipeline.scopedRest (Ix := Unit) (Name := ℕ) (U := UR sig nD τ) (Lvl := ℕ) spec3 c) ⊢ (d V c).Φ 0
  hout : ∀ (V : Vals F) (c : Dev nD),
    (d V c).Φ (Fin.last cfg3.N) ⊢ iprop((∃ r, prngReg c r) ∗ Pipeline.ownSems0 (fun k : PEmpty => k.elim) c
      ∗ Pipeline.scopedRest (Ix := Unit) (Name := ℕ) (U := UR sig nD τ) (Lvl := ℕ) spec3 c)

variable (d0 : Fam F cfg0) (d1 : Fam F cfg1) (d2 : Fam F cfg2) (d3 : Fam F cfg3)
variable (m : (ℓ : Loc nD τ sig) → Buf (Elt F) ℓ)

/-! ## What the host stretches write -/

/-- No operation of host stretch 0 allocates a buffer. -/
theorem hostOps0_fresh : (hostOps0 : List (HloOp τ sig (Elt F))).Forall fun op => op.fresh = ∅ := by
  simp only [List.Forall]; repeat' constructor
/-- The references host stretch 0's operations write: each operation's output. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)

/-- No operation of host stretch 1 allocates a buffer. -/
theorem hostOps1_fresh : (hostOps1 : List (HloOp τ sig (Elt F))).Forall fun op => op.fresh = ∅ := by
  simp only [List.Forall]; repeat' constructor
/-- The references host stretch 1's operations write: each operation's output. -/
abbrev hostOps1_W : List (Ref sig .tc) := [main_v6, main_v7, main_v8, main_v9, main_v10]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)

/-- No operation of host stretch 2 allocates a buffer. -/
theorem hostOps2_fresh : (hostOps2 : List (HloOp τ sig (Elt F))).Forall fun op => op.fresh = ∅ := by
  simp only [List.Forall]; repeat' constructor
/-- The references host stretch 2's operations write: each operation's output. -/
abbrev hostOps2_W : List (Ref sig .tc) := [main_c, main_v12, main_v13, main_c_0, main_v14, main_v15, main_v16, main_v17, main_v18, main_c_1, main_v19, main_v20, main_c_2, main_v21, main_v22, main_v23, main_v24, main_v25, main_v26, main_v27, main_v28, main_v29, main_cst, main_v30, main_v31, main_cst_3, main_v32, main_v33, main_c_4, main_v34, main_v35, main_c_5, main_v36, main_v37, main_v38, main_v39, main_v40, main_v41, main_cst_6, main_v42, main_v43, main_v44]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)

/-- No operation of host stretch 3 allocates a buffer. -/
theorem hostOps3_fresh : (hostOps3 : List (HloOp τ sig (Elt F))).Forall fun op => op.fresh = ∅ := by
  simp only [List.Forall]; repeat' constructor
/-- The references host stretch 3's operations write: each operation's output. -/
abbrev hostOps3_W : List (Ref sig .tc) := [main_cst_7, main_v46, main_v47, main_cst_8, main_v48, main_v49, main_v50, main_v51, main_v52, main_v53]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)

/-! ## The buffer contents at each segment boundary: a fold through @main -/

/-- Core c's buffers at launch. -/
abbrev W0 : Dev nD → Valuation τ sig (Elt F) := fun c b => m (c, b)

/-- After host stretch 0: region 0's entry contents. -/
abbrev W1 : Dev nD → Valuation τ sig (Elt F) := fun c => StableHlo.after hostOps0 (W0 m c)
/-- The same read at the TensorCore's references (what region 0's proof data take). -/
abbrev V1 : Vals F := fun c b => W1 m c b
/-- A reference host stretch 0 does not write holds what it held. -/
theorem W1_of (c : Dev nD) (r : Ref sig .tc) (h : r ∉ hostOps0_W) :
    W1 m c (Proc.devRef .tc r) = W0 m c (Proc.devRef .tc r) :=
  StableHlo.after_of_writes_sub hostOps0 _ hostOps0_writes h
/-- At region 0's exit: its arrays at what the pipeline leaves (an input as entered, an output with every
    write-back folded in), every other buffer as entered. -/
def W2 (c : Dev nD) : Valuation τ sig (Elt F) :=
  Pipeline.withArrays spec0 c (W1 m c) fun w => (d0 (V1 m) c).arrAt w cfg0.N
theorem W2_arr (c : Dev nD) (w : Fin cfg0.W) :
    W2 d0 m c (Proc.devRef .tc (Pipeline.arrRef spec0 w)) = (d0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 d0 m c (Proc.devRef .tc b) = W1 m c (Proc.devRef .tc b) := by
  unfold W2; exact Pipeline.withArrays_of_ne spec0 c _ _ b hb
/-- The same read at the TensorCore's references (region 0's exit contents). -/
abbrev V2 : Vals F := fun c b => W2 d0 m c b
/-- At region 0's exit each of its arrays holds what the pipeline leaves, and every other buffer what it held at entry. -/
theorem hF0 (c : Dev nD) (w : Fin cfg0.W) : (d0 (V1 m) c).arrAt w cfg0.N = V2 d0 m c (Pipeline.arrRef spec0 w) :=
  (W2_arr d0 m c w).symm
theorem hrest0 (c : Dev nD) : ∀ b, b ∉ Finset.univ.image (Pipeline.arrRef spec0) → V2 d0 m c b = V1 m c b :=
  fun b hb => W2_of_ne d0 m c b fun w e => hb (Finset.mem_image.mpr ⟨w, Finset.mem_univ _, e⟩)

/-- After host stretch 1: region 1's entry contents. -/
abbrev W3 : Dev nD → Valuation τ sig (Elt F) := fun c => StableHlo.after hostOps1 (W2 d0 m c)
/-- The same read at the TensorCore's references (what region 1's proof data take). -/
abbrev V3 : Vals F := fun c b => W3 d0 m c b
/-- A reference host stretch 1 does not write holds what it held. -/
theorem W3_of (c : Dev nD) (r : Ref sig .tc) (h : r ∉ hostOps1_W) :
    W3 d0 m c (Proc.devRef .tc r) = W2 d0 m c (Proc.devRef .tc r) :=
  StableHlo.after_of_writes_sub hostOps1 _ hostOps1_writes h
/-- At region 1's exit: its arrays at what the pipeline leaves (an input as entered, an output with every
    write-back folded in), every other buffer as entered. -/
def W4 (c : Dev nD) : Valuation τ sig (Elt F) :=
  Pipeline.withArrays spec1 c (W3 d0 m c) fun w => (d1 (V3 d0 m) c).arrAt w cfg1.N
theorem W4_arr (c : Dev nD) (w : Fin cfg1.W) :
    W4 d0 d1 m c (Proc.devRef .tc (Pipeline.arrRef spec1 w)) = (d1 (V3 d0 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 d0 d1 m c (Proc.devRef .tc b) = W3 d0 m c (Proc.devRef .tc b) := by
  unfold W4; exact Pipeline.withArrays_of_ne spec1 c _ _ b hb
/-- The same read at the TensorCore's references (region 1's exit contents). -/
abbrev V4 : Vals F := fun c b => W4 d0 d1 m c b
/-- At region 1's exit each of its arrays holds what the pipeline leaves, and every other buffer what it held at entry. -/
theorem hF1 (c : Dev nD) (w : Fin cfg1.W) : (d1 (V3 d0 m) c).arrAt w cfg1.N = V4 d0 d1 m c (Pipeline.arrRef spec1 w) :=
  (W4_arr d0 d1 m c w).symm
theorem hrest1 (c : Dev nD) : ∀ b, b ∉ Finset.univ.image (Pipeline.arrRef spec1) → V4 d0 d1 m c b = V3 d0 m c b :=
  fun b hb => W4_of_ne d0 d1 m c b fun w e => hb (Finset.mem_image.mpr ⟨w, Finset.mem_univ _, e⟩)

/-- After host stretch 2: region 2's entry contents. -/
abbrev W5 : Dev nD → Valuation τ sig (Elt F) := fun c => StableHlo.after hostOps2 (W4 d0 d1 m c)
/-- The same read at the TensorCore's references (what region 2's proof data take). -/
abbrev V5 : Vals F := fun c b => W5 d0 d1 m c b
/-- A reference host stretch 2 does not write holds what it held. -/
theorem W5_of (c : Dev nD) (r : Ref sig .tc) (h : r ∉ hostOps2_W) :
    W5 d0 d1 m c (Proc.devRef .tc r) = W4 d0 d1 m c (Proc.devRef .tc r) :=
  StableHlo.after_of_writes_sub hostOps2 _ hostOps2_writes h
/-- At region 2's exit: its arrays at what the pipeline leaves (an input as entered, an output with every
    write-back folded in), every other buffer as entered. -/
def W6 (c : Dev nD) : Valuation τ sig (Elt F) :=
  Pipeline.withArrays spec2 c (W5 d0 d1 m c) fun w => (d2 (V5 d0 d1 m) c).arrAt w cfg2.N
theorem W6_arr (c : Dev nD) (w : Fin cfg2.W) :
    W6 d0 d1 d2 m c (Proc.devRef .tc (Pipeline.arrRef spec2 w)) = (d2 (V5 d0 d1 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 d0 d1 d2 m c (Proc.devRef .tc b) = W5 d0 d1 m c (Proc.devRef .tc b) := by
  unfold W6; exact Pipeline.withArrays_of_ne spec2 c _ _ b hb
/-- The same read at the TensorCore's references (region 2's exit contents). -/
abbrev V6 : Vals F := fun c b => W6 d0 d1 d2 m c b
/-- At region 2's exit each of its arrays holds what the pipeline leaves, and every other buffer what it held at entry. -/
theorem hF2 (c : Dev nD) (w : Fin cfg2.W) : (d2 (V5 d0 d1 m) c).arrAt w cfg2.N = V6 d0 d1 d2 m c (Pipeline.arrRef spec2 w) :=
  (W6_arr d0 d1 d2 m c w).symm
theorem hrest2 (c : Dev nD) : ∀ b, b ∉ Finset.univ.image (Pipeline.arrRef spec2) → V6 d0 d1 d2 m c b = V5 d0 d1 m c b :=
  fun b hb => W6_of_ne d0 d1 d2 m c b fun w e => hb (Finset.mem_image.mpr ⟨w, Finset.mem_univ _, e⟩)

/-- After host stretch 3: region 3's entry contents. -/
abbrev W7 : Dev nD → Valuation τ sig (Elt F) := fun c => StableHlo.after hostOps3 (W6 d0 d1 d2 m c)
/-- The same read at the TensorCore's references (what region 3's proof data take). -/
abbrev V7 : Vals F := fun c b => W7 d0 d1 d2 m c b
/-- A reference host stretch 3 does not write holds what it held. -/
theorem W7_of (c : Dev nD) (r : Ref sig .tc) (h : r ∉ hostOps3_W) :
    W7 d0 d1 d2 m c (Proc.devRef .tc r) = W6 d0 d1 d2 m c (Proc.devRef .tc r) :=
  StableHlo.after_of_writes_sub hostOps3 _ hostOps3_writes h
/-- At region 3's exit: its arrays at what the pipeline leaves (an input as entered, an output with every
    write-back folded in), every other buffer as entered. -/
def W8 (c : Dev nD) : Valuation τ sig (Elt F) :=
  Pipeline.withArrays spec3 c (W7 d0 d1 d2 m c) fun w => (d3 (V7 d0 d1 d2 m) c).arrAt w cfg3.N
theorem W8_arr (c : Dev nD) (w : Fin cfg3.W) :
    W8 d0 d1 d2 d3 m c (Proc.devRef .tc (Pipeline.arrRef spec3 w)) = (d3 (V7 d0 d1 d2 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 d0 d1 d2 d3 m c (Proc.devRef .tc b) = W7 d0 d1 d2 m c (Proc.devRef .tc b) := by
  unfold W8; exact Pipeline.withArrays_of_ne spec3 c _ _ b hb
/-- The same read at the TensorCore's references (region 3's exit contents). -/
abbrev V8 : Vals F := fun c b => W8 d0 d1 d2 d3 m c b
/-- At region 3's exit each of its arrays holds what the pipeline leaves, and every other buffer what it held at entry. -/
theorem hF3 (c : Dev nD) (w : Fin cfg3.W) : (d3 (V7 d0 d1 d2 m) c).arrAt w cfg3.N = V8 d0 d1 d2 d3 m c (Pipeline.arrRef spec3 w) :=
  (W8_arr d0 d1 d2 d3 m c w).symm
theorem hrest3 (c : Dev nD) : ∀ b, b ∉ Finset.univ.image (Pipeline.arrRef spec3) → V8 d0 d1 d2 d3 m c b = V7 d0 d1 d2 m c b :=
  fun b hb => W8_of_ne d0 d1 d2 d3 m c b fun w e => hb (Finset.mem_image.mpr ⟨w, Finset.mem_univ _, e⟩)

/-! ## The proof data of every pipeline and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => d0 (V1 m) c
  | ⟨1, _⟩ => fun c => d1 (V3 d0 m) c
  | ⟨2, _⟩ => fun c => d2 (V5 d0 d1 m) c
  | ⟨3, _⟩ => fun c => d3 (V7 d0 d1 d2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts to other cores, none. -/
abbrev R (c : Dev nD) : sProp 𝕄 := iprop((∃ r, prngReg c r) ∗ ∃ W, owes (c : Thread nD τ) (0 : CellTallies nD τ sig Unit) W)
/-- A host stretch as a segment: over the unscoped references from the contents W, R riding along; it ends at the
    stretch's contents after W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W8 d0 d1 d2 d3 m c) ∗ ∃ r, prngReg c r)

/-! ## The regions as segments -/

set_option backward.isDefEq.respectTransparency.types false in
/-- REGION 0 over the thread state: entered from every unscoped buffer at W1, left at W2. Its arrays are split
    out of the unscoped buffers and put back at the exit contents; the generator register goes into the region's
    invariant and comes out; nothing is owed; the kernel has no semaphore of its own. -/
def reg0 (h0 : Fits0 d0) : Pipeline.RegionSeg (pcfgs (F := F)) adm (pdats d0 d1 d2 d3 m) () defs₀ 𝒱₀ L lv 0 where
  win := launch0.win.to₀
  block_pos := launch0.block_pos
  stage_whole := launch0.stage_whole
  K := PEmpty
  osem k := k.elim
  ho := Pipeline.OwnSemFacts.none _
  hbody c := (h0.hbody (V1 m) c).loose
  hwaits := Pipeline.hwaits_of_owed_zero _ _ _ _ L lv 0 fun c t => h0.owed_eq (V1 m) c t
  pre c := iprop(StableHlo.held (c : Thread nD τ) (Pipeline.ucRefs τ sig) (W1 m c) ∗ R c)
  post c := iprop(StableHlo.held (c : Thread nD τ) (Pipeline.ucRefs τ sig) (W2 d0 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats d0 d1 d2 d3 m) launch0.win launch0.arr_whole c
      ((pdats d0 d1 d2 d3 m 0 c).share_full fun w => h0.q_eq (V1 m) c w) (V1 m c) fun w => h0.A_eq (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 d2 d3 m 0 c).owed 0 = 0 from h0.owed_eq (V1 m) c 0]
      icases HO with ⟨%W, HO⟩; iexists W; isplitr; · ipureintro; exact fun x _ => Or.inl (show x ∈ (d0 (V1 m) c).recorded 0 by rw [h0.recorded_eq (V1 m) c]; exact Set.mem_univ x)
      iexact HO
    isplitl [Hp]; · iexact Hp
    iexact Hrest
  hin c := h0.hin (V1 m) c
  hout c := h0.hout (V1 m) c
  hexit c := by
    have hjoin := Pipeline.unscopedBufs_of_arrays (p := 0) (pcfgs (F := F)) adm (Ix := Unit) (Name := ℕ) (U := UR sig nD τ) (Lvl := ℕ)
      launch0.win launch0.arr_whole c (pdats d0 d1 d2 d3 m) ((pdats d0 d1 d2 d3 m 0 c).share_full fun w => h0.q_eq (V1 m) c w)
      (V1 m c) (V2 d0 m c) ((pdats d0 d1 d2 d3 m 0 c).arrAt · cfg0.N) (hF0 d0 m c) (hrest0 d0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats d0 d1 d2 d3 m 0 c).owed (Fin.last _) = 0 from h0.owed_eq (V1 m) c (Fin.last _)]
    icases HO with ⟨%W, -, HO⟩; iexists W; iexact HO

set_option backward.isDefEq.respectTransparency.types false in
/-- REGION 1 over the thread state: entered from every unscoped buffer at W3, left at W4. Its arrays are split
    out of the unscoped buffers and put back at the exit contents; the generator register goes into the region's
    invariant and comes out; nothing is owed; the kernel has no semaphore of its own. -/
def reg1 (h1 : Fits1 d1) : Pipeline.RegionSeg (pcfgs (F := F)) adm (pdats d0 d1 d2 d3 m) () defs₀ 𝒱₀ L lv 1 where
  win := launch1.win.to₀
  block_pos := launch1.block_pos
  stage_whole := launch1.stage_whole
  K := PEmpty
  osem k := k.elim
  ho := Pipeline.OwnSemFacts.none _
  hbody c := (h1.hbody (V3 d0 m) c).loose
  hwaits := Pipeline.hwaits_of_owed_zero _ _ _ _ L lv 1 fun c t => h1.owed_eq (V3 d0 m) c t
  pre c := iprop(StableHlo.held (c : Thread nD τ) (Pipeline.ucRefs τ sig) (W3 d0 m c) ∗ R c)
  post c := iprop(StableHlo.held (c : Thread nD τ) (Pipeline.ucRefs τ sig) (W4 d0 d1 m c) ∗ R c)
  X c := iprop(∃ r, prngReg c r)
  Y c := iprop(∃ r, prngReg c r)
  Z c := Pipeline.unscopedRest (Ix := Unit) (Name := ℕ) (U := UR sig nD τ) (Lvl := ℕ) spec1 c (V3 d0 m c)
  hentry c := by
    rw [Pipeline.ownSems0_none]
    have hsplit := Pipeline.arrays_of_unscopedBufs (p := 1) (pcfgs (F := F)) adm (pdats d0 d1 d2 d3 m) launch1.win launch1.arr_whole c
      ((pdats d0 d1 d2 d3 m 1 c).share_full fun w => h1.q_eq (V3 d0 m) c w) (V3 d0 m c) fun w => h1.A_eq (V3 d0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 d2 d3 m 1 c).owed 0 = 0 from h1.owed_eq (V3 d0 m) c 0]
      icases HO with ⟨%W, HO⟩; iexists W; isplitr; · ipureintro; exact fun x _ => Or.inl (show x ∈ (d1 (V3 d0 m) c).recorded 0 by rw [h1.recorded_eq (V3 d0 m) c]; exact Set.mem_univ x)
      iexact HO
    isplitl [Hp]; · iexact Hp
    iexact Hrest
  hin c := h1.hin (V3 d0 m) c
  hout c := h1.hout (V3 d0 m) c
  hexit c := by
    have hjoin := Pipeline.unscopedBufs_of_arrays (p := 1) (pcfgs (F := F)) adm (Ix := Unit) (Name := ℕ) (U := UR sig nD τ) (Lvl := ℕ)
      launch1.win launch1.arr_whole c (pdats d0 d1 d2 d3 m) ((pdats d0 d1 d2 d3 m 1 c).share_full fun w => h1.q_eq (V3 d0 m) c w)
      (V3 d0 m c) (V4 d0 d1 m c) ((pdats d0 d1 d2 d3 m 1 c).arrAt · cfg1.N) (hF1 d0 d1 m c) (hrest1 d0 d1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats d0 d1 d2 d3 m 1 c).owed (Fin.last _) = 0 from h1.owed_eq (V3 d0 m) c (Fin.last _)]
    icases HO with ⟨%W, -, HO⟩; iexists W; iexact HO

set_option backward.isDefEq.respectTransparency.types false in
/-- REGION 2 over the thread state: entered from every unscoped buffer at W5, left at W6. Its arrays are split
    out of the unscoped buffers and put back at the exit contents; the generator register goes into the region's
    invariant and comes out; nothing is owed; the kernel has no semaphore of its own. -/
def reg2 (h2 : Fits2 d2) : Pipeline.RegionSeg (pcfgs (F := F)) adm (pdats d0 d1 d2 d3 m) () defs₀ 𝒱₀ L lv 2 where
  win := launch2.win.to₀
  block_pos := launch2.block_pos
  stage_whole := launch2.stage_whole
  K := PEmpty
  osem k := k.elim
  ho := Pipeline.OwnSemFacts.none _
  hbody c := (h2.hbody (V5 d0 d1 m) c).loose
  hwaits := Pipeline.hwaits_of_owed_zero _ _ _ _ L lv 2 fun c t => h2.owed_eq (V5 d0 d1 m) c t
  pre c := iprop(StableHlo.held (c : Thread nD τ) (Pipeline.ucRefs τ sig) (W5 d0 d1 m c) ∗ R c)
  post c := iprop(StableHlo.held (c : Thread nD τ) (Pipeline.ucRefs τ sig) (W6 d0 d1 d2 m c) ∗ R c)
  X c := iprop(∃ r, prngReg c r)
  Y c := iprop(∃ r, prngReg c r)
  Z c := Pipeline.unscopedRest (Ix := Unit) (Name := ℕ) (U := UR sig nD τ) (Lvl := ℕ) spec2 c (V5 d0 d1 m c)
  hentry c := by
    rw [Pipeline.ownSems0_none]
    have hsplit := Pipeline.arrays_of_unscopedBufs (p := 2) (pcfgs (F := F)) adm (pdats d0 d1 d2 d3 m) launch2.win launch2.arr_whole c
      ((pdats d0 d1 d2 d3 m 2 c).share_full fun w => h2.q_eq (V5 d0 d1 m) c w) (V5 d0 d1 m c) fun w => h2.A_eq (V5 d0 d1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 d2 d3 m 2 c).owed 0 = 0 from h2.owed_eq (V5 d0 d1 m) c 0]
      icases HO with ⟨%W, HO⟩; iexists W; isplitr; · ipureintro; exact fun x _ => Or.inl (show x ∈ (d2 (V5 d0 d1 m) c).recorded 0 by rw [h2.recorded_eq (V5 d0 d1 m) c]; exact Set.mem_univ x)
      iexact HO
    isplitl [Hp]; · iexact Hp
    iexact Hrest
  hin c := h2.hin (V5 d0 d1 m) c
  hout c := h2.hout (V5 d0 d1 m) c
  hexit c := by
    have hjoin := Pipeline.unscopedBufs_of_arrays (p := 2) (pcfgs (F := F)) adm (Ix := Unit) (Name := ℕ) (U := UR sig nD τ) (Lvl := ℕ)
      launch2.win launch2.arr_whole c (pdats d0 d1 d2 d3 m) ((pdats d0 d1 d2 d3 m 2 c).share_full fun w => h2.q_eq (V5 d0 d1 m) c w)
      (V5 d0 d1 m c) (V6 d0 d1 d2 m c) ((pdats d0 d1 d2 d3 m 2 c).arrAt · cfg2.N) (hF2 d0 d1 d2 m c) (hrest2 d0 d1 d2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats d0 d1 d2 d3 m 2 c).owed (Fin.last _) = 0 from h2.owed_eq (V5 d0 d1 m) c (Fin.last _)]
    icases HO with ⟨%W, -, HO⟩; iexists W; iexact HO

set_option backward.isDefEq.respectTransparency.types false in
/-- REGION 3 over the thread state: entered from every unscoped buffer at W7, left at W8. Its arrays are split
    out of the unscoped buffers and put back at the exit contents; the generator register goes into the region's
    invariant and comes out; nothing is owed; the kernel has no semaphore of its own. -/
def reg3 (h3 : Fits3 d3) : Pipeline.RegionSeg (pcfgs (F := F)) adm (pdats d0 d1 d2 d3 m) () defs₀ 𝒱₀ L lv 3 where
  win := launch3.win.to₀
  block_pos := launch3.block_pos
  stage_whole := launch3.stage_whole
  K := PEmpty
  osem k := k.elim
  ho := Pipeline.OwnSemFacts.none _
  hbody c := (h3.hbody (V7 d0 d1 d2 m) c).loose
  hwaits := Pipeline.hwaits_of_owed_zero _ _ _ _ L lv 3 fun c t => h3.owed_eq (V7 d0 d1 d2 m) c t
  pre c := iprop(StableHlo.held (c : Thread nD τ) (Pipeline.ucRefs τ sig) (W7 d0 d1 d2 m c) ∗ R c)
  post c := iprop(Tₙ d0 d1 d2 d3 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 d0 d1 d2 m c)
  hentry c := by
    rw [Pipeline.ownSems0_none]
    have hsplit := Pipeline.arrays_of_unscopedBufs (p := 3) (pcfgs (F := F)) adm (pdats d0 d1 d2 d3 m) launch3.win launch3.arr_whole c
      ((pdats d0 d1 d2 d3 m 3 c).share_full fun w => h3.q_eq (V7 d0 d1 d2 m) c w) (V7 d0 d1 d2 m c) fun w => h3.A_eq (V7 d0 d1 d2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 d2 d3 m 3 c).owed 0 = 0 from h3.owed_eq (V7 d0 d1 d2 m) c 0]
      icases HO with ⟨%W, HO⟩; iexists W; isplitr; · ipureintro; exact fun x _ => Or.inl (show x ∈ (d3 (V7 d0 d1 d2 m) c).recorded 0 by rw [h3.recorded_eq (V7 d0 d1 d2 m) c]; exact Set.mem_univ x)
      iexact HO
    isplitl [Hp]; · iexact Hp
    iexact Hrest
  hin c := h3.hin (V7 d0 d1 d2 m) c
  hout c := h3.hout (V7 d0 d1 d2 m) c
  hexit c := by
    have hjoin := Pipeline.unscopedBufs_of_arrays (p := 3) (pcfgs (F := F)) adm (Ix := Unit) (Name := ℕ) (U := UR sig nD τ) (Lvl := ℕ)
      launch3.win launch3.arr_whole c (pdats d0 d1 d2 d3 m) ((pdats d0 d1 d2 d3 m 3 c).share_full fun w => h3.q_eq (V7 d0 d1 d2 m) c w)
      (V7 d0 d1 d2 m c) (V8 d0 d1 d2 d3 m c) ((pdats d0 d1 d2 d3 m 3 c).arrAt · cfg3.N) (hF3 d0 d1 d2 d3 m c) (hrest3 d0 d1 d2 d3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats d0 d1 d2 d3 m 3 c).owed (Fin.last _) = 0 from h3.owed_eq (V7 d0 d1 d2 m) c (Fin.last _)]
    icases HO with ⟨%W, -, HO⟩; iexists W; iexact HO

/-! ## @main as segments, and the launch -/

/-- @main's 8 segments in order: a host segment per stretch from its boundary's contents, a region per pipeline. -/
abbrev segs (h0 : Fits0 d0) (h1 : Fits1 d1) (h2 : Fits2 d2) (h3 : Fits3 d3) :
    List (Pipeline.Seg (pcfgs (F := F)) adm (pdats d0 d1 d2 d3 m) () defs₀ 𝒱₀ L lv) :=
  [ .host (hseg hostOps0 hostOps0_sub hostOps0_fresh (W0 m)),
    .region (reg0 d0 d1 d2 d3 m h0),
    .host (hseg hostOps1 hostOps1_sub hostOps1_fresh (W2 d0 m)),
    .region (reg1 d0 d1 d2 d3 m h1),
    .host (hseg hostOps2 hostOps2_sub hostOps2_fresh (W4 d0 d1 m)),
    .region (reg2 d0 d1 d2 d3 m h2),
    .host (hseg hostOps3 hostOps3_sub hostOps3_fresh (W6 d0 d1 d2 m)),
    .region (reg3 d0 d1 d2 d3 m h3) ]
/-- @main is the run of the segments: both are the same chain of items. -/
theorem main_run (h0 : Fits0 d0) (h1 : Fits1 d1) (h2 : Fits2 d2) (h3 : Fits3 d3) (c : Dev nD) :
    main (F := F) c = Pipeline.Seg.run (segs d0 d1 d2 d3 m h0 h1 h2 h3) := (main_chain c).trans (by chain_rfl)

set_option backward.isDefEq.respectTransparency.types false in
/-- THE RUN: at the compiled mesh, from any memory with zero counters, every weakly fair execution of @main on the
    TensorCores terminates, nothing faulting, and every final state holds every unscoped buffer at the last boundary's
    contents W8: the launch over the segments, the last thread state read against the final state. -/
theorem run_main (h0 : Fits0 d0) (h1 : Fits1 d1) (h2 : Fits2 d2) (h3 : Fits3 d3) (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = W8 d0 d1 d2 d3 m c b) :=
  Pipeline.θ_run_regions_kit (pcfgs (F := F)) adm (pdats d0 d1 d2 d3 m) () cellOf_inj emb₁ defs₀ 𝒱₀ L lv m ρ main (segs d0 d1 d2 d3 m h0 h1 h2 h3)
    (fun c Q => by rw [main_run d0 d1 d2 d3 m h0 h1 h2 h3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ d0 d1 d2 d3 m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 d0 d1 d2 d3 m c b)
    (hfin := fun c s' => by
      iintro ⟨⟨Hh, -⟩, HSI⟩
      unfold StableHlo.held
      imodintro
      iapply (pointsTo_read_all (Pipeline.ucRefs τ sig) (fun b => (((c : Thread nD τ)).1, b)) (W8 d0 d1 d2 d3 m c) s')
      isplitl [Hh] <;> iassumption)
    (hQ := fun s h => h)

/-! ## Reading the last contents back

No host operation writes an argument, and no region writes an array it only reads (a region reads an argument through
an input window or bypasses it): the fold at an argument's buffer walks back to the launch memory. -/

theorem W8_main_arg0 (h0 : Fits0 d0) (c : Dev nD) : W8 d0 d1 d2 d3 m c (Proc.devRef .tc main_arg0) = m ((c : Thread nD τ).loc main_arg0) :=
  calc W8 d0 d1 d2 d3 m c (Proc.devRef .tc main_arg0)
    _ = W7 d0 d1 d2 m c (Proc.devRef .tc main_arg0) := W8_of_ne d0 d1 d2 d3 m c main_arg0 (by decide)
    _ = W6 d0 d1 d2 m c (Proc.devRef .tc main_arg0) := W7_of d0 d1 d2 m c main_arg0 (by decide)
    _ = W5 d0 d1 m c (Proc.devRef .tc main_arg0) := W6_of_ne d0 d1 d2 m c main_arg0 (by decide)
    _ = W4 d0 d1 m c (Proc.devRef .tc main_arg0) := W5_of d0 d1 m c main_arg0 (by decide)
    _ = W3 d0 m c (Proc.devRef .tc main_arg0) := W4_of_ne d0 d1 m c main_arg0 (by decide)
    _ = W2 d0 m c (Proc.devRef .tc main_arg0) := W3_of d0 m c main_arg0 (by decide)
    _ = W1 m c (Proc.devRef .tc main_arg0) := (W2_arr d0 m c 0).trans (((d0 (V1 m) c).arrAt_in 0 rfl _).trans (h0.A_eq (V1 m) c 0))
    _ = W0 m c (Proc.devRef .tc main_arg0) := W1_of m c main_arg0 (by decide)
    _ = m ((c : Thread nD τ).loc main_arg0) := rfl

theorem W8_main_arg1 (h1 : Fits1 d1) (c : Dev nD) : W8 d0 d1 d2 d3 m c (Proc.devRef .tc main_arg1) = m ((c : Thread nD τ).loc main_arg1) :=
  calc W8 d0 d1 d2 d3 m c (Proc.devRef .tc main_arg1)
    _ = W7 d0 d1 d2 m c (Proc.devRef .tc main_arg1) := W8_of_ne d0 d1 d2 d3 m c main_arg1 (by decide)
    _ = W6 d0 d1 d2 m c (Proc.devRef .tc main_arg1) := W7_of d0 d1 d2 m c main_arg1 (by decide)
    _ = W5 d0 d1 m c (Proc.devRef .tc main_arg1) := W6_of_ne d0 d1 d2 m c main_arg1 (by decide)
    _ = W4 d0 d1 m c (Proc.devRef .tc main_arg1) := W5_of d0 d1 m c main_arg1 (by decide)
    _ = W3 d0 m c (Proc.devRef .tc main_arg1) := (W4_arr d0 d1 m c 0).trans (((d1 (V3 d0 m) c).arrAt_in 0 rfl _).trans (h1.A_eq (V3 d0 m) c 0))
    _ = W2 d0 m c (Proc.devRef .tc main_arg1) := W3_of d0 m c main_arg1 (by decide)
    _ = W1 m c (Proc.devRef .tc main_arg1) := W2_of_ne d0 m c main_arg1 (by decide)
    _ = W0 m c (Proc.devRef .tc main_arg1) := W1_of m c main_arg1 (by decide)
    _ = m ((c : Thread nD τ).loc main_arg1) := rfl

theorem W8_main_arg2 (c : Dev nD) : W8 d0 d1 d2 d3 m c (Proc.devRef .tc main_arg2) = m ((c : Thread nD τ).loc main_arg2) :=
  calc W8 d0 d1 d2 d3 m c (Proc.devRef .tc main_arg2)
    _ = W7 d0 d1 d2 m c (Proc.devRef .tc main_arg2) := W8_of_ne d0 d1 d2 d3 m c main_arg2 (by decide)
    _ = W6 d0 d1 d2 m c (Proc.devRef .tc main_arg2) := W7_of d0 d1 d2 m c main_arg2 (by decide)
    _ = W5 d0 d1 m c (Proc.devRef .tc main_arg2) := W6_of_ne d0 d1 d2 m c main_arg2 (by decide)
    _ = W4 d0 d1 m c (Proc.devRef .tc main_arg2) := W5_of d0 d1 m c main_arg2 (by decide)
    _ = W3 d0 m c (Proc.devRef .tc main_arg2) := W4_of_ne d0 d1 m c main_arg2 (by decide)
    _ = W2 d0 m c (Proc.devRef .tc main_arg2) := W3_of d0 m c main_arg2 (by decide)
    _ = W1 m c (Proc.devRef .tc main_arg2) := W2_of_ne d0 m c main_arg2 (by decide)
    _ = W0 m c (Proc.devRef .tc main_arg2) := W1_of m c main_arg2 (by decide)
    _ = m ((c : Thread nD τ).loc main_arg2) := rfl

theorem W8_main_arg3 (c : Dev nD) : W8 d0 d1 d2 d3 m c (Proc.devRef .tc main_arg3) = m ((c : Thread nD τ).loc main_arg3) :=
  calc W8 d0 d1 d2 d3 m c (Proc.devRef .tc main_arg3)
    _ = W7 d0 d1 d2 m c (Proc.devRef .tc main_arg3) := W8_of_ne d0 d1 d2 d3 m c main_arg3 (by decide)
    _ = W6 d0 d1 d2 m c (Proc.devRef .tc main_arg3) := W7_of d0 d1 d2 m c main_arg3 (by decide)
    _ = W5 d0 d1 m c (Proc.devRef .tc main_arg3) := W6_of_ne d0 d1 d2 m c main_arg3 (by decide)
    _ = W4 d0 d1 m c (Proc.devRef .tc main_arg3) := W5_of d0 d1 m c main_arg3 (by decide)
    _ = W3 d0 m c (Proc.devRef .tc main_arg3) := W4_of_ne d0 d1 m c main_arg3 (by decide)
    _ = W2 d0 m c (Proc.devRef .tc main_arg3) := W3_of d0 m c main_arg3 (by decide)
    _ = W1 m c (Proc.devRef .tc main_arg3) := W2_of_ne d0 m c main_arg3 (by decide)
    _ = W0 m c (Proc.devRef .tc main_arg3) := W1_of m c main_arg3 (by decide)
    _ = m ((c : Thread nD τ).loc main_arg3) := rfl

theorem W8_main_arg4 (c : Dev nD) : W8 d0 d1 d2 d3 m c (Proc.devRef .tc main_arg4) = m ((c : Thread nD τ).loc main_arg4) :=
  calc W8 d0 d1 d2 d3 m c (Proc.devRef .tc main_arg4)
    _ = W7 d0 d1 d2 m c (Proc.devRef .tc main_arg4) := W8_of_ne d0 d1 d2 d3 m c main_arg4 (by decide)
    _ = W6 d0 d1 d2 m c (Proc.devRef .tc main_arg4) := W7_of d0 d1 d2 m c main_arg4 (by decide)
    _ = W5 d0 d1 m c (Proc.devRef .tc main_arg4) := W6_of_ne d0 d1 d2 m c main_arg4 (by decide)
    _ = W4 d0 d1 m c (Proc.devRef .tc main_arg4) := W5_of d0 d1 m c main_arg4 (by decide)
    _ = W3 d0 m c (Proc.devRef .tc main_arg4) := W4_of_ne d0 d1 m c main_arg4 (by decide)
    _ = W2 d0 m c (Proc.devRef .tc main_arg4) := W3_of d0 m c main_arg4 (by decide)
    _ = W1 m c (Proc.devRef .tc main_arg4) := W2_of_ne d0 m c main_arg4 (by decide)
    _ = W0 m c (Proc.devRef .tc main_arg4) := W1_of m c main_arg4 (by decide)
    _ = m ((c : Thread nD τ).loc main_arg4) := rfl

theorem W8_main_arg5 (c : Dev nD) : W8 d0 d1 d2 d3 m c (Proc.devRef .tc main_arg5) = m ((c : Thread nD τ).loc main_arg5) :=
  calc W8 d0 d1 d2 d3 m c (Proc.devRef .tc main_arg5)
    _ = W7 d0 d1 d2 m c (Proc.devRef .tc main_arg5) := W8_of_ne d0 d1 d2 d3 m c main_arg5 (by decide)
    _ = W6 d0 d1 d2 m c (Proc.devRef .tc main_arg5) := W7_of d0 d1 d2 m c main_arg5 (by decide)
    _ = W5 d0 d1 m c (Proc.devRef .tc main_arg5) := W6_of_ne d0 d1 d2 m c main_arg5 (by decide)
    _ = W4 d0 d1 m c (Proc.devRef .tc main_arg5) := W5_of d0 d1 m c main_arg5 (by decide)
    _ = W3 d0 m c (Proc.devRef .tc main_arg5) := W4_of_ne d0 d1 m c main_arg5 (by decide)
    _ = W2 d0 m c (Proc.devRef .tc main_arg5) := W3_of d0 m c main_arg5 (by decide)
    _ = W1 m c (Proc.devRef .tc main_arg5) := W2_of_ne d0 m c main_arg5 (by decide)
    _ = W0 m c (Proc.devRef .tc main_arg5) := W1_of m c main_arg5 (by decide)
    _ = m ((c : Thread nD τ).loc main_arg5) := rfl

theorem W8_main_arg6 (c : Dev nD) : W8 d0 d1 d2 d3 m c (Proc.devRef .tc main_arg6) = m ((c : Thread nD τ).loc main_arg6) :=
  calc W8 d0 d1 d2 d3 m c (Proc.devRef .tc main_arg6)
    _ = W7 d0 d1 d2 m c (Proc.devRef .tc main_arg6) := W8_of_ne d0 d1 d2 d3 m c main_arg6 (by decide)
    _ = W6 d0 d1 d2 m c (Proc.devRef .tc main_arg6) := W7_of d0 d1 d2 m c main_arg6 (by decide)
    _ = W5 d0 d1 m c (Proc.devRef .tc main_arg6) := W6_of_ne d0 d1 d2 m c main_arg6 (by decide)
    _ = W4 d0 d1 m c (Proc.devRef .tc main_arg6) := W5_of d0 d1 m c main_arg6 (by decide)
    _ = W3 d0 m c (Proc.devRef .tc main_arg6) := W4_of_ne d0 d1 m c main_arg6 (by decide)
    _ = W2 d0 m c (Proc.devRef .tc main_arg6) := W3_of d0 m c main_arg6 (by decide)
    _ = W1 m c (Proc.devRef .tc main_arg6) := W2_of_ne d0 m c main_arg6 (by decide)
    _ = W0 m c (Proc.devRef .tc main_arg6) := W1_of m c main_arg6 (by decide)
    _ = m ((c : Thread nD τ).loc main_arg6) := rfl

theorem W8_main_arg7 (c : Dev nD) : W8 d0 d1 d2 d3 m c (Proc.devRef .tc main_arg7) = m ((c : Thread nD τ).loc main_arg7) :=
  calc W8 d0 d1 d2 d3 m c (Proc.devRef .tc main_arg7)
    _ = W7 d0 d1 d2 m c (Proc.devRef .tc main_arg7) := W8_of_ne d0 d1 d2 d3 m c main_arg7 (by decide)
    _ = W6 d0 d1 d2 m c (Proc.devRef .tc main_arg7) := W7_of d0 d1 d2 m c main_arg7 (by decide)
    _ = W5 d0 d1 m c (Proc.devRef .tc main_arg7) := W6_of_ne d0 d1 d2 m c main_arg7 (by decide)
    _ = W4 d0 d1 m c (Proc.devRef .tc main_arg7) := W5_of d0 d1 m c main_arg7 (by decide)
    _ = W3 d0 m c (Proc.devRef .tc main_arg7) := W4_of_ne d0 d1 m c main_arg7 (by decide)
    _ = W2 d0 m c (Proc.devRef .tc main_arg7) := W3_of d0 m c main_arg7 (by decide)
    _ = W1 m c (Proc.devRef .tc main_arg7) := W2_of_ne d0 m c main_arg7 (by decide)
    _ = W0 m c (Proc.devRef .tc main_arg7) := W1_of m c main_arg7 (by decide)
    _ = m ((c : Thread nD τ).loc main_arg7) := rfl

theorem W8_main_arg8 (c : Dev nD) : W8 d0 d1 d2 d3 m c (Proc.devRef .tc main_arg8) = m ((c : Thread nD τ).loc main_arg8) :=
  calc W8 d0 d1 d2 d3 m c (Proc.devRef .tc main_arg8)
    _ = W7 d0 d1 d2 m c (Proc.devRef .tc main_arg8) := W8_of_ne d0 d1 d2 d3 m c main_arg8 (by decide)
    _ = W6 d0 d1 d2 m c (Proc.devRef .tc main_arg8) := W7_of d0 d1 d2 m c main_arg8 (by decide)
    _ = W5 d0 d1 m c (Proc.devRef .tc main_arg8) := W6_of_ne d0 d1 d2 m c main_arg8 (by decide)
    _ = W4 d0 d1 m c (Proc.devRef .tc main_arg8) := W5_of d0 d1 m c main_arg8 (by decide)
    _ = W3 d0 m c (Proc.devRef .tc main_arg8) := W4_of_ne d0 d1 m c main_arg8 (by decide)
    _ = W2 d0 m c (Proc.devRef .tc main_arg8) := W3_of d0 m c main_arg8 (by decide)
    _ = W1 m c (Proc.devRef .tc main_arg8) := W2_of_ne d0 m c main_arg8 (by decide)
    _ = W0 m c (Proc.devRef .tc main_arg8) := W1_of m c main_arg8 (by decide)
    _ = m ((c : Thread nD τ).loc main_arg8) := rfl

theorem W8_main_arg9 (c : Dev nD) : W8 d0 d1 d2 d3 m c (Proc.devRef .tc main_arg9) = m ((c : Thread nD τ).loc main_arg9) :=
  calc W8 d0 d1 d2 d3 m c (Proc.devRef .tc main_arg9)
    _ = W7 d0 d1 d2 m c (Proc.devRef .tc main_arg9) := W8_of_ne d0 d1 d2 d3 m c main_arg9 (by decide)
    _ = W6 d0 d1 d2 m c (Proc.devRef .tc main_arg9) := W7_of d0 d1 d2 m c main_arg9 (by decide)
    _ = W5 d0 d1 m c (Proc.devRef .tc main_arg9) := W6_of_ne d0 d1 d2 m c main_arg9 (by decide)
    _ = W4 d0 d1 m c (Proc.devRef .tc main_arg9) := W5_of d0 d1 m c main_arg9 (by decide)
    _ = W3 d0 m c (Proc.devRef .tc main_arg9) := W4_of_ne d0 d1 m c main_arg9 (by decide)
    _ = W2 d0 m c (Proc.devRef .tc main_arg9) := W3_of d0 m c main_arg9 (by decide)
    _ = W1 m c (Proc.devRef .tc main_arg9) := W2_of_ne d0 m c main_arg9 (by decide)
    _ = W0 m c (Proc.devRef .tc main_arg9) := W1_of m c main_arg9 (by decide)
    _ = m ((c : Thread nD τ).loc main_arg9) := rfl

theorem W8_main_arg10 (c : Dev nD) : W8 d0 d1 d2 d3 m c (Proc.devRef .tc main_arg10) = m ((c : Thread nD τ).loc main_arg10) :=
  calc W8 d0 d1 d2 d3 m c (Proc.devRef .tc main_arg10)
    _ = W7 d0 d1 d2 m c (Proc.devRef .tc main_arg10) := W8_of_ne d0 d1 d2 d3 m c main_arg10 (by decide)
    _ = W6 d0 d1 d2 m c (Proc.devRef .tc main_arg10) := W7_of d0 d1 d2 m c main_arg10 (by decide)
    _ = W5 d0 d1 m c (Proc.devRef .tc main_arg10) := W6_of_ne d0 d1 d2 m c main_arg10 (by decide)
    _ = W4 d0 d1 m c (Proc.devRef .tc main_arg10) := W5_of d0 d1 m c main_arg10 (by decide)
    _ = W3 d0 m c (Proc.devRef .tc main_arg10) := W4_of_ne d0 d1 m c main_arg10 (by decide)
    _ = W2 d0 m c (Proc.devRef .tc main_arg10) := W3_of d0 m c main_arg10 (by decide)
    _ = W1 m c (Proc.devRef .tc main_arg10) := W2_of_ne d0 m c main_arg10 (by decide)
    _ = W0 m c (Proc.devRef .tc main_arg10) := W1_of m c main_arg10 (by decide)
    _ = m ((c : Thread nD τ).loc main_arg10) := rfl

/-- The program's result: the last region's output array at what its write-backs leave. -/
theorem W8_main_v54 (c : Dev nD) : W8 d0 d1 d2 d3 m c (Proc.devRef .tc main_v54) = (d3 (V7 d0 d1 d2 m) c).arrAt 5 cfg3.N :=
  W8_arr d0 d1 d2 d3 m c 5

/-- The edge projection's output array at what region 1's write-backs leave: nothing after region 1 writes it. -/
theorem W8_main_v11 (c : Dev nD) : W8 d0 d1 d2 d3 m c (Proc.devRef .tc main_v11) = (d1 (V3 d0 m) c).arrAt 2 cfg1.N :=
  calc W8 d0 d1 d2 d3 m c (Proc.devRef .tc main_v11)
    _ = W7 d0 d1 d2 m c (Proc.devRef .tc main_v11) := W8_of_ne d0 d1 d2 d3 m c main_v11 (by decide)
    _ = W6 d0 d1 d2 m c (Proc.devRef .tc main_v11) := W7_of d0 d1 d2 m c main_v11 (by decide)
    _ = W5 d0 d1 m c (Proc.devRef .tc main_v11) := W6_of_ne d0 d1 d2 m c main_v11 (by decide)
    _ = W4 d0 d1 m c (Proc.devRef .tc main_v11) := W5_of d0 d1 m c main_v11 (by decide)
    _ = (d1 (V3 d0 m) c).arrAt 2 cfg1.N := W4_arr d0 d1 m c 2

end Cert.KernelIdeal.Hand

end
-- ==== Proof.Frames.lean ====
import proofs.«153656_j10943576670413_2_alg».proof.Proof.Proj0
import proofs.«153656_j10943576670413_2_alg».proof.Proof.Proj1
import proofs.«153656_j10943576670413_2_alg».proof.Proof.Stats2Body
import proofs.«153656_j10943576670413_2_alg».proof.Proof.Norm3
import proofs.«153656_j10943576670413_2_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

/-! ## The four regions' proof data fit the run; the program's frame -/

theorem fits0 : Fits0 (F := F) (fun V c => dat0 V c) where
  A_eq := fun V c w => A_eq0 V c w
  q_eq := fun _ _ _ => rfl
  owed_eq := fun _ _ _ => rfl
  recorded_eq := fun _ _ => rfl
  hbody := fun V c => body_obligation0 V c
  hin := fun V c => by
    rw [show (dat0 V c).Φ 0 = Pipeline.ΦA spec0 c from rfl]; unfold Pipeline.ΦA
    iintro ⟨Hp, -, Hr⟩
    isplitl [Hr]; · iexact Hr
    iexact Hp
  hout := fun V c => by
    rw [Pipeline.ownSems0_none, show (dat0 V c).Φ (Fin.last _) = Pipeline.ΦA spec0 c from rfl]; unfold Pipeline.ΦA
    iintro ⟨Hr, Hp⟩
    isplitl [Hp]; · iexact Hp
    isplitr; · iempintro
    iexact Hr

theorem fits1 : Fits1 (F := F) (fun V c => dat1 V c) where
  A_eq := fun V c w => A_eq1 V c w
  q_eq := fun _ _ _ => rfl
  owed_eq := fun _ _ _ => rfl
  recorded_eq := fun _ _ => rfl
  hbody := fun V c => body_obligation1 V c
  hin := fun V c => by
    rw [show (dat1 V c).Φ 0 = Pipeline.ΦA spec1 c from rfl]; unfold Pipeline.ΦA
    iintro ⟨Hp, -, Hr⟩
    isplitl [Hr]; · iexact Hr
    iexact Hp
  hout := fun V c => by
    rw [Pipeline.ownSems0_none, show (dat1 V c).Φ (Fin.last _) = Pipeline.ΦA spec1 c from rfl]; unfold Pipeline.ΦA
    iintro ⟨Hr, Hp⟩
    isplitl [Hp]; · iexact Hp
    isplitr; · iempintro
    iexact Hr

theorem fits2 : Fits2 (F := F) (fun V c => dat2 V c) where
  A_eq := fun V c w => A_eq2 V c w
  q_eq := fun _ _ _ => rfl
  owed_eq := fun _ _ _ => rfl
  recorded_eq := fun _ _ => rfl
  hbody := fun V c => body_obligation2 V c
  hin := fun V c => hin2 V c _
  hout := fun V c => (hout2 V c).trans (by
    rw [Pipeline.ownSems0_none]
    iintro ⟨Hp, Hr⟩
    isplitl [Hp]; · iexact Hp
    isplitr; · iempintro
    iexact Hr)

theorem fits3 : Fits3 (F := F) (fun V c => dat3 V c) where
  A_eq := fun V c w => A_eq3 V c w
  q_eq := fun _ _ _ => rfl
  owed_eq := fun _ _ _ => rfl
  recorded_eq := fun _ _ => rfl
  hbody := fun V c => body_obligation3 V c
  hin := fun V c => by
    rw [show (dat3 V c).Φ 0 = Pipeline.ΦA spec3 c from rfl]; unfold Pipeline.ΦA
    iintro ⟨Hp, -, Hr⟩
    isplitl [Hr]; · iexact Hr
    iexact Hp
  hout := fun V c => by
    rw [Pipeline.ownSems0_none, show (dat3 V c).Φ (Fin.last _) = Pipeline.ΦA spec3 c from rfl]; unfold Pipeline.ΦA
    iintro ⟨Hr, Hp⟩
    isplitl [Hp]; · iexact Hp
    isplitr; · iempintro
    iexact Hr

/-- The four proof-data families, named. -/
abbrev D0 : Fam F cfg0 := fun V c => dat0 V c
abbrev D1 : Fam F cfg1 := fun V c => dat1 V c
abbrev D2 : Fam F cfg2 := fun V c => dat2 V c
abbrev D3 : Fam F cfg3 := fun V c => dat3 V c

/-- The program runs — every weakly fair execution terminates, nothing faults — and every unscoped buffer ends at the
    last boundary's contents. -/
theorem run_all (m : (ℓ : Loc nD τ sig) → Buf (Elt F) ℓ) (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = W8 (D0 (F := F)) D1 D2 D3 m c b) :=
  run_main D0 D1 D2 D3 m fits0 fits1 fits2 fits3 ρ

/-- The frame: the program runs and its eleven argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W8_main_arg0 D0 D1 D2 D3 m fits0 c),
     (h c _ (mem_uc main_arg1 (by decide))).trans (W8_main_arg1 D0 D1 D2 D3 m fits1 c),
     (h c _ (mem_uc main_arg2 (by decide))).trans (W8_main_arg2 D0 D1 D2 D3 m c),
     (h c _ (mem_uc main_arg3 (by decide))).trans (W8_main_arg3 D0 D1 D2 D3 m c),
     (h c _ (mem_uc main_arg4 (by decide))).trans (W8_main_arg4 D0 D1 D2 D3 m c),
     (h c _ (mem_uc main_arg5 (by decide))).trans (W8_main_arg5 D0 D1 D2 D3 m c),
     (h c _ (mem_uc main_arg6 (by decide))).trans (W8_main_arg6 D0 D1 D2 D3 m c),
     (h c _ (mem_uc main_arg7 (by decide))).trans (W8_main_arg7 D0 D1 D2 D3 m c),
     (h c _ (mem_uc main_arg8 (by decide))).trans (W8_main_arg8 D0 D1 D2 D3 m c),
     (h c _ (mem_uc main_arg9 (by decide))).trans (W8_main_arg9 D0 D1 D2 D3 m c),
     (h c _ (mem_uc main_arg10 (by decide))).trans (W8_main_arg10 D0 D1 D2 D3 m c)⟩) (run_all m ρ)

end Cert.KernelIdeal.Hand

end
-- ==== Proof.Spec.lean ====
/-
  What each of the kernel program's four pipelined regions leaves in its output arrays, as functions of the arrays it
  reads, on the extended reals, index by index.

  * The two projection regions: an output entry is the row-by-column product,
      (x · w)(i, j) = Σ_k x(i, k) · w(k, j),  k over the 128 contracted columns
    (the narrowing of both operands before the product is the identity on the extended reals).
  * The statistics region, over d and s (both 50000 × 128): the sum a = d + s entry by entry, and for every column j
    the column sum Σ_i a(i, j) and the column sum of squares Σ_i a(i, j)², i over all 50000 rows (the region adds
    them up ten blocks of 5000 rows at a time; a finite sum of extended reals does not depend on the grouping).
  * The normalisation region: max(((x(i,j) − mean(j)) · rsqrt(var(j) + ε)) · g(j) + b(j), 0), ε the binary32 value nearest 1e-5.
-/
import proofs.«153656_j10943576670413_2_alg».proof.KernelIdeal
import Idealize.ShloMosaic.Lib.ValueIdx

noncomputable section

open scoped BigOperators

namespace Cert.KernelIdeal.Spec

open Idealize.ShloMosaic Idealize.ShloMosaic.ValueIdx Cert.KernelIdeal

/-- One entry of the node projection: row i of x against column j of w. -/
def nodeProjAt (x : FVec Ideal S50000x128 .f32) (w : FVec Ideal S128x512 .f32) (i : Fin 50000) (j : Fin 512) : EReal :=
  ∑ k : Fin 128, x (ix2 i k) * w (ix2 k j)

/-- The node projection x · w, 50000 × 512. -/
def nodeProj (x : FVec Ideal S50000x128 .f32) (w : FVec Ideal S128x512 .f32) : FVec Ideal S50000x512 .f32 :=
  fun idx => nodeProjAt x w (idx 0) (idx 1)

/-- One entry of the edge projection: row i of x against column j of w. -/
def edgeProjAt (x : FVec Ideal S800000x128 .f32) (w : FVec Ideal S128x128 .f32) (i : Fin 800000) (j : Fin 128) : EReal :=
  ∑ k : Fin 128, x (ix2 i k) * w (ix2 k j)

/-- The edge projection x · w, 800000 × 128. -/
def edgeProj (x : FVec Ideal S800000x128 .f32) (w : FVec Ideal S128x128 .f32) : FVec Ideal S800000x128 .f32 :=
  fun idx => edgeProjAt x w (idx 0) (idx 1)

/-- The pre-normalisation activations: d + s, entry by entry. -/
def preAct (d s : FVec Ideal S50000x128 .f32) : FVec Ideal S50000x128 .f32 :=
  fun idx => d idx + s idx

/-- Column j's sum of d + s over all 50000 rows. -/
def colSumAt (d s : FVec Ideal S50000x128 .f32) (j : Fin 128) : EReal :=
  ∑ i : Fin 50000, (d (ix2 i j) + s (ix2 i j))

/-- The column sums as a 1 × 128 array. -/
def colSum (d s : FVec Ideal S50000x128 .f32) : FVec Ideal S1x128 .f32 :=
  fun idx => colSumAt d s (idx 1)

/-- Column j's sum of (d + s)² over all 50000 rows. -/
def colSumSqAt (d s : FVec Ideal S50000x128 .f32) (j : Fin 128) : EReal :=
  ∑ i : Fin 50000, (d (ix2 i j) + s (ix2 i j)) * (d (ix2 i j) + s (ix2 i j))

/-- The column sums of squares as a 1 × 128 array. -/
def colSumSq (d s : FVec Ideal S50000x128 .f32) : FVec Ideal S1x128 .f32 :=
  fun idx => colSumSqAt d s (idx 1)

/-- One entry of the normalised, rectified output. -/
def normAt (x : FVec Ideal S50000x128 .f32) (mean var g b : FVec Ideal S1x128 .f32) (i : Fin 50000) (j : Fin 128) : EReal :=
  max (((x (ix2 i j) - mean (ix2 (0 : Fin 1) j)) * Ideal.rsqrt (var (ix2 (0 : Fin 1) j) + Ideal.ofBits .f32 0x3727C5AC#32))
        * g (ix2 (0 : Fin 1) j) + b (ix2 (0 : Fin 1) j)) (Ideal.ofBits .f32 0x00000000#32)

/-- The normalised, rectified output, 50000 × 128. -/
def norm (x : FVec Ideal S50000x128 .f32) (mean var g b : FVec Ideal S1x128 .f32) : FVec Ideal S50000x128 .f32 :=
  fun idx => normAt x mean var g b (idx 0) (idx 1)

theorem nodeProj_apply (x w) (i : Fin 50000) (j : Fin 512) : nodeProj x w (ix2 i j) = nodeProjAt x w i j := rfl
theorem edgeProj_apply (x w) (i : Fin 800000) (j : Fin 128) : edgeProj x w (ix2 i j) = edgeProjAt x w i j := rfl
theorem colSum_apply (d s) (j : Fin 128) : colSum d s (ix2 (0 : Fin 1) j) = colSumAt d s j := rfl
theorem colSumSq_apply (d s) (j : Fin 128) : colSumSq d s (ix2 (0 : Fin 1) j) = colSumSqAt d s j := rfl
theorem norm_apply (x mean var g b) (i : Fin 50000) (j : Fin 128) : norm x mean var g b (ix2 i j) = normAt x mean var g b i j := rfl

end Cert.KernelIdeal.Spec

end
-- ==== Proof.Terms.lean ====
/-
  The kernel program's two results as functions of its eleven argument arrays, on the extended reals.

  Between the four pipelined regions the program applies host operations; here each stretch is one function.
  * The weights: the four 128 × 128 matrices transposed and laid side by side, 128 × 512.
  * The message chain, shared word for word with the reference: a negative node index wraps by 50000; rows of A·h and
    C·h are gathered by the edge's source, rows of B·h by its destination; the gate is 1 / (1 + exp(−(A·h[src] + B·h[dst] + e')));
    the message C·h[src] · gate is added into its destination's row, starting from zero.
  * The statistics: mean = column sum / 50000, variance = column sum of squares / 50000 − mean · mean.
-/
import proofs.«153656_j10943576670413_2_alg».proof.Proof.Gen.KernelIdeal
import proofs.«153656_j10943576670413_2_alg».proof.Proof.Spec

noncomputable section

namespace Cert.KernelIdeal.Hand

open Idealize.ShloMosaic Cert.KernelIdeal Cert.KernelIdeal.Gen

/-- A 128 × 128 matrix transposed. -/
def tr (W : FVec Ideal S128x128 .f32) : FVec Ideal S128x128 .f32 :=
  transpose S128x128 [1, 0] W transposes_S128x128_S128x128_1_0

/-- The four transposed weight matrices side by side: column 128·q + j of the result is column j of the q-th. -/
def w4t (WA WB WC WD : FVec Ideal S128x128 .f32) : FVec Ideal S128x512 .f32 :=
  concatenate S128x512 1 [⟨S128x128, tr WA⟩, ⟨S128x128, tr WB⟩, ⟨S128x128, tr WC⟩, ⟨S128x128, tr WD⟩]
    concatenates_S128x128_S128x128_S128x128_S128x128_S128x512_d1

/-- Columns 0–127, 128–255, 256–383, 384–511 of a 50000 × 512 array. -/
def cols0 (p : FVec Ideal S50000x512 .f32) : FVec Ideal S50000x128 .f32 := extractStridedSlice S50000x128 ![0, 0] p slices_S50000x512_S50000x128_0_0
def cols1 (p : FVec Ideal S50000x512 .f32) : FVec Ideal S50000x128 .f32 := extractStridedSlice S50000x128 ![0, 128] p slices_S50000x512_S50000x128_0_128
def cols2 (p : FVec Ideal S50000x512 .f32) : FVec Ideal S50000x128 .f32 := extractStridedSlice S50000x128 ![0, 256] p slices_S50000x512_S50000x128_0_256
def cols3 (p : FVec Ideal S50000x512 .f32) : FVec Ideal S50000x128 .f32 := extractStridedSlice S50000x128 ![0, 384] p slices_S50000x512_S50000x128_0_384

/-- A node index list with the negative entries wrapped by 50000, as a column of start indices. -/
def wrapIdx (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- The gate 1 / (1 + exp(−(a + b + e))), entry by entry. -/
def gate (a b e : FVec Ideal S800000x128 .f32) : FVec Ideal S800000x128 .f32 :=
  Host.divf (F := Ideal) (broadcastInDim S800000x128 ![] bcast_S_S800000x128 (constant (F := Ideal) S_ .f32 0x3F800000#32))
    (addf (broadcastInDim S800000x128 ![] bcast_S_S800000x128 (constant (F := Ideal) S_ .f32 0x3F800000#32))
      (Host.exp (F := Ideal) (Host.negf (F := Ideal) (addf (addf a b) e))))

/-- The summed messages: row v is the sum, over the edges whose destination is v, of C·h[src] · gate. -/
def message (Ah Bh Ch : FVec Ideal S50000x128 .f32) (en : FVec Ideal S800000x128 .f32) (src dst : IVec S800000 32) :
    FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (Host.gather gather_S50000x128_S800000x1_S800000x128_1_0_n_n_0_1_1128 Ch (wrapIdx src))
      (gate (Host.gather gather_S50000x128_S800000x1_S800000x128_1_0_n_n_0_1_1128 Ah (wrapIdx src))
        (Host.gather gather_S50000x128_S800000x1_S800000x128_1_0_n_n_0_1_1128 Bh (wrapIdx dst)) en))

/-- A 1 × 128 row divided by 50000. -/
def over50000 (s : FVec Ideal S1x128 .f32) : FVec Ideal S1x128 .f32 :=
  Host.divf (F := Ideal) s (broadcastInDim S1x128 ![] bcast_S_S1x128 (constant (F := Ideal) S_ .f32 0x47435000#32))

/-- The one-pass variance row: sum of squares / 50000 − mean · mean. -/
def varRow (mean s2 : FVec Ideal S1x128 .f32) : FVec Ideal S1x128 .f32 :=
  subf (over50000 s2) (mulf mean mean)

/-- A 128-vector as a 1 × 128 row. -/
def asRow (g : FVec Ideal S128 .f32) : FVec Ideal S1x128 .f32 := shapeCast S1x128 g shapeCasts_S128_S1x128

/-- The kernel program's second result: the projected edge features e · WEᵀ. -/
def kerEdge (e : FVec Ideal S800000x128 .f32) (WE : FVec Ideal S128x128 .f32) : FVec Ideal S800000x128 .f32 :=
  Spec.edgeProj e (tr WE)

/-- The node projection h · [WAᵀ | WBᵀ | WCᵀ | WDᵀ]. -/
def kerProj (h : FVec Ideal S50000x128 .f32) (WA WB WC WD : FVec Ideal S128x128 .f32) : FVec Ideal S50000x512 .f32 :=
  Spec.nodeProj h (w4t WA WB WC WD)

/-- The summed messages of the kernel program, from its own projections. -/
def kerMsg (h : FVec Ideal S50000x128 .f32) (e : FVec Ideal S800000x128 .f32) (WA WB WC WD WE : FVec Ideal S128x128 .f32)
    (src dst : IVec S800000 32) : FVec Ideal S50000x128 .f32 :=
  message (cols0 (kerProj h WA WB WC WD)) (cols1 (kerProj h WA WB WC WD)) (cols2 (kerProj h WA WB WC WD)) (kerEdge e WE) src dst

/-- The kernel program's first result: the normalised, rectified node features. -/
def kerOut (h : FVec Ideal S50000x128 .f32) (e : FVec Ideal S800000x128 .f32) (WA WB WC WD WE : FVec Ideal S128x128 .f32)
    (gamma beta : FVec Ideal S128 .f32) (src dst : IVec S800000 32) : FVec Ideal S50000x128 .f32 :=
  Spec.norm (Spec.preAct (cols3 (kerProj h WA WB WC WD)) (kerMsg h e WA WB WC WD WE src dst))
    (over50000 (Spec.colSum (cols3 (kerProj h WA WB WC WD)) (kerMsg h e WA WB WC WD WE src dst)))
    (varRow (over50000 (Spec.colSum (cols3 (kerProj h WA WB WC WD)) (kerMsg h e WA WB WC WD WE src dst)))
      (Spec.colSumSq (cols3 (kerProj h WA WB WC WD)) (kerMsg h e WA WB WC WD WE src dst)))
    (asRow gamma) (asRow beta)

end Cert.KernelIdeal.Hand

end
-- ==== Proof.Proj0Value.lean ====
/-
  The node projection region's output array after the region, on the extended reals: the row-by-column product of the
  two arrays the region reads.

  Per block: the body's payload is a product accumulated into zeros, of its two operands narrowed (the identity here),
  so its entry (p, q) is Σ_k x(p, k) · w(k, q). The x window's block at point t is rows 5000·t … 5000·t + 4999 of x, the
  w window's block is all of w, and the output's block at point t is the same rows of the output; so what point t writes
  back is the block of the whole-array product. The ten blocks cover the 50000 rows (row r is in block r / 5000).
-/
import proofs.«153656_j10943576670413_2_alg».proof.Proof.Proj0
import proofs.«153656_j10943576670413_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.KernelIdeal.GenP

/-! ## The payload at an index -/

theorem zeros0 : (![0, 0] : Fin 2 → Nat) = fun _ => 0 := funext fun a => by fin_cases a <;> rfl

/-- The product's left operand index: the output's row, the contracted position. -/
theorem lhs0_0 (i : S5000x512.Idx) (q : dot_S5000x128_S128x512_S5000x512_1_0_0_1_n_n.contr.Idx) : (dot_S5000x128_S128x512_S5000x512_1_0_0_1_n_n.lhsIdx i q 0).val = (i 0).val := by
  unfold DotDims.lhsIdx
  rw [dif_neg (show ¬(0 : Fin S5000x128.rank) ∈ dot_S5000x128_S128x512_S5000x512_1_0_0_1_n_n.lhsBatch by decide), dif_pos (show (0 : Fin S5000x128.rank) ∈ dot_S5000x128_S128x512_S5000x512_1_0_0_1_n_n.lhsNonContracting by decide)]
  rfl
theorem lhs0_1 (i : S5000x512.Idx) (q : dot_S5000x128_S128x512_S5000x512_1_0_0_1_n_n.contr.Idx) : (dot_S5000x128_S128x512_S5000x512_1_0_0_1_n_n.lhsIdx i q 1).val = (q ⟨0, by decide⟩).val :=
  dot_S5000x128_S128x512_S5000x512_1_0_0_1_n_n.lhsIdx_val_of_single rfl i q
/-- The right operand index: the contracted position, the output's column. -/
theorem rhs0_0 (i : S5000x512.Idx) (q : dot_S5000x128_S128x512_S5000x512_1_0_0_1_n_n.contr.Idx) : (dot_S5000x128_S128x512_S5000x512_1_0_0_1_n_n.rhsIdx i q 0).val = (q ⟨0, by decide⟩).val :=
  dot_S5000x128_S128x512_S5000x512_1_0_0_1_n_n.rhsIdx_val_of_single rfl i q
theorem rhs0_1 (i : S5000x512.Idx) (q : dot_S5000x128_S128x512_S5000x512_1_0_0_1_n_n.contr.Idx) : (dot_S5000x128_S128x512_S5000x512_1_0_0_1_n_n.rhsIdx i q 1).val = (i 1).val := by
  unfold DotDims.rhsIdx
  rw [dif_neg (show ¬(1 : Fin S128x512.rank) ∈ dot_S5000x128_S128x512_S5000x512_1_0_0_1_n_n.rhsBatch by decide), dif_pos (show (1 : Fin S128x512.rank) ∈ dot_S5000x128_S128x512_S5000x512_1_0_0_1_n_n.rhsNonContracting by decide)]
  rfl

/-- The body's payload at entry (p, q): the row-by-column sum over the 128 contracted positions. -/
theorem pay0_apply (x : Vec Ideal S5000x128 .f32) (w : Vec Ideal S128x512 .f32) (p : Fin 5000) (q : Fin 512) :
    (k0_pay1 (F := Ideal) x w (ix2 p q) : EReal) = ∑ k : Fin 128, x (ix2 p k) * w (ix2 k q) := by
  unfold k0_pay1
  simp only [shapeCast_self]
  refine (Ideal.matmul_constant_zero_apply dot_S5000x128_S128x512_S5000x512_1_0_0_1_n_n none _ _ (ix2 p q)).trans ?_
  rw [← Equiv.sum_comp (contrEquiv1 dot_S5000x128_S128x512_S5000x512_1_0_0_1_n_n 128 rfl rfl).symm]
  refine Finset.sum_congr rfl fun k _ => ?_
  have hk := contrEquiv1_symm_val dot_S5000x128_S128x512_S5000x512_1_0_0_1_n_n 128 rfl rfl k
  have el : dot_S5000x128_S128x512_S5000x512_1_0_0_1_n_n.lhsIdx (ix2 p q) ((contrEquiv1 dot_S5000x128_S128x512_S5000x512_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x512_S5000x512_1_0_0_1_n_n.rhsIdx (ix2 p q) ((contrEquiv1 dot_S5000x128_S128x512_S5000x512_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  rfl

/-! ## From blocks to the array -/

variable (V : (c : Dev nD) → (b : Ref sig .tc) → Buf (Elt Ideal) ((c : Thread nD τ).loc b))

/-- The printed block indices, decided over the grid: the x window and the output move together down the rows, one
    block per point; w stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The sum over a point's x block and w block, entry (p, q), is the whole-array product's entry at the place the
    output's block puts (p, q): the x block's rows are the output block's rows, its columns and w's rows the
    contracted positions, w's columns the output's. -/
theorem block_sum0_eq (X : S50000x128.Idx → EReal) (W : S128x512.Idx → EReal) (t : Fin cfg0.N) (p : Fin 5000) (q : Fin 512) :
    ∑ k : Fin 128, X (((cfg0.win 0).blk t).view.emb (ix2 p k)) * W (((cfg0.win 1).blk t).view.emb (ix2 k q))
      = Spec.nodeProjAt X W ((((cfg0.win 2).blk t).view.emb (ix2 p q)) 0) ((((cfg0.win 2).blk t).view.emb (ix2 p q)) 1) := by
  obtain ⟨e0, e1, e2, e3, e4, e5⟩ := idx_facts0 t
  unfold Spec.nodeProjAt
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 512 + 1 * q.val = win0_2.index t (1 : Fin 2) * 512 + 1 * q.val; omega
  rw [h0, h1]
  rfl

/-- What point t writes back is block t of the whole-array product. -/
theorem flushed0_eq (c : Dev nD) (t : Fin cfg0.N) :
    (dat0 (F := Ideal) V c).flushed 2 t = ((cfg0.win 2).blk t).view.read (Elt Ideal) (Spec.nodeProj (V c main_arg0) (V c main_v4)) := by
  show (cfg0.win 2).cut (grid0.coords t) ((dat0 (F := Ideal) V c).after 2 t) = _
  rw [after0_2]
  unfold out0_2
  rw [View.canon_unit_zero zeros0]
  simp only [View.ld_unit_zero (S := S5000x128) zeros0, View.ld_unit_zero (S := S128x512) zeros0]
  funext j
  obtain ⟨p, q, rfl⟩ : ∃ (p : Fin 5000) (q : Fin 512), j = ix2 p q := ⟨j 0, j 1, eq_ix2 j⟩
  refine (pay0_apply _ _ p q).trans ?_
  exact block_sum0_eq (V c main_arg0) (V c main_v4) t p q

/-- An index of the output array is in point t's block iff each coordinate is in the block's range on its axis. -/
theorem mem_blk0 (t : Fin cfg0.N) (i : S50000x512.Idx) :
    i ∈ ((cfg0.win 2).blk t).view.set ↔ ∀ a : Fin 2, win0_2.index t a * S5000x512.size a ≤ (i a).val ∧ (i a).val < win0_2.index t a * S5000x512.size a + S5000x512.size a := by
  show i ∈ ((View.whole main_v5).slice (win0_2.rect t)).set ↔ _
  rw [View.set_slice_whole, Rect.mem_set_unit]
  exact Iff.rfl

/-- Every index of the output array is in some point's block: row r is in block r / 5000. -/
theorem cover0 (i : S50000x512.Idx) : ∃ t : Fin cfg0.N, (cfg0.win 2).flush t = true ∧ i ∈ ((cfg0.win 2).blk t).view.set := by
  have hi0 : (i 0).val < 50000 := (i 0).isLt
  have hi1 : (i 1).val < 512 := (i 1).isLt
  have hN : (i 0).val / 5000 < cfg0.N := by
    show (i 0).val / 5000 < grid0.N
    rw [N_0]; omega
  refine ⟨⟨(i 0).val / 5000, hN⟩, flush0_2 _, ?_⟩
  obtain ⟨e0, e1, e2, e3, e4, e5⟩ := idx_facts0 ⟨(i 0).val / 5000, hN⟩
  rw [mem_blk0]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]; show (i 0).val / 5000 * 5000 ≤ (i 0).val ∧ (i 0).val < (i 0).val / 5000 * 5000 + 5000
    omega
  | ⟨1, _⟩ =>
    show win0_2.index ⟨(i 0).val / 5000, hN⟩ (1 : Fin 2) * 512 ≤ (i 1).val ∧ (i 1).val < win0_2.index ⟨(i 0).val / 5000, hN⟩ (1 : Fin 2) * 512 + 512
    rw [e5]; omega

/-- The output array after the region: the product of the two arrays the region reads. -/
theorem arr0 (c : Dev nD) :
    (dat0 (F := Ideal) V c).arrAt 2 cfg0.N = Spec.nodeProj (V c main_arg0) (V c main_v4) :=
  (dat0 (F := Ideal) V c).arrAt_eq_of_cover 2 (Spec.nodeProj (V c main_arg0) (V c main_v4)) (fun t _ => flushed0_eq V c t) cover0

end Cert.KernelIdeal.Hand

end
-- ==== Proof.ProjPay.lean ====
import proofs.«153656_j10943576670413_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen
open scoped BigOperators

/-! ## The edge projection's payload -/

/-- The left operand's index at output `i`, contraction `q`: its row is `i`'s row. -/
theorem k1_lhs0 (i : S8000x128.Idx) (q : dot_S8000x128_S128x128_S8000x128_1_0_0_1_n_n.contr.Idx) : (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl

/-- … and its column is the contraction coordinate. -/
theorem k1_lhs1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q

/-- The right operand's index at output `i`, contraction `q`: its row is the contraction coordinate. -/
theorem k1_rhs0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q

/-- … and its column is `i`'s column. -/
theorem k1_rhs1 (i : S8000x128.Idx) (q : dot_S8000x128_S128x128_S8000x128_1_0_0_1_n_n.contr.Idx) : (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

/-- The stored block is the matrix product of the two loaded blocks: at `(r, j)` the sum over `k` of
    `v0 (r, k) · v2 (k, j)` (the narrowing of each operand is the identity on the extended reals, the
    accumulator starts at zero). -/
theorem k1_pay1_apply (v0 : Vec Ideal S8000x128 .f32) (v2 : Vec Ideal S128x128 .f32) (r : Fin 8000) (j : Fin 128) :
    k1_pay1 (F := Ideal) v0 v2 (ix2 r j) = ∑ k : Fin 128, v0 (ix2 r k) * v2 (ix2 k j) := by
  unfold k1_pay1
  rw [shapeCast_self]
  refine (Ideal.matmul_constant_zero_apply dot_S8000x128_S128x128_S8000x128_1_0_0_1_n_n none _ _ (ix2 r j)).trans ?_
  rw [← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 r j) ((contrEquiv1 dot_S8000x128_S128x128_S8000x128_1_0_0_1_n_n 128 rfl rfl).symm k) = ix2 r k :=
    funext fun a => Fin.ext (by
      match a with
      | ⟨0, _⟩ => exact k1_lhs0 _ _
      | ⟨1, _⟩ => exact (k1_lhs1 _ _).trans hk)
  have er : dot_S8000x128_S128x128_S8000x128_1_0_0_1_n_n.rhsIdx (ix2 r j) ((contrEquiv1 dot_S8000x128_S128x128_S8000x128_1_0_0_1_n_n 128 rfl rfl).symm k) = ix2 k j :=
    funext fun a => Fin.ext (by
      match a with
      | ⟨0, _⟩ => exact (k1_rhs0 _ _).trans hk
      | ⟨1, _⟩ => exact k1_rhs1 _ _)
  rw [el, er]
  rfl

end Cert.KernelIdeal.Hand

end
-- ==== Proof.Proj1Value.lean ====
/-
  The array the edge projection region leaves, on the extended reals, index by index.

  At point t of its grid of one hundred the region's body reads rows 8000·t … 8000·t + 7999 of x and the whole of w, and
  writes back, at row p and column q of the block,
      Σ_k x(8000·t + p, k) · w(k, q),  k over the 128 contracted columns
  (narrowing either operand is the identity on the extended reals, and the accumulator starts at zero): entry
  (8000·t + p, q) of the specification's product. The hundred blocks tile the 800000 rows (row r lies in block
  r / 8000), so the output array ends holding that product.
-/
import proofs.«153656_j10943576670413_2_alg».proof.Proof.Proj1
import proofs.«153656_j10943576670413_2_alg».proof.Proof.Spec
import proofs.«153656_j10943576670413_2_alg».proof.Proof.ProjPay
import Idealize.ShloMosaic.Lib.Pipeline.Value
import Idealize.ShloMosaic.Lib.ValueLayout
import Idealize.ShloMosaic.Lib.ValueIdx
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

-- the buffer contents when the region is entered, on the extended reals
variable (V : (c : Dev nD) → (b : Ref sig .tc) → Buf (Elt Ideal) ((c : Thread nD τ).loc b))

theorem offsets_zero1 : (![0, 0] : Fin 2 → Nat) = fun _ => 0 := funext fun a => by fin_cases a <;> rfl

/-! ## The printed index maps, decided over the grid -/

/-- The block of x and the output block at point t are block row t; the w window's block is the whole array. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-! ## The input blocks as entries of the arrays -/

/-- Entry (p, k) of the block of x at point t is entry (8000·t + p, k) of x. -/
theorem iblk1_0_apply (c : Dev nD) (t : Fin cfg1.N) (p : Fin 8000) (k : Fin 128) (r : Fin 800000) (hr : r.val = 8000 * t.val + p.val) :
    (iblk1 V c 0 t : Vec Ideal S8000x128 .f32) (ix2 p k) = (V c main_arg1 : FVec Ideal S800000x128 .f32) (ix2 r k) := by
  obtain ⟨e0, e1, -⟩ := index_facts1 t
  unfold iblk1
  rw [View.read_apply]
  show (V c main_arg1 : FVec Ideal S800000x128 .f32) _ = _
  congr 1
  funext a
  apply Fin.ext
  match a with
  | ⟨0, _⟩ => show win1_0.index t (0 : Fin 2) * 8000 + 1 * p.val = r.val; rw [e0, hr]; omega
  | ⟨1, _⟩ => show win1_0.index t (1 : Fin 2) * 128 + 1 * k.val = k.val; rw [e1]; omega

/-- Entry (k, q) of the w window's block at any point is entry (k, q) of w. -/
theorem iblk1_1_apply (c : Dev nD) (t : Fin cfg1.N) (k q : Fin 128) :
    (iblk1 V c 1 t : Vec Ideal S128x128 .f32) (ix2 k q) = (V c main_v10 : FVec Ideal S128x128 .f32) (ix2 k q) := by
  obtain ⟨-, -, e0, e1, -⟩ := index_facts1 t
  unfold iblk1
  rw [View.read_apply]
  show (V c main_v10 : FVec Ideal S128x128 .f32) _ = _
  congr 1
  funext a
  apply Fin.ext
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-! ## What a point writes back -/

/-- What point t writes back is block t of the specification's product of the arrays the region finds. -/
theorem flushed1_eq (c : Dev nD) (t : Fin cfg1.N) :
    (dat1 (F := Ideal) V c).flushed 2 t = ((cfg1.win 2).blk t).view.read (Elt Ideal)
      (Spec.edgeProj (V c main_arg1) (V c main_v10)) := by
  show (cfg1.win 2).cut (grid1.coords t) ((dat1 (F := Ideal) V c).after 2 t) = _
  rw [after1_2]
  unfold out1_2
  rw [View.canon_unit_zero offsets_zero1]
  simp only [View.ld_unit_zero (S := S8000x128) offsets_zero1, View.ld_unit_zero (S := S128x128) offsets_zero1]
  obtain ⟨-, -, -, -, e0, e1⟩ := index_facts1 t
  funext j
  obtain ⟨p, q, rfl⟩ : ∃ (p : Fin 8000) (q : Fin 128), j = ix2 p q := ⟨j 0, j 1, eq_ix2 j⟩
  have hN : cfg1.N = 100 := N_1
  have hr : 8000 * t.val + p.val < 800000 := by have h1 := t.isLt; have h2 := p.isLt; omega
  have hemb : ((cfg1.win 2).blk t).view.emb (ix2 p q) = (ix2 (⟨8000 * t.val + p.val, hr⟩ : Fin 800000) q : S800000x128.Idx) := by
    funext a
    apply Fin.ext
    match a with
    | ⟨0, _⟩ => show win1_2.index t (0 : Fin 2) * 8000 + 1 * p.val = 8000 * t.val + p.val; rw [e0]; omega
    | ⟨1, _⟩ => show win1_2.index t (1 : Fin 2) * 128 + 1 * q.val = q.val; rw [e1]; omega
  show k1_pay1 (iblk1 V c 0 t) (iblk1 V c 1 t) (ix2 p q) = Spec.edgeProj _ _ (((cfg1.win 2).blk t).view.emb (ix2 p q))
  rw [hemb, Spec.edgeProj_apply, k1_pay1_apply]
  unfold Spec.edgeProjAt
  refine Finset.sum_congr rfl fun k _ => ?_
  rw [iblk1_0_apply V c t p k ⟨8000 * t.val + p.val, hr⟩ rfl, iblk1_1_apply]

/-! ## The blocks tile the array -/

/-- An index of the output array is in point t's block iff each coordinate is in the block's range on its axis. -/
theorem mem_blk1_2 (t : Fin cfg1.N) (i : S800000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v11).slice (win1_2.rect t)).set ↔ _
  rw [View.set_slice_whole, Rect.mem_set_unit]
  exact Iff.rfl

/-- Row r of the output array lies in the block of point r / 8000, which is written back. -/
theorem covered1_2 (i : S800000x128.Idx) :
    ∃ t : Fin cfg1.N, (cfg1.win 2).flush t = true ∧ i ∈ ((cfg1.win 2).blk t).view.set := by
  have hi0 : (i 0).val < 800000 := (i 0).isLt
  have hi1 : (i 1).val < 128 := (i 1).isLt
  let t : Fin cfg1.N := ⟨(i 0).val / 8000, by rw [show cfg1.N = 100 from N_1]; omega⟩
  obtain ⟨-, -, -, -, e0, e1⟩ := index_facts1 t
  have htv : t.val = (i 0).val / 8000 := rfl
  refine ⟨t, flush1_2 t, ?_⟩
  rw [mem_blk1_2]
  intro a
  match a with
  | ⟨0, _⟩ => show win1_2.index t (0 : Fin 2) * 8000 ≤ (i 0).val ∧ (i 0).val < win1_2.index t (0 : Fin 2) * 8000 + 8000; rw [e0, htv]; omega
  | ⟨1, _⟩ => show win1_2.index t (1 : Fin 2) * 128 ≤ (i 1).val ∧ (i 1).val < win1_2.index t (1 : Fin 2) * 128 + 128; rw [e1]; omega

/-! ## The array after the region -/

/-- The output array after the region is the specification's product of the arrays the region finds. -/
theorem arr1 (V : (c : Dev nD) → (b : Ref sig .tc) → Buf (Elt Ideal) ((c : Thread nD τ).loc b)) (c : Dev nD) :
    (dat1 (F := Ideal) V c).arrAt 2 cfg1.N = Spec.edgeProj (V c main_arg1) (V c main_v10) :=
  (dat1 (F := Ideal) V c).arrAt_eq_of_cover 2 _ (fun t _ => flushed1_eq V c t) covered1_2

end Cert.KernelIdeal.Hand

end
-- ==== Proof.LibBatchStats.lean ====
import Idealize.ShloMosaic.PureOps.Ideal
import Idealize.ShloMosaic.PureOps.Ideal.Laws
import Mathlib

noncomputable section

namespace Cert.Lib.BatchStats

open Idealize.ShloMosaic
open scoped BigOperators

/-- The coercion of the reals into the extended reals commutes with finite sums:
    the sum of the reals `f i`, coerced, is the sum of the coerced `f i`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real, taken in the extended reals, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The variance identity on the reals: with `μ = (Σ x)/n`,
    `(Σ x²)/n − μ·μ = (Σ (x − μ)·(x − μ))/n`. -/
theorem real_variance {n : ℕ} (hn : n ≠ 0) (x : Fin n → ℝ) :
    (∑ i, x i * x i) / (n : ℝ) - (∑ i, x i) / (n : ℝ) * ((∑ i, x i) / (n : ℝ))
      = (∑ i, (x i - (∑ i', x i') / (n : ℝ)) * (x i - (∑ i', x i') / (n : ℝ))) / (n : ℝ) := by
  have hn' : (n : ℝ) ≠ 0 := by exact_mod_cast hn
  set S : ℝ := ∑ i, x i with hS
  set μ : ℝ := S / (n : ℝ) with hμ
  have key : ∑ i, (x i - μ) * (x i - μ) = (∑ i, x i * x i) - 2 * μ * S + (n : ℝ) * (μ * μ) := by
    have : ∀ i, (x i - μ) * (x i - μ) = x i * x i - 2 * μ * x i + μ * μ := fun i => by ring
    simp only [this, Finset.sum_add_distrib, Finset.sum_sub_distrib, ← Finset.mul_sum,
      Finset.sum_const, Finset.card_univ, Fintype.card_fin, nsmul_eq_mul, ← hS]
    ring
  rw [key, hμ]
  field_simp
  ring

/-- The one-pass and the two-pass variance agree on real data: with `μ = (Σ x)/n`,
    `(Σ x²)/n − μ·μ = (Σ (x−μ)·(x−μ))/n`, all operations the extended reals' and the quotient
    `Ideal.div` by the real `n ≠ 0`. -/
theorem variance_one_pass_eq_two_pass {n : ℕ} (hn : n ≠ 0) (x : Fin n → ℝ) :
    Ideal.div (∑ i, ((x i : EReal) * (x i : EReal))) ((n : ℝ) : EReal)
        - Ideal.div (∑ i, (x i : EReal)) ((n : ℝ) : EReal)
          * Ideal.div (∑ i, (x i : EReal)) ((n : ℝ) : EReal)
      = Ideal.div (∑ i, (((x i : EReal) - Ideal.div (∑ i', (x i' : EReal)) ((n : ℝ) : EReal))
          * ((x i : EReal) - Ideal.div (∑ i', (x i' : EReal)) ((n : ℝ) : EReal)))) ((n : ℝ) : EReal) := by
  have hn' : (n : ℝ) ≠ 0 := by exact_mod_cast hn
  simp only [← EReal.coe_mul, ← coe_sum, div_coe_coe _ hn', ← EReal.coe_sub]
  rw [real_variance hn x]

/-- The same identity with each sum spelled as the initial value `0` plus the sum. -/
theorem variance_one_pass_eq_two_pass' {n : ℕ} (hn : n ≠ 0) (x : Fin n → ℝ) :
    Ideal.div (0 + ∑ i, ((x i : EReal) * (x i : EReal))) ((n : ℝ) : EReal)
        - Ideal.div (0 + ∑ i, (x i : EReal)) ((n : ℝ) : EReal)
          * Ideal.div (0 + ∑ i, (x i : EReal)) ((n : ℝ) : EReal)
      = Ideal.div (0 + ∑ i, (((x i : EReal) - Ideal.div (0 + ∑ i', (x i' : EReal)) ((n : ℝ) : EReal))
          * ((x i : EReal) - Ideal.div (0 + ∑ i', (x i' : EReal)) ((n : ℝ) : EReal)))) ((n : ℝ) : EReal) := by
  simp only [zero_add]
  exact variance_one_pass_eq_two_pass hn x

/-! ## Extended reals that are reals -/

/-- An extended real that is (the coercion of) a real: neither infinity. -/
def IsReal (x : EReal) : Prop := ∃ r : ℝ, x = (r : EReal)

namespace IsReal

/-- A coerced real is a real. -/
theorem coe (r : ℝ) : IsReal (r : EReal) := ⟨r, rfl⟩

/-- `0` is a real. -/
theorem zero : IsReal 0 := ⟨0, EReal.coe_zero.symm⟩

/-- `1` is a real. -/
theorem one : IsReal 1 := ⟨1, EReal.coe_one.symm⟩

/-- A real extended real is the coercion of its real part. -/
theorem coe_toReal {x : EReal} (h : IsReal x) : ((x.toReal : ℝ) : EReal) = x := by
  obtain ⟨r, rfl⟩ := h; simp

/-- A real extended real is neither infinity. -/
theorem ne_top {x : EReal} (h : IsReal x) : x ≠ ⊤ := by
  obtain ⟨r, rfl⟩ := h; exact EReal.coe_ne_top r

/-- A real extended real is neither infinity. -/
theorem ne_bot {x : EReal} (h : IsReal x) : x ≠ ⊥ := by
  obtain ⟨r, rfl⟩ := h; exact EReal.coe_ne_bot r

/-- An extended real that is neither infinity is a real. -/
theorem of_ne {x : EReal} (ht : x ≠ ⊤) (hb : x ≠ ⊥) : IsReal x :=
  ⟨x.toReal, (EReal.coe_toReal ht hb).symm⟩

/-- The sum of two reals is a real. -/
theorem add {x y : EReal} (hx : IsReal x) (hy : IsReal y) : IsReal (x + y) := by
  obtain ⟨a, rfl⟩ := hx; obtain ⟨b, rfl⟩ := hy; exact ⟨a + b, (EReal.coe_add a b).symm⟩

/-- The difference of two reals is a real. -/
theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem neg {x : EReal} (hx : IsReal x) : IsReal (-x) := by
  obtain ⟨a, rfl⟩ := hx; exact ⟨-a, (EReal.coe_neg a).symm⟩

/-- A finite sum of reals is a real. -/
theorem sum {ι : Type*} (s : Finset ι) (f : ι → EReal) (h : ∀ i ∈ s, IsReal (f i)) :
    IsReal (∑ i ∈ s, f i) :=
  Finset.sum_induction f IsReal (fun _ _ => add) zero h

/-- A sum of reals over a whole finite type is a real. -/
theorem sum_univ {ι : Type*} [Fintype ι] (f : ι → EReal) (h : ∀ i, IsReal (f i)) :
    IsReal (∑ i, f i) :=
  sum Finset.univ f fun i _ => h i

/-- The quotient of a real by a nonzero real is a real. -/
theorem div {x y : EReal} (hx : IsReal x) (hy : IsReal y) (hy0 : y ≠ 0) : IsReal (Ideal.div x y) := by
  obtain ⟨a, rfl⟩ := hx; obtain ⟨b, rfl⟩ := hy
  have hb : b ≠ 0 := fun h => hy0 (by rw [h, EReal.coe_zero])
  exact ⟨a / b, div_coe_coe a hb⟩

/-- The exponential of a real is a real. -/
theorem exp {x : EReal} (hx : IsReal x) : IsReal (Ideal.exp x) := by
  obtain ⟨a, rfl⟩ := hx; exact ⟨Real.exp a, Ideal.exp_coe a⟩

/-- The logistic function `1 / (1 + e^{-x})` of a real is a real: the denominator is positive. -/
theorem logistic {x : EReal} (hx : IsReal x) : IsReal (Ideal.div 1 (1 + Ideal.exp (-x))) := by
  obtain ⟨a, rfl⟩ := hx
  have hpos : (1 + Real.exp (-a)) ≠ 0 := (add_pos one_pos (Real.exp_pos _)).ne'
  refine ⟨1 / (1 + Real.exp (-a)), ?_⟩
  rw [← EReal.coe_neg, Ideal.exp_coe, ← EReal.coe_one, ← EReal.coe_add, div_coe_coe _ hpos]

/-- The same for the library's name of the logistic function. -/
theorem logistic' {x : EReal} (hx : IsReal x) : IsReal (Ideal.logistic x) := logistic hx

/-- The larger of two reals is a real. -/
theorem max {x y : EReal} (hx : IsReal x) (hy : IsReal y) : IsReal (Max.max x y) := by
  rcases le_total x y with h | h
  · rw [max_eq_right h]; exact hy
  · rw [max_eq_left h]; exact hx

/-- The smaller of two reals is a real. -/
theorem min {x y : EReal} (hx : IsReal x) (hy : IsReal y) : IsReal (Min.min x y) := by
  rcases le_total x y with h | h
  · rw [min_eq_left h]; exact hx
  · rw [min_eq_right h]; exact hy

/-- The reciprocal square root of a positive real is a real. -/
theorem rsqrt {x : EReal} (hx : IsReal x) (hpos : 0 < x) : IsReal (Ideal.rsqrt x) := by
  obtain ⟨a, rfl⟩ := hx
  have ha : 0 < a := by exact_mod_cast hpos
  refine ⟨(Real.sqrt a)⁻¹, ?_⟩
  rw [Ideal.rsqrt_coe, if_neg (not_lt.mpr ha.le), if_neg ha.ne']

end IsReal

/-- The reciprocal square root of a positive real, named: `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The one-pass and two-pass variance agree on extended-real data all of whose entries are reals. -/
theorem variance_one_pass_eq_two_pass_of_isReal {n : ℕ} (hn : n ≠ 0) (X : Fin n → EReal)
    (hX : ∀ i, IsReal (X i)) :
    Ideal.div (∑ i, (X i * X i)) ((n : ℝ) : EReal)
        - Ideal.div (∑ i, X i) ((n : ℝ) : EReal) * Ideal.div (∑ i, X i) ((n : ℝ) : EReal)
      = Ideal.div (∑ i, ((X i - Ideal.div (∑ i', X i') ((n : ℝ) : EReal))
          * (X i - Ideal.div (∑ i', X i') ((n : ℝ) : EReal)))) ((n : ℝ) : EReal) := by
  choose x hx using hX
  obtain rfl : X = fun i => (x i : EReal) := funext hx
  exact variance_one_pass_eq_two_pass hn x

/-- The same with each sum spelled as the initial value `0` plus the sum. -/
theorem variance_one_pass_eq_two_pass_of_isReal' {n : ℕ} (hn : n ≠ 0) (X : Fin n → EReal)
    (hX : ∀ i, IsReal (X i)) :
    Ideal.div (0 + ∑ i, (X i * X i)) ((n : ℝ) : EReal)
        - Ideal.div (0 + ∑ i, X i) ((n : ℝ) : EReal) * Ideal.div (0 + ∑ i, X i) ((n : ℝ) : EReal)
      = Ideal.div (0 + ∑ i, ((X i - Ideal.div (0 + ∑ i', X i') ((n : ℝ) : EReal))
          * (X i - Ideal.div (0 + ∑ i', X i') ((n : ℝ) : EReal)))) ((n : ℝ) : EReal) := by
  simp only [zero_add]
  exact variance_one_pass_eq_two_pass_of_isReal hn X hX

/-- The two-pass variance of real data is a nonnegative real. -/
theorem variance_two_pass_nonneg {n : ℕ} (hn : n ≠ 0) (x : Fin n → ℝ) :
    ∃ v : ℝ, 0 ≤ v ∧
      Ideal.div (∑ i, (((x i : EReal) - Ideal.div (∑ i', (x i' : EReal)) ((n : ℝ) : EReal))
          * ((x i : EReal) - Ideal.div (∑ i', (x i' : EReal)) ((n : ℝ) : EReal)))) ((n : ℝ) : EReal)
        = (v : EReal) := by
  have hn' : (n : ℝ) ≠ 0 := by exact_mod_cast hn
  refine ⟨(∑ i, (x i - (∑ i', x i') / (n : ℝ)) * (x i - (∑ i', x i') / (n : ℝ))) / (n : ℝ), ?_, ?_⟩
  · exact div_nonneg (Finset.sum_nonneg fun i _ => mul_self_nonneg _) (Nat.cast_nonneg n)
  · simp only [← EReal.coe_mul, ← coe_sum, div_coe_coe _ hn', ← EReal.coe_sub]

/-! ## Literals -/

/-- The binary32 pattern `0x3F800000` denotes the real `1`. -/
theorem ofBits_one : Ideal.ofBits .f32 0x3F800000#32 = ((1 : ℝ) : EReal) := by
  simp [Ideal.ofBits, Ideal.ieee, -EReal.coe_mul]; norm_num

/-- The binary32 pattern `0x47435000` denotes the real `50000`. -/
theorem ofBits_50000 : Ideal.ofBits .f32 0x47435000#32 = ((50000 : ℝ) : EReal) := by
  simp [Ideal.ofBits, Ideal.ieee, -EReal.coe_mul]; norm_num

/-- The binary32 pattern `0x3727C5AC` (the binary32 value nearest `10⁻⁵`) denotes a positive real,
    `10995116 · 2⁻⁴⁰`. -/
theorem ofBits_eps_pos : ∃ ε : ℝ, 0 < ε ∧ Ideal.ofBits .f32 0x3727C5AC#32 = (ε : EReal) := by
  refine ⟨(10995116 : ℝ) * (2 : ℝ) ^ (-40 : ℤ), by positivity, ?_⟩
  simp [Ideal.ofBits, Ideal.ieee, -EReal.coe_mul]

/-! ## Sums by blocks, and accumulators -/

/-- Row `r` of block `t`, among `n` blocks of `b` rows: the row `t·b + r` of the `n·b` rows. -/
def blockIdx {n b : ℕ} (t : Fin n) (r : Fin b) : Fin (n * b) :=
  ⟨t.val * b + r.val, by
    have h1 : t.val * b + r.val < (t.val + 1) * b := by rw [Nat.succ_mul]; exact Nat.add_lt_add_left r.isLt _
    exact lt_of_lt_of_le h1 (Nat.mul_le_mul_right b t.isLt)⟩

/-- The value of `blockIdx t r` is `t·b + r`. -/
@[simp] theorem blockIdx_val {n b : ℕ} (t : Fin n) (r : Fin b) : (blockIdx t r).val = t.val * b + r.val := rfl

/-- A sum over `n·b` rows taken `b` rows at a time: `Σ_{t<n} Σ_{r<b} f(t·b + r) = Σ_{i<n·b} f i`,
    in any additive commutative monoid. -/
theorem sum_blocks {M : Type*} [AddCommMonoid M] (n b : ℕ) (f : Fin (n * b) → M) :
    (∑ t : Fin n, ∑ r : Fin b, f (blockIdx t r)) = ∑ i : Fin (n * b), f i := by
  rw [← Equiv.sum_comp finProdFinEquiv f, Fintype.sum_prod_type]
  refine Finset.sum_congr rfl fun t _ => Finset.sum_congr rfl fun r _ => ?_
  congr 1
  apply Fin.ext
  simp [blockIdx, finProdFinEquiv, Nat.mul_comm, Nat.add_comm]

/-- The same for a function of the natural-number row index:
    `Σ_{t<n} Σ_{r<b} f(t·b + r) = Σ_{i<n·b} f i`. -/
theorem sum_blocks_nat {M : Type*} [AddCommMonoid M] (n b : ℕ) (f : ℕ → M) :
    (∑ t : Fin n, ∑ r : Fin b, f (t.val * b + r.val)) = ∑ i : Fin (n * b), f i.val :=
  sum_blocks n b fun i => f i.val

/-- The same over ranges of natural numbers. -/
theorem sum_blocks_range {M : Type*} [AddCommMonoid M] (n b : ℕ) (f : ℕ → M) :
    (∑ t ∈ Finset.range n, ∑ r ∈ Finset.range b, f (t * b + r)) = ∑ i ∈ Finset.range (n * b), f i := by
  rw [Finset.sum_range, Finset.sum_range (fun i => f i), ← sum_blocks_nat]
  exact Finset.sum_congr rfl fun t _ => Finset.sum_range _

/-- The same when the number of rows is given as `N = n·b`. -/
theorem sum_blocks_of_eq {M : Type*} [AddCommMonoid M] {N n b : ℕ} (h : N = n * b) (f : Fin N → M) :
    (∑ t : Fin n, ∑ r : Fin b, f ⟨t.val * b + r.val, h ▸ (blockIdx t r).isLt⟩) = ∑ i : Fin N, f i := by
  subst h
  exact sum_blocks n b f

/-- An accumulator started at `0` and increased by `s t` at step `t` holds `Σ_{t<k} s t` after
    `k` steps. -/
theorem acc_eq_sum {M : Type*} [AddCommMonoid M] (s : ℕ → M) (acc : ℕ → M) (h0 : acc 0 = 0)
    (hstep : ∀ t, acc (t + 1) = acc t + s t) (k : ℕ) : acc k = ∑ t ∈ Finset.range k, s t := by
  induction k with
  | zero => simpa using h0
  | succ k ih => rw [hstep, ih, Finset.sum_range_succ]

/-- The same when the step rule is known only for the first `K` steps: for `k ≤ K`. -/
theorem acc_eq_sum_le {M : Type*} [AddCommMonoid M] (s : ℕ → M) (acc : ℕ → M) (K : ℕ) (h0 : acc 0 = 0)
    (hstep : ∀ t, t < K → acc (t + 1) = acc t + s t) (k : ℕ) (hk : k ≤ K) :
    acc k = ∑ t ∈ Finset.range k, s t := by
  induction k with
  | zero => simpa using h0
  | succ k ih => rw [hstep k hk, ih (Nat.le_of_succ_le hk), Finset.sum_range_succ]

/-! ## The literals are reals; the variance identity with a named divisor -/

/-- The binary32 pattern of `0` is a real. -/
theorem isReal_ofBits_zero : IsReal (Ideal.ofBits .f32 0x00000000#32) := by
  rw [Ideal.ofBits_zero_f32]; exact IsReal.zero

/-- The binary32 pattern of `1` is a real. -/
theorem isReal_ofBits_one : IsReal (Ideal.ofBits .f32 0x3F800000#32) := ⟨1, ofBits_one⟩

/-- The binary32 pattern of `50000` is a real. -/
theorem isReal_ofBits_50000 : IsReal (Ideal.ofBits .f32 0x47435000#32) := ⟨50000, ofBits_50000⟩

/-- The binary32 pattern nearest `10⁻⁵` is a real. -/
theorem isReal_ofBits_eps : IsReal (Ideal.ofBits .f32 0x3727C5AC#32) := by
  obtain ⟨ε, _, h⟩ := ofBits_eps_pos; exact ⟨ε, h⟩

/-- The binary32 pattern of `50000` is not `0`. -/
theorem ofBits_50000_ne_zero : Ideal.ofBits .f32 0x47435000#32 ≠ 0 := by
  rw [ofBits_50000]; exact_mod_cast (by norm_num : (50000 : ℝ) ≠ 0)

/-- The one-pass and two-pass variance agree on real-valued extended-real data, the divisor any
    extended real `d` equal to the count `n ≠ 0`. -/
theorem variance_one_pass_eq_two_pass_of_isReal_div {n : ℕ} (hn : n ≠ 0) (X : Fin n → EReal)
    (hX : ∀ i, IsReal (X i)) (d : EReal) (hd : d = ((n : ℝ) : EReal)) :
    Ideal.div (∑ i, (X i * X i)) d - Ideal.div (∑ i, X i) d * Ideal.div (∑ i, X i) d
      = Ideal.div (∑ i, ((X i - Ideal.div (∑ i', X i') d) * (X i - Ideal.div (∑ i', X i') d))) d := by
  subst hd
  exact variance_one_pass_eq_two_pass_of_isReal hn X hX

/-- The same with each sum spelled as the initial value `0` plus the sum. -/
theorem variance_one_pass_eq_two_pass_of_isReal_div' {n : ℕ} (hn : n ≠ 0) (X : Fin n → EReal)
    (hX : ∀ i, IsReal (X i)) (d : EReal) (hd : d = ((n : ℝ) : EReal)) :
    Ideal.div (0 + ∑ i, (X i * X i)) d - Ideal.div (0 + ∑ i, X i) d * Ideal.div (0 + ∑ i, X i) d
      = Ideal.div (0 + ∑ i, ((X i - Ideal.div (0 + ∑ i', X i') d)
          * (X i - Ideal.div (0 + ∑ i', X i') d))) d := by
  subst hd
  exact variance_one_pass_eq_two_pass_of_isReal' hn X hX

/-- Ten successive additions onto an initial value `z` give `z` plus the sum of the ten terms. -/
theorem fold10 {M : Type*} [AddCommMonoid M] (z : M) (a : ℕ → M) :
    (((((((((z + a 0) + a 1) + a 2) + a 3) + a 4) + a 5) + a 6) + a 7) + a 8) + a 9
      = z + ∑ t ∈ Finset.range 10, a t := by
  simp only [Finset.sum_range_succ, Finset.sum_range_zero, zero_add, add_assoc]

/-- A sum over a range of natural numbers of a function read at the index's value is the sum over
    the finite type: `Σ_{t<n} a t = Σ_{t : Fin n} a t`. -/
theorem sum_range_eq_sum_fin {M : Type*} [AddCommMonoid M] (n : ℕ) (a : ℕ → M) :
    ∑ t ∈ Finset.range n, a t = ∑ t : Fin n, a t.val :=
  Finset.sum_range a

end Cert.Lib.BatchStats

end
-- ==== Proof.Stats2Pay.lean ====
import proofs.«153656_j10943576670413_2_alg».proof.Proof.Gen.KernelIdeal.Skeleton
import proofs.«153656_j10943576670413_2_alg».proof.Proof.LibBatchStats
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen
open scoped BigOperators

/-- The source index over column `j` with row `r` inserted on the reduced axis is `(r, j)`. -/
theorem lift_col (h : S5000x128.Reduces [0] S128) (j : Fin 128) (r : Fin 5000) :
    h.lift (ix1 j) r = ix2 r j := by
  funext c
  match c with
  | ⟨0, _⟩ => rfl
  | ⟨1, _⟩ => rfl

/-- The sum over the row axis of a 5000×128 block, read at column `j`: `Σ_r src (r, j)`. -/
theorem colReduce_apply (src : FVec Ideal S5000x128 .f32) (h : S5000x128.Reduces [0] S128)
    (hφ : FKind.Formats .f32) (hacc : (0x00000000#32 : BitVec 32) = FKind.add.neutral .f32 hφ) (j : Fin 128) :
    multiReduction .add [0] S128 src 0x00000000#32 h hφ hacc (ix1 j) = ∑ r : Fin 5000, src (ix2 r j) := by
  refine (Ideal.multiReduction_add_single src 0x00000000#32 h hφ hacc (ix1 j)).trans ?_
  exact Finset.sum_congr rfl fun r _ => congrArg src (lift_col h j r)

/-- A 128-vector viewed as a 1×128 block reads column `j` at `(0, j)`. -/
theorem rowCast_apply (v : FVec Ideal S128 .f32) (h : S128.ShapeCasts S1x128) (j : Fin 128) :
    shapeCast S1x128 v h (ix2 (0 : Fin 1) j) = v (ix1 j) := by
  refine (shapeCast_addUnit_apply (n := 1) ![128] v h (ix2 (0 : Fin 1) j)).trans ?_
  refine congrArg v ?_
  funext c
  match c with
  | ⟨0, _⟩ => rfl

/-- The first accumulator's initial block is zero everywhere. -/
theorem pay1_apply (j : Fin 128) : k2_pay1 (F := Ideal) (ix2 (0 : Fin 1) j) = 0 := by
  unfold k2_pay1
  rw [shapeCast_self]
  exact Ideal.ofBits_zero_f32

/-- The second accumulator's initial block is zero everywhere. -/
theorem pay2_apply (j : Fin 128) : k2_pay2 (F := Ideal) (ix2 (0 : Fin 1) j) = 0 := by
  unfold k2_pay2
  rw [shapeCast_self]
  exact Ideal.ofBits_zero_f32

/-- The stored block is the entrywise sum of the two loaded blocks. -/
theorem pay3_apply (x0 x1 : Vec Ideal S5000x128 .f32) (r : Fin 5000) (j : Fin 128) :
    k2_pay3 (F := Ideal) x0 x1 (ix2 r j) = x0 (ix2 r j) + x1 (ix2 r j) := by
  unfold k2_pay3
  rw [shapeCast_self, shapeCast_self]
  rfl

/-- The column-sum accumulator after a block: its previous value at column `j` plus the sum over the
    block's rows of the entrywise sum of the two loaded blocks. -/
theorem pay4_apply (x0 x1 : Vec Ideal S5000x128 .f32) (a : Vec Ideal S1x128 .f32) (j : Fin 128) :
    k2_pay4 (F := Ideal) x0 x1 a (ix2 (0 : Fin 1) j)
      = a (ix2 (0 : Fin 1) j) + ∑ r : Fin 5000, (x0 (ix2 r j) + x1 (ix2 r j)) := by
  unfold k2_pay4
  rw [shapeCast_self]
  refine congrArg (fun z => a (ix2 (0 : Fin 1) j) + z) ?_
  refine (rowCast_apply _ _ j).trans ?_
  refine (colReduce_apply _ _ _ _ j).trans ?_
  exact Finset.sum_congr rfl fun r _ => pay3_apply x0 x1 r j

/-- The column-sum-of-squares accumulator after a block: its previous value at column `j` plus the sum
    over the block's rows of the square of the entrywise sum of the two loaded blocks. -/
theorem pay5_apply (x0 x1 : Vec Ideal S5000x128 .f32) (a : Vec Ideal S1x128 .f32) (j : Fin 128) :
    k2_pay5 (F := Ideal) x0 x1 a (ix2 (0 : Fin 1) j)
      = a (ix2 (0 : Fin 1) j)
        + ∑ r : Fin 5000, (x0 (ix2 r j) + x1 (ix2 r j)) * (x0 (ix2 r j) + x1 (ix2 r j)) := by
  unfold k2_pay5
  rw [shapeCast_self]
  refine congrArg (fun z => a (ix2 (0 : Fin 1) j) + z) ?_
  refine (rowCast_apply _ _ j).trans ?_
  refine (colReduce_apply _ _ _ _ j).trans ?_
  refine Finset.sum_congr rfl fun r _ => ?_
  show k2_pay3 (F := Ideal) x0 x1 (ix2 r j) * k2_pay3 (F := Ideal) x0 x1 (ix2 r j) = _
  rw [pay3_apply]

/-- The column-sum accumulator over successive blocks: started from the zero block and updated once per
    block, after block `k` it holds at column `j` the sum over blocks `t ≤ k` of the block's column sums. -/
theorem acc4_steps (b0 b1 : ℕ → Vec Ideal S5000x128 .f32) (s : ℕ → Vec Ideal S1x128 .f32)
    (h0 : s 0 = k2_pay4 (F := Ideal) (b0 0) (b1 0) (k2_pay1 (F := Ideal)))
    (hs : ∀ n, s (n + 1) = k2_pay4 (F := Ideal) (b0 (n + 1)) (b1 (n + 1)) (s n)) (j : Fin 128) (k : ℕ) :
    s k (ix2 (0 : Fin 1) j)
      = ∑ t ∈ Finset.range (k + 1), ∑ r : Fin 5000, (b0 t (ix2 r j) + b1 t (ix2 r j)) := by
  induction k with
  | zero =>
    rw [h0, pay4_apply, pay1_apply, zero_add, Finset.sum_range_one]
  | succ k ih =>
    rw [hs, pay4_apply, ih, Finset.sum_range_succ _ (k + 1)]

/-- After the tenth block the column-sum accumulator holds, at column `j`, the sum over the ten blocks
    and the 5000 rows of each of the entrywise sum of the two loaded blocks. -/
theorem acc4_nine (b0 b1 : ℕ → Vec Ideal S5000x128 .f32) (s : ℕ → Vec Ideal S1x128 .f32)
    (h0 : s 0 = k2_pay4 (F := Ideal) (b0 0) (b1 0) (k2_pay1 (F := Ideal)))
    (hs : ∀ n, s (n + 1) = k2_pay4 (F := Ideal) (b0 (n + 1)) (b1 (n + 1)) (s n)) (j : Fin 128) :
    s 9 (ix2 (0 : Fin 1) j)
      = ∑ t : Fin 10, ∑ r : Fin 5000, (b0 t.val (ix2 r j) + b1 t.val (ix2 r j)) := by
  rw [acc4_steps b0 b1 s h0 hs j 9]
  exact Finset.sum_range fun t => ∑ r : Fin 5000, (b0 t (ix2 r j) + b1 t (ix2 r j))

/-- The column-sum-of-squares accumulator over successive blocks: after block `k` it holds at column
    `j` the sum over blocks `t ≤ k` of the block's column sums of squares. -/
theorem acc5_steps (b0 b1 : ℕ → Vec Ideal S5000x128 .f32) (s : ℕ → Vec Ideal S1x128 .f32)
    (h0 : s 0 = k2_pay5 (F := Ideal) (b0 0) (b1 0) (k2_pay2 (F := Ideal)))
    (hs : ∀ n, s (n + 1) = k2_pay5 (F := Ideal) (b0 (n + 1)) (b1 (n + 1)) (s n)) (j : Fin 128) (k : ℕ) :
    s k (ix2 (0 : Fin 1) j)
      = ∑ t ∈ Finset.range (k + 1), ∑ r : Fin 5000,
          (b0 t (ix2 r j) + b1 t (ix2 r j)) * (b0 t (ix2 r j) + b1 t (ix2 r j)) := by
  induction k with
  | zero =>
    rw [h0, pay5_apply, pay2_apply, zero_add, Finset.sum_range_one]
  | succ k ih =>
    rw [hs, pay5_apply, ih, Finset.sum_range_succ _ (k + 1)]

/-- After the tenth block the column-sum-of-squares accumulator holds, at column `j`, the sum over the
    ten blocks and the 5000 rows of each of the square of the entrywise sum of the two loaded blocks. -/
theorem acc5_nine (b0 b1 : ℕ → Vec Ideal S5000x128 .f32) (s : ℕ → Vec Ideal S1x128 .f32)
    (h0 : s 0 = k2_pay5 (F := Ideal) (b0 0) (b1 0) (k2_pay2 (F := Ideal)))
    (hs : ∀ n, s (n + 1) = k2_pay5 (F := Ideal) (b0 (n + 1)) (b1 (n + 1)) (s n)) (j : Fin 128) :
    s 9 (ix2 (0 : Fin 1) j)
      = ∑ t : Fin 10, ∑ r : Fin 5000,
          (b0 t.val (ix2 r j) + b1 t.val (ix2 r j)) * (b0 t.val (ix2 r j) + b1 t.val (ix2 r j)) := by
  rw [acc5_steps b0 b1 s h0 hs j 9]
  exact Finset.sum_range fun t => ∑ r : Fin 5000,
    (b0 t (ix2 r j) + b1 t (ix2 r j)) * (b0 t (ix2 r j) + b1 t (ix2 r j))

end Cert.KernelIdeal.Hand

end
-- ==== Proof.Stats2Value.lean ====
/-
  The arrays the statistics region leaves, on the extended reals.

  The region's grid has ten points; at point t its body reads rows 5000·t … 5000·t + 4999 of the two arrays d and s,
  writes their entrywise sum into the same rows of the first output, and adds the block's column sums and column sums
  of squares into two 1 × 128 accumulators, which it sets to zero first at point 0 and copies into the second and third
  outputs at point 9. Below: what each of the body's three cases leaves in each buffer it writes, as the body's own
  arithmetic of what it read (for any interpretation of the floats); the two accumulators after each point, by recursion
  on the point; and, on the extended reals, the three output arrays index by index: d + s; for every column j the sum
  over all 50000 rows of d + s; and the sum of its squares — ten blocks of 5000 rows are the 50000 rows.
-/
import proofs.«153656_j10943576670413_2_alg».proof.Proof.Stats2
import proofs.«153656_j10943576670413_2_alg».proof.Proof.Stats2Pay
import proofs.«153656_j10943576670413_2_alg».proof.Proof.Spec
import proofs.«153656_j10943576670413_2_alg».proof.Proof.LibBatchStats
import Idealize.ShloMosaic.Lib.Pipeline.Value
import Idealize.ShloMosaic.Lib.ValueLayout
import Idealize.ShloMosaic.Lib.ValueIdx
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic Idealize.ShloMosaic.ValueIdx Idealize.SL.Sem
open Idealize.ShloMosaic.Pipeline (Dat)
open scoped BigOperators

theorem offsets_zero2 : (![0, 0] : Fin 2 → Nat) = fun _ => 0 := funext fun a => by fin_cases a <;> rfl

/-! ## What each case of the body leaves in each buffer it writes, at any interpretation of the floats -/

section AnyFloats

variable {F : FTy → Type} [FloatOps F]

/-- At the first point the sum output's block is left at the entrywise sum of the two input blocks, -/
theorem out2_A_2_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32) :
    out2_A_2 c i arg1 harg1 arg2 harg2 arg3 harg3 arg4 harg4 arg5 harg5 arg6 harg6 arg7 harg7 hc0 hc1 x0 x1 = k2_pay3 x0 x1 := by
  unfold out2_A_2
  rw [View.read_writes_eq_canon _ _ _ (cover_out2_A_2 c i arg1 harg1 arg2 harg2 arg3 harg3 arg4 harg4 arg5 harg5 arg6 harg6 arg7 harg7 hc0 hc1 x0 x1)]
  unfold kernelRun2_A
  dsimp only
  try sl_unfold_words
  simp only [View.canon_cons_unit_zero (S := S5000x128) offsets_zero2, View.canon_cons_unit_zero (S := S1x128) offsets_zero2, View.canon_unit_zero (S := S5000x128) offsets_zero2, View.canon_unit_zero (S := S1x128) offsets_zero2, View.readCov_unit_zero (S := S1x128) _ offsets_zero2, View.readCov_unit_zero (S := S5000x128) _ offsets_zero2, View.readAt_eq_ld, harg1.read_unread, harg2.read_unread, harg3.read_unread, harg4.read_unread, harg5.read_unread, harg6.read_unread, harg7.read_unread, View.ld_unit_zero (S := S5000x128) offsets_zero2, View.ld_unit_zero (S := S1x128) offsets_zero2]

/-- the first accumulator at its reset value increased by the block's column sums, -/
theorem sout2_A_0_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32) :
    sout2_A_0 c i arg1 harg1 arg2 harg2 arg3 harg3 arg4 harg4 arg5 harg5 arg6 harg6 arg7 harg7 hc0 hc1 x0 x1 = k2_pay4 x0 x1 k2_pay1 := by
  unfold sout2_A_0
  rw [View.read_writes_eq_canon _ _ _ (cover_sout2_A_0 c i arg1 harg1 arg2 harg2 arg3 harg3 arg4 harg4 arg5 harg5 arg6 harg6 arg7 harg7 hc0 hc1 x0 x1)]
  unfold kernelRun2_A
  dsimp only
  try sl_unfold_words
  simp only [View.canon_cons_unit_zero (S := S5000x128) offsets_zero2, View.canon_cons_unit_zero (S := S1x128) offsets_zero2, View.canon_unit_zero (S := S5000x128) offsets_zero2, View.canon_unit_zero (S := S1x128) offsets_zero2, View.readCov_unit_zero (S := S1x128) _ offsets_zero2, View.readCov_unit_zero (S := S5000x128) _ offsets_zero2, View.readAt_eq_ld, harg1.read_unread, harg2.read_unread, harg3.read_unread, harg4.read_unread, harg5.read_unread, harg6.read_unread, harg7.read_unread, View.ld_unit_zero (S := S5000x128) offsets_zero2, View.ld_unit_zero (S := S1x128) offsets_zero2]

/-- and the second at its reset value increased by the block's column sums of squares. -/
theorem sout2_A_1_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 x1 : Vec F S5000x128 .f32) :
    sout2_A_1 c i arg1 harg1 arg2 harg2 arg3 harg3 arg4 harg4 arg5 harg5 arg6 harg6 arg7 harg7 hc0 hc1 x0 x1 = k2_pay5 x0 x1 k2_pay2 := by
  unfold sout2_A_1
  rw [View.read_writes_eq_canon _ _ _ (cover_sout2_A_1 c i arg1 harg1 arg2 harg2 arg3 harg3 arg4 harg4 arg5 harg5 arg6 harg6 arg7 harg7 hc0 hc1 x0 x1)]
  unfold kernelRun2_A
  dsimp only
  try sl_unfold_words
  simp only [View.canon_cons_unit_zero (S := S5000x128) offsets_zero2, View.canon_cons_unit_zero (S := S1x128) offsets_zero2, View.canon_unit_zero (S := S5000x128) offsets_zero2, View.canon_unit_zero (S := S1x128) offsets_zero2, View.readCov_unit_zero (S := S1x128) _ offsets_zero2, View.readCov_unit_zero (S := S5000x128) _ offsets_zero2, View.readAt_eq_ld, harg1.read_unread, harg2.read_unread, harg3.read_unread, harg4.read_unread, harg5.read_unread, harg6.read_unread, harg7.read_unread, View.ld_unit_zero (S := S5000x128) offsets_zero2, View.ld_unit_zero (S := S1x128) offsets_zero2]

/-- At a middle point the sum output's block is left at the entrywise sum of the two input blocks, -/
theorem out2_B_2_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) :
    out2_B_2 c i arg1 harg1 arg2 harg2 arg3 harg3 arg4 harg4 arg5 harg5 arg6 harg6 arg7 harg7 hc0 hc1 x0 x1 xs0 xs1 = k2_pay3 x0 x1 := by
  unfold out2_B_2
  rw [View.read_writes_eq_canon _ _ _ (cover_out2_B_2 c i arg1 harg1 arg2 harg2 arg3 harg3 arg4 harg4 arg5 harg5 arg6 harg6 arg7 harg7 hc0 hc1 x0 x1 xs0 xs1)]
  unfold kernelRun2_B
  dsimp only
  try sl_unfold_words
  simp only [View.canon_cons_unit_zero (S := S5000x128) offsets_zero2, View.canon_cons_unit_zero (S := S1x128) offsets_zero2, View.canon_unit_zero (S := S5000x128) offsets_zero2, View.canon_unit_zero (S := S1x128) offsets_zero2, View.readCov_unit_zero (S := S1x128) _ offsets_zero2, View.readCov_unit_zero (S := S5000x128) _ offsets_zero2, View.readAt_eq_ld, harg1.read_unread, harg2.read_unread, harg3.read_unread, harg4.read_unread, harg5.read_unread, harg6.read_unread, harg7.read_unread, View.ld_unit_zero (S := S5000x128) offsets_zero2, View.ld_unit_zero (S := S1x128) offsets_zero2]

/-- the first accumulator at what it held increased by the block's column sums, -/
theorem sout2_B_0_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) :
    sout2_B_0 c i arg1 harg1 arg2 harg2 arg3 harg3 arg4 harg4 arg5 harg5 arg6 harg6 arg7 harg7 hc0 hc1 x0 x1 xs0 xs1 = k2_pay4 x0 x1 xs0 := by
  unfold sout2_B_0
  rw [View.read_writes_eq_canon _ _ _ (cover_sout2_B_0 c i arg1 harg1 arg2 harg2 arg3 harg3 arg4 harg4 arg5 harg5 arg6 harg6 arg7 harg7 hc0 hc1 x0 x1 xs0 xs1)]
  unfold kernelRun2_B
  dsimp only
  try sl_unfold_words
  simp only [View.canon_cons_unit_zero (S := S5000x128) offsets_zero2, View.canon_cons_unit_zero (S := S1x128) offsets_zero2, View.canon_unit_zero (S := S5000x128) offsets_zero2, View.canon_unit_zero (S := S1x128) offsets_zero2, View.readCov_unit_zero (S := S1x128) _ offsets_zero2, View.readCov_unit_zero (S := S5000x128) _ offsets_zero2, View.readAt_eq_ld, harg1.read_unread, harg2.read_unread, harg3.read_unread, harg4.read_unread, harg5.read_unread, harg6.read_unread, harg7.read_unread, View.ld_unit_zero (S := S5000x128) offsets_zero2, View.ld_unit_zero (S := S1x128) offsets_zero2]

/-- and the second at what it held increased by the block's column sums of squares. -/
theorem sout2_B_1_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 x1 : Vec F S5000x128 .f32) (xs0 xs1 : Vec F S1x128 .f32) :
    sout2_B_1 c i arg1 harg1 arg2 harg2 arg3 harg3 arg4 harg4 arg5 harg5 arg6 harg6 arg7 harg7 hc0 hc1 x0 x1 xs0 xs1 = k2_pay5 x0 x1 xs1 := by
  unfold sout2_B_1
  rw [View.read_writes_eq_canon _ _ _ (cover_sout2_B_1 c i arg1 harg1 arg2 harg2 arg3 harg3 arg4 harg4 arg5 harg5 arg6 harg6 arg7 harg7 hc0 hc1 x0 x1 xs0 xs1)]
  unfold kernelRun2_B
  dsimp only
  try sl_unfold_words
  simp only [View.canon_cons_unit_zero (S := S5000x128) offsets_zero2, View.canon_cons_unit_zero (S := S1x128) offsets_zero2, View.canon_unit_zero (S := S5000x128) offsets_zero2, View.canon_unit_zero (S := S1x128) offsets_zero2, View.readCov_unit_zero (S := S1x128) _ offsets_zero2, View.readCov_unit_zero (S := S5000x128) _ offsets_zero2, View.readAt_eq_ld, harg1.read_unread, harg2.read_unread, harg3.read_unread, harg4.read_unread, harg5.read_unread, harg6.read_unread, harg7.read_unread, View.ld_unit_zero (S := S5000x128) offsets_zero2, View.ld_unit_zero (S := S1x128) offsets_zero2]

/-- At the last point the sum output's block is left at the entrywise sum of the two input blocks, -/
theorem out2_C_2_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) :
    out2_C_2 c i arg1 harg1 arg2 harg2 arg3 harg3 arg4 harg4 arg5 harg5 arg6 harg6 arg7 harg7 hc0 hc1 x0 x1 xs0 xs1 = k2_pay3 x0 x1 := by
  unfold out2_C_2
  rw [View.read_writes_eq_canon _ _ _ (cover_out2_C_2 c i arg1 harg1 arg2 harg2 arg3 harg3 arg4 harg4 arg5 harg5 arg6 harg6 arg7 harg7 hc0 hc1 x0 x1 xs0 xs1)]
  unfold kernelRun2_C
  dsimp only
  try sl_unfold_words
  simp only [View.canon_cons_unit_zero (S := S5000x128) offsets_zero2, View.canon_cons_unit_zero (S := S1x128) offsets_zero2, View.canon_unit_zero (S := S5000x128) offsets_zero2, View.canon_unit_zero (S := S1x128) offsets_zero2, View.readCov_unit_zero (S := S1x128) _ offsets_zero2, View.readCov_unit_zero (S := S5000x128) _ offsets_zero2, View.readAt_eq_ld, harg1.read_unread, harg2.read_unread, harg3.read_unread, harg4.read_unread, harg5.read_unread, harg6.read_unread, harg7.read_unread, View.ld_unit_zero (S := S5000x128) offsets_zero2, View.ld_unit_zero (S := S1x128) offsets_zero2]

/-- the first accumulator at what it held increased by the block's column sums, -/
theorem sout2_C_0_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) :
    sout2_C_0 c i arg1 harg1 arg2 harg2 arg3 harg3 arg4 harg4 arg5 harg5 arg6 harg6 arg7 harg7 hc0 hc1 x0 x1 xs0 xs1 = k2_pay4 x0 x1 xs0 := by
  unfold sout2_C_0
  rw [View.read_writes_eq_canon _ _ _ (cover_sout2_C_0 c i arg1 harg1 arg2 harg2 arg3 harg3 arg4 harg4 arg5 harg5 arg6 harg6 arg7 harg7 hc0 hc1 x0 x1 xs0 xs1)]
  unfold kernelRun2_C
  dsimp only
  try sl_unfold_words
  simp only [View.canon_cons_unit_zero (S := S5000x128) offsets_zero2, View.canon_cons_unit_zero (S := S1x128) offsets_zero2, View.canon_unit_zero (S := S5000x128) offsets_zero2, View.canon_unit_zero (S := S1x128) offsets_zero2, View.readCov_unit_zero (S := S1x128) _ offsets_zero2, View.readCov_unit_zero (S := S5000x128) _ offsets_zero2, View.readAt_eq_ld, harg1.read_unread, harg2.read_unread, harg3.read_unread, harg4.read_unread, harg5.read_unread, harg6.read_unread, harg7.read_unread, View.ld_unit_zero (S := S5000x128) offsets_zero2, View.ld_unit_zero (S := S1x128) offsets_zero2]

/-- the second at what it held increased by the block's column sums of squares, -/
theorem sout2_C_1_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) :
    sout2_C_1 c i arg1 harg1 arg2 harg2 arg3 harg3 arg4 harg4 arg5 harg5 arg6 harg6 arg7 harg7 hc0 hc1 x0 x1 xs0 xs1 = k2_pay5 x0 x1 xs1 := by
  unfold sout2_C_1
  rw [View.read_writes_eq_canon _ _ _ (cover_sout2_C_1 c i arg1 harg1 arg2 harg2 arg3 harg3 arg4 harg4 arg5 harg5 arg6 harg6 arg7 harg7 hc0 hc1 x0 x1 xs0 xs1)]
  unfold kernelRun2_C
  dsimp only
  try sl_unfold_words
  simp only [View.canon_cons_unit_zero (S := S5000x128) offsets_zero2, View.canon_cons_unit_zero (S := S1x128) offsets_zero2, View.canon_unit_zero (S := S5000x128) offsets_zero2, View.canon_unit_zero (S := S1x128) offsets_zero2, View.readCov_unit_zero (S := S1x128) _ offsets_zero2, View.readCov_unit_zero (S := S5000x128) _ offsets_zero2, View.readAt_eq_ld, harg1.read_unread, harg2.read_unread, harg3.read_unread, harg4.read_unread, harg5.read_unread, harg6.read_unread, harg7.read_unread, View.ld_unit_zero (S := S5000x128) offsets_zero2, View.ld_unit_zero (S := S1x128) offsets_zero2]

/-- the column-sum output at the first accumulator's new value, copied out, -/
theorem out2_C_3_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) :
    out2_C_3 c i arg1 harg1 arg2 harg2 arg3 harg3 arg4 harg4 arg5 harg5 arg6 harg6 arg7 harg7 hc0 hc1 x0 x1 xs0 xs1 = k2_pay4 x0 x1 xs0 := by
  unfold out2_C_3
  rw [View.read_writes_eq_canon _ _ _ (cover_out2_C_3 c i arg1 harg1 arg2 harg2 arg3 harg3 arg4 harg4 arg5 harg5 arg6 harg6 arg7 harg7 hc0 hc1 x0 x1 xs0 xs1)]
  unfold kernelRun2_C
  dsimp only
  try sl_unfold_words
  simp only [View.canon_cons_unit_zero (S := S5000x128) offsets_zero2, View.canon_cons_unit_zero (S := S1x128) offsets_zero2, View.canon_unit_zero (S := S5000x128) offsets_zero2, View.canon_unit_zero (S := S1x128) offsets_zero2, View.readCov_unit_zero (S := S1x128) _ offsets_zero2, View.readCov_unit_zero (S := S5000x128) _ offsets_zero2, View.readAt_eq_ld, harg1.read_unread, harg2.read_unread, harg3.read_unread, harg4.read_unread, harg5.read_unread, harg6.read_unread, harg7.read_unread, View.ld_unit_zero (S := S5000x128) offsets_zero2, View.ld_unit_zero (S := S1x128) offsets_zero2]

/-- and the column-sum-of-squares output at the second accumulator's new value, copied out. -/
theorem out2_C_4_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 x1 : Vec F S5000x128 .f32) (xs0 xs1 : Vec F S1x128 .f32) :
    out2_C_4 c i arg1 harg1 arg2 harg2 arg3 harg3 arg4 harg4 arg5 harg5 arg6 harg6 arg7 harg7 hc0 hc1 x0 x1 xs0 xs1 = k2_pay5 x0 x1 xs1 := by
  unfold out2_C_4
  rw [View.read_writes_eq_canon _ _ _ (cover_out2_C_4 c i arg1 harg1 arg2 harg2 arg3 harg3 arg4 harg4 arg5 harg5 arg6 harg6 arg7 harg7 hc0 hc1 x0 x1 xs0 xs1)]
  unfold kernelRun2_C
  dsimp only
  try sl_unfold_words
  simp only [View.canon_cons_unit_zero (S := S5000x128) offsets_zero2, View.canon_cons_unit_zero (S := S1x128) offsets_zero2, View.canon_unit_zero (S := S5000x128) offsets_zero2, View.canon_unit_zero (S := S1x128) offsets_zero2, View.readCov_unit_zero (S := S1x128) _ offsets_zero2, View.readCov_unit_zero (S := S5000x128) _ offsets_zero2, View.readAt_eq_ld, harg1.read_unread, harg2.read_unread, harg3.read_unread, harg4.read_unread, harg5.read_unread, harg6.read_unread, harg7.read_unread, View.ld_unit_zero (S := S5000x128) offsets_zero2, View.ld_unit_zero (S := S1x128) offsets_zero2]

/-! ## The buffers after each point -/

variable (V : (c : Dev nD) → (b : Ref sig .tc) → Buf (Elt F) ((c : Thread nD τ).loc b))

/-- After every point the sum output's block is the entrywise sum of the point's two input blocks. -/
theorem outsAt2_sum (c : Dev nD) (t : Fin cfg2.N) :
    (outsAt2 V c t.val t.isLt).1 = k2_pay3 (iblk2 V c 0 t) (iblk2 V c 1 t) := by
  by_cases h0 : t.val = 0
  · rw [outsAt2_A V c t h0]
    dsimp only
    exact out2_A_2_eq (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => absurd ((hcond2_1 t).mp h) (by omega)) (iblk2 V c 0 t) (iblk2 V c 1 t)
  · by_cases h1 : t.val = 9
    · rw [outsAt2_C V c t h0 h1]
      dsimp only
      exact out2_C_2_eq (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (prevS0 V c t) (prevS1 V c t)
    · rw [outsAt2_B V c t h0 h1]
      dsimp only
      exact out2_B_2_eq (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (prevS0 V c t) (prevS1 V c t)

/-- The column-sum accumulator after position n: set to zero and increased by block 0's column sums, then by each later
    block's. -/
def accSum (c : Dev nD) : (n : ℕ) → n < cfg2.N → Vec F S1x128 .f32
  | 0, h => k2_pay4 (iblk2 V c 0 ⟨0, h⟩) (iblk2 V c 1 ⟨0, h⟩) k2_pay1
  | n + 1, h => k2_pay4 (iblk2 V c 0 ⟨n + 1, h⟩) (iblk2 V c 1 ⟨n + 1, h⟩) (accSum c n (Nat.lt_of_succ_lt h))

/-- The column-sum-of-squares accumulator after position n, likewise. -/
def accSq (c : Dev nD) : (n : ℕ) → n < cfg2.N → Vec F S1x128 .f32
  | 0, h => k2_pay5 (iblk2 V c 0 ⟨0, h⟩) (iblk2 V c 1 ⟨0, h⟩) k2_pay2
  | n + 1, h => k2_pay5 (iblk2 V c 0 ⟨n + 1, h⟩) (iblk2 V c 1 ⟨n + 1, h⟩) (accSq c n (Nat.lt_of_succ_lt h))

/-- The two accumulators the body leaves after position n are those: by induction on the point, the case at each point
    decided by whether it is the first or the last. -/
theorem outsAt2_acc (c : Dev nD) : ∀ (n : ℕ) (h : n < cfg2.N),
    (outsAt2 V c n h).2.2.2.1 = accSum V c n h ∧ (outsAt2 V c n h).2.2.2.2 = accSq V c n h
  | 0, h => by
    rw [outsAt2_A V c ⟨0, h⟩ rfl]
    dsimp only
    exact ⟨sout2_A_0_eq (F := F) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) scM2_0 (Memref.isWhole_whole _) scM2_1 (Memref.isWhole_whole _) ((hcond2_0 ⟨0, h⟩).mpr rfl) (fun h' => absurd ((hcond2_1 ⟨0, h⟩).mp h') (show ¬(0 : ℕ) = 9 from by decide)) (iblk2 V c 0 ⟨0, h⟩) (iblk2 V c 1 ⟨0, h⟩),
      sout2_A_1_eq (F := F) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) scM2_0 (Memref.isWhole_whole _) scM2_1 (Memref.isWhole_whole _) ((hcond2_0 ⟨0, h⟩).mpr rfl) (fun h' => absurd ((hcond2_1 ⟨0, h⟩).mp h') (show ¬(0 : ℕ) = 9 from by decide)) (iblk2 V c 0 ⟨0, h⟩) (iblk2 V c 1 ⟨0, h⟩)⟩
  | n + 1, h => by
    obtain ⟨ih0, ih1⟩ := outsAt2_acc c n (Nat.lt_of_succ_lt h)
    have h0 : ¬(⟨n + 1, h⟩ : Fin cfg2.N).val = 0 := Nat.succ_ne_zero n
    by_cases h1 : (⟨n + 1, h⟩ : Fin cfg2.N).val = 9
    · rw [outsAt2_C V c ⟨n + 1, h⟩ h0 h1]
      dsimp only
      refine ⟨(sout2_C_0_eq (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) scM2_0 (Memref.isWhole_whole _) scM2_1 (Memref.isWhole_whole _) (fun h' => h0 ((hcond2_0 ⟨n + 1, h⟩).mp h')) ((hcond2_1 ⟨n + 1, h⟩).mpr h1) (iblk2 V c 0 ⟨n + 1, h⟩) (iblk2 V c 1 ⟨n + 1, h⟩) (prevS0 V c ⟨n + 1, h⟩) (prevS1 V c ⟨n + 1, h⟩)).trans ?_,
        (sout2_C_1_eq (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) scM2_0 (Memref.isWhole_whole _) scM2_1 (Memref.isWhole_whole _) (fun h' => h0 ((hcond2_0 ⟨n + 1, h⟩).mp h')) ((hcond2_1 ⟨n + 1, h⟩).mpr h1) (iblk2 V c 0 ⟨n + 1, h⟩) (iblk2 V c 1 ⟨n + 1, h⟩) (prevS0 V c ⟨n + 1, h⟩) (prevS1 V c ⟨n + 1, h⟩)).trans ?_⟩
      · exact congrArg (k2_pay4 (iblk2 V c 0 ⟨n + 1, h⟩) (iblk2 V c 1 ⟨n + 1, h⟩)) ih0
      · exact congrArg (k2_pay5 (iblk2 V c 0 ⟨n + 1, h⟩) (iblk2 V c 1 ⟨n + 1, h⟩)) ih1
    · rw [outsAt2_B V c ⟨n + 1, h⟩ h0 h1]
      dsimp only
      refine ⟨(sout2_B_0_eq (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) scM2_0 (Memref.isWhole_whole _) scM2_1 (Memref.isWhole_whole _) (fun h' => h0 ((hcond2_0 ⟨n + 1, h⟩).mp h')) (fun h' => h1 ((hcond2_1 ⟨n + 1, h⟩).mp h')) (iblk2 V c 0 ⟨n + 1, h⟩) (iblk2 V c 1 ⟨n + 1, h⟩) (prevS0 V c ⟨n + 1, h⟩) (prevS1 V c ⟨n + 1, h⟩)).trans ?_,
        (sout2_B_1_eq (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) scM2_0 (Memref.isWhole_whole _) scM2_1 (Memref.isWhole_whole _) (fun h' => h0 ((hcond2_0 ⟨n + 1, h⟩).mp h')) (fun h' => h1 ((hcond2_1 ⟨n + 1, h⟩).mp h')) (iblk2 V c 0 ⟨n + 1, h⟩) (iblk2 V c 1 ⟨n + 1, h⟩) (prevS0 V c ⟨n + 1, h⟩) (prevS1 V c ⟨n + 1, h⟩)).trans ?_⟩
      · exact congrArg (k2_pay4 (iblk2 V c 0 ⟨n + 1, h⟩) (iblk2 V c 1 ⟨n + 1, h⟩)) ih0
      · exact congrArg (k2_pay5 (iblk2 V c 0 ⟨n + 1, h⟩) (iblk2 V c 1 ⟨n + 1, h⟩)) ih1

/-- At the last point the two statistics outputs' blocks are left at the two accumulators' new values. -/
theorem outsAt2_stats (c : Dev nD) (n : ℕ) (h : n + 1 < cfg2.N) (h9 : n + 1 = 9) :
    (outsAt2 V c (n + 1) h).2.1 = accSum V c (n + 1) h ∧ (outsAt2 V c (n + 1) h).2.2.1 = accSq V c (n + 1) h := by
  obtain ⟨ih0, ih1⟩ := outsAt2_acc V c n (Nat.lt_of_succ_lt h)
  have h0 : ¬(⟨n + 1, h⟩ : Fin cfg2.N).val = 0 := Nat.succ_ne_zero n
  have h1 : (⟨n + 1, h⟩ : Fin cfg2.N).val = 9 := h9
  rw [outsAt2_C V c ⟨n + 1, h⟩ h0 h1]
  dsimp only
  refine ⟨(out2_C_3_eq (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) scM2_0 (Memref.isWhole_whole _) scM2_1 (Memref.isWhole_whole _) (fun h' => h0 ((hcond2_0 ⟨n + 1, h⟩).mp h')) ((hcond2_1 ⟨n + 1, h⟩).mpr h1) (iblk2 V c 0 ⟨n + 1, h⟩) (iblk2 V c 1 ⟨n + 1, h⟩) (prevS0 V c ⟨n + 1, h⟩) (prevS1 V c ⟨n + 1, h⟩)).trans ?_,
    (out2_C_4_eq (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) scM2_0 (Memref.isWhole_whole _) scM2_1 (Memref.isWhole_whole _) (fun h' => h0 ((hcond2_0 ⟨n + 1, h⟩).mp h')) ((hcond2_1 ⟨n + 1, h⟩).mpr h1) (iblk2 V c 0 ⟨n + 1, h⟩) (iblk2 V c 1 ⟨n + 1, h⟩) (prevS0 V c ⟨n + 1, h⟩) (prevS1 V c ⟨n + 1, h⟩)).trans ?_⟩
  · exact congrArg (k2_pay4 (iblk2 V c 0 ⟨n + 1, h⟩) (iblk2 V c 1 ⟨n + 1, h⟩)) ih0
  · exact congrArg (k2_pay5 (iblk2 V c 0 ⟨n + 1, h⟩) (iblk2 V c 1 ⟨n + 1, h⟩)) ih1

end AnyFloats

/-! ## On the extended reals -/

-- the buffer contents when the region is entered, on the extended reals
variable (V : (c : Dev nD) → (b : Ref sig .tc) → Buf (Elt Ideal) ((c : Thread nD τ).loc b))

/-! ### The printed index maps, decided over the grid -/

/-- The two input blocks and the sum output's block at point t are block row t; each statistics output's block is its
    whole row. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-! ### The input blocks as entries of the arrays -/

/-- Entry (r, j) of the block of d at point t is entry (5000·t + r, j) of d. -/
theorem iblk2_0_apply (c : Dev nD) (t : Fin cfg2.N) (r : Fin 5000) (j : Fin 128) (i : Fin 50000) (hi : i.val = t.val * 5000 + r.val) :
    (iblk2 V c 0 t : Vec Ideal S5000x128 .f32) (ix2 r j) = (V c main_v9 : FVec Ideal S50000x128 .f32) (ix2 i j) := by
  obtain ⟨e0, e1, -⟩ := index_facts2 t
  unfold iblk2
  rw [View.read_apply]
  show (V c main_v9 : FVec Ideal S50000x128 .f32) _ = _
  congr 1
  funext a
  apply Fin.ext
  match a with
  | ⟨0, _⟩ => show win2_0.index t (0 : Fin 2) * 5000 + 1 * r.val = i.val; rw [e0, hi]; omega
  | ⟨1, _⟩ => show win2_0.index t (1 : Fin 2) * 128 + 1 * j.val = j.val; rw [e1]; omega

/-- Entry (r, j) of the block of s at point t is entry (5000·t + r, j) of s. -/
theorem iblk2_1_apply (c : Dev nD) (t : Fin cfg2.N) (r : Fin 5000) (j : Fin 128) (i : Fin 50000) (hi : i.val = t.val * 5000 + r.val) :
    (iblk2 V c 1 t : Vec Ideal S5000x128 .f32) (ix2 r j) = (V c main_v44 : FVec Ideal S50000x128 .f32) (ix2 i j) := by
  obtain ⟨-, -, e0, e1, -⟩ := index_facts2 t
  unfold iblk2
  rw [View.read_apply]
  show (V c main_v44 : FVec Ideal S50000x128 .f32) _ = _
  congr 1
  funext a
  apply Fin.ext
  match a with
  | ⟨0, _⟩ => show win2_1.index t (0 : Fin 2) * 5000 + 1 * r.val = i.val; rw [e0, hi]; omega
  | ⟨1, _⟩ => show win2_1.index t (1 : Fin 2) * 128 + 1 * j.val = j.val; rw [e1]; omega

/-! ### The entrywise sum -/

/-- What point t writes back of the sum output is block t of d + s. -/
theorem flushed2_2_eq (c : Dev nD) (t : Fin cfg2.N) :
    (dat2 (F := Ideal) V c).flushed 2 t = ((cfg2.win 2).blk t).view.read (Elt Ideal)
      (Spec.preAct (V c main_v9) (V c main_v44)) := by
  show (cfg2.win 2).cut (grid2.coords t) ((dat2 (F := Ideal) V c).after 2 t) = _
  rw [after2_2, outsAt2_sum]
  obtain ⟨-, -, -, -, e0, e1, -⟩ := index_facts2 t
  funext y
  obtain ⟨r, j, rfl⟩ : ∃ (r : Fin 5000) (j : Fin 128), y = ix2 r j := ⟨y 0, y 1, eq_ix2 y⟩
  have hN : cfg2.N = 10 := N_2
  have hi : t.val * 5000 + r.val < 50000 := by have h1 := t.isLt; have h2 := r.isLt; omega
  have hemb : ((cfg2.win 2).blk t).view.emb (ix2 r j) = (ix2 (⟨t.val * 5000 + r.val, hi⟩ : Fin 50000) j : S50000x128.Idx) := by
    funext a
    apply Fin.ext
    match a with
    | ⟨0, _⟩ => show win2_2.index t (0 : Fin 2) * 5000 + 1 * r.val = t.val * 5000 + r.val; rw [e0]; omega
    | ⟨1, _⟩ => show win2_2.index t (1 : Fin 2) * 128 + 1 * j.val = j.val; rw [e1]; omega
  show k2_pay3 (iblk2 V c 0 t) (iblk2 V c 1 t) (ix2 r j) = Spec.preAct _ _ (((cfg2.win 2).blk t).view.emb (ix2 r j))
  rw [hemb]
  refine (pay3_apply _ _ r j).trans ?_
  rw [iblk2_0_apply V c t r j ⟨t.val * 5000 + r.val, hi⟩ rfl, iblk2_1_apply V c t r j ⟨t.val * 5000 + r.val, hi⟩ rfl]
  rfl

/-- An index of the sum output is in point t's block iff each coordinate is in the block's range on its axis. -/
theorem mem_blk2_2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45_0).slice (win2_2.rect t)).set ↔ _
  rw [View.set_slice_whole, Rect.mem_set_unit]
  exact Iff.rfl

/-- Row r of the sum output lies in the block of point r / 5000, which is written back. -/
theorem covered2_2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 5000, by rw [show cfg2.N = 10 from N_2]; omega⟩
  obtain ⟨-, -, -, -, e0, e1, -⟩ := index_facts2 t
  have htv : t.val = (i 0).val / 5000 := rfl
  refine ⟨t, flush2_2 t, ?_⟩
  rw [mem_blk2_2]
  intro a
  match a with
  | ⟨0, _⟩ => show win2_2.index t (0 : Fin 2) * 5000 ≤ (i 0).val ∧ (i 0).val < win2_2.index t (0 : Fin 2) * 5000 + 5000; rw [e0, htv]; omega
  | ⟨1, _⟩ => show win2_2.index t (1 : Fin 2) * 128 ≤ (i 1).val ∧ (i 1).val < win2_2.index t (1 : Fin 2) * 128 + 128; rw [e1]; omega

/-- The sum output after the region is d + s, entry by entry. -/
theorem arr2_0 (V : (c : Dev nD) → (b : Ref sig .tc) → Buf (Elt Ideal) ((c : Thread nD τ).loc b)) (c : Dev nD) :
    (dat2 (F := Ideal) V c).arrAt 2 cfg2.N = Spec.preAct (V c main_v9) (V c main_v44) :=
  (dat2 (F := Ideal) V c).arrAt_eq_of_cover 2 _ (fun t _ => flushed2_2_eq V c t) covered2_2

/-! ### The two accumulators at a column -/

/-- Row i's term of column j's sum of d + s (zero past the last row). -/
def rowTerm (d s : FVec Ideal S50000x128 .f32) (j : Fin 128) (i : ℕ) : EReal :=
  if h : i < 50000 then d (ix2 ⟨i, h⟩ j) + s (ix2 ⟨i, h⟩ j) else 0

/-- Row i's term of column j's sum of (d + s)² (zero past the last row). -/
def rowTermSq (d s : FVec Ideal S50000x128 .f32) (j : Fin 128) (i : ℕ) : EReal :=
  if h : i < 50000 then (d (ix2 ⟨i, h⟩ j) + s (ix2 ⟨i, h⟩ j)) * (d (ix2 ⟨i, h⟩ j) + s (ix2 ⟨i, h⟩ j)) else 0

/-- Entry (r, j) of the entrywise sum of two blocks, and of its square. -/
def blockTerm (x0 x1 : Vec Ideal S5000x128 .f32) (r : Fin 5000) (j : Fin 128) : EReal := x0 (ix2 r j) + x1 (ix2 r j)
def blockTermSq (x0 x1 : Vec Ideal S5000x128 .f32) (r : Fin 5000) (j : Fin 128) : EReal :=
  (x0 (ix2 r j) + x1 (ix2 r j)) * (x0 (ix2 r j) + x1 (ix2 r j))

/-- Entry (r, j) of the two input blocks at point t, added, is row 5000·t + r's term. -/
theorem block_term (c : Dev nD) (t : Fin cfg2.N) (r : Fin 5000) (j : Fin 128) :
    blockTerm (iblk2 V c 0 t) (iblk2 V c 1 t) r j = rowTerm (V c main_v9) (V c main_v44) j (t.val * 5000 + r.val) := by
  have hN : cfg2.N = 10 := N_2
  have hi : t.val * 5000 + r.val < 50000 := by have h1 := t.isLt; have h2 := r.isLt; omega
  unfold rowTerm blockTerm
  rw [dif_pos hi, iblk2_0_apply V c t r j ⟨t.val * 5000 + r.val, hi⟩ rfl, iblk2_1_apply V c t r j ⟨t.val * 5000 + r.val, hi⟩ rfl]

/-- The same for the squares. -/
theorem block_termSq (c : Dev nD) (t : Fin cfg2.N) (r : Fin 5000) (j : Fin 128) :
    blockTermSq (iblk2 V c 0 t) (iblk2 V c 1 t) r j = rowTermSq (V c main_v9) (V c main_v44) j (t.val * 5000 + r.val) := by
  have hN : cfg2.N = 10 := N_2
  have hi : t.val * 5000 + r.val < 50000 := by have h1 := t.isLt; have h2 := r.isLt; omega
  unfold rowTermSq blockTermSq
  rw [dif_pos hi, iblk2_0_apply V c t r j ⟨t.val * 5000 + r.val, hi⟩ rfl, iblk2_1_apply V c t r j ⟨t.val * 5000 + r.val, hi⟩ rfl]

/-- The column-sum accumulator after position n, at column j: the terms of the rows of blocks 0 … n, added. -/
theorem accSum_apply (c : Dev nD) (j : Fin 128) : ∀ (n : ℕ) (h : n < cfg2.N),
    accSum (F := Ideal) V c n h (ix2 (0 : Fin 1) j) = ∑ t ∈ Finset.range (n + 1), ∑ r : Fin 5000, rowTerm (V c main_v9) (V c main_v44) j (t * 5000 + r.val)
  | 0, h => by
    show k2_pay4 (F := Ideal) (iblk2 V c 0 ⟨0, h⟩) (iblk2 V c 1 ⟨0, h⟩) (k2_pay1 (F := Ideal)) (ix2 (0 : Fin 1) j) = _
    refine (pay4_apply _ _ _ j).trans ?_
    rw [pay1_apply, zero_add, Finset.sum_range_one]
    exact Finset.sum_congr rfl fun r _ => block_term V c ⟨0, h⟩ r j
  | n + 1, h => by
    show k2_pay4 (F := Ideal) (iblk2 V c 0 ⟨n + 1, h⟩) (iblk2 V c 1 ⟨n + 1, h⟩) (accSum (F := Ideal) V c n (Nat.lt_of_succ_lt h)) (ix2 (0 : Fin 1) j) = _
    refine (pay4_apply _ _ _ j).trans ?_
    rw [accSum_apply c j n (Nat.lt_of_succ_lt h), Finset.sum_range_succ _ (n + 1)]
    exact congrArg (fun z => (∑ t ∈ Finset.range (n + 1), ∑ r : Fin 5000, rowTerm (V c main_v9) (V c main_v44) j (t * 5000 + r.val)) + z)
      (Finset.sum_congr rfl fun r _ => block_term V c ⟨n + 1, h⟩ r j)

/-- The column-sum-of-squares accumulator after position n, at column j, likewise. -/
theorem accSq_apply (c : Dev nD) (j : Fin 128) : ∀ (n : ℕ) (h : n < cfg2.N),
    accSq (F := Ideal) V c n h (ix2 (0 : Fin 1) j) = ∑ t ∈ Finset.range (n + 1), ∑ r : Fin 5000, rowTermSq (V c main_v9) (V c main_v44) j (t * 5000 + r.val)
  | 0, h => by
    show k2_pay5 (F := Ideal) (iblk2 V c 0 ⟨0, h⟩) (iblk2 V c 1 ⟨0, h⟩) (k2_pay2 (F := Ideal)) (ix2 (0 : Fin 1) j) = _
    refine (pay5_apply _ _ _ j).trans ?_
    rw [pay2_apply, zero_add, Finset.sum_range_one]
    exact Finset.sum_congr rfl fun r _ => block_termSq V c ⟨0, h⟩ r j
  | n + 1, h => by
    show k2_pay5 (F := Ideal) (iblk2 V c 0 ⟨n + 1, h⟩) (iblk2 V c 1 ⟨n + 1, h⟩) (accSq (F := Ideal) V c n (Nat.lt_of_succ_lt h)) (ix2 (0 : Fin 1) j) = _
    refine (pay5_apply _ _ _ j).trans ?_
    rw [accSq_apply c j n (Nat.lt_of_succ_lt h), Finset.sum_range_succ _ (n + 1)]
    exact congrArg (fun z => (∑ t ∈ Finset.range (n + 1), ∑ r : Fin 5000, rowTermSq (V c main_v9) (V c main_v44) j (t * 5000 + r.val)) + z)
      (Finset.sum_congr rfl fun r _ => block_termSq V c ⟨n + 1, h⟩ r j)

/-- Ten blocks of 5000 rows are the 50000 rows: the terms of a function of the row, added block by block, are its terms
    over all rows, added. -/
theorem sum_ten_blocks (g : ℕ → EReal) :
    (∑ t ∈ Finset.range 10, ∑ r : Fin 5000, g (t * 5000 + r.val)) = ∑ i : Fin 50000, g i.val := by
  rw [Finset.sum_range]
  exact Cert.Lib.BatchStats.sum_blocks_nat 10 5000 g

/-- After the last point the column-sum accumulator at column j is column j's sum over all rows. -/
theorem accSum_last (c : Dev nD) (j : Fin 128) (n : ℕ) (h : n + 1 < cfg2.N) (h9 : n + 1 = 9) :
    accSum (F := Ideal) V c (n + 1) h (ix2 (0 : Fin 1) j) = Spec.colSumAt (V c main_v9) (V c main_v44) j := by
  rw [accSum_apply V c j (n + 1) h, show n + 1 + 1 = 10 from by omega, sum_ten_blocks]
  exact Finset.sum_congr rfl fun i _ => dif_pos i.isLt

/-- After the last point the column-sum-of-squares accumulator at column j is column j's sum of squares over all rows. -/
theorem accSq_last (c : Dev nD) (j : Fin 128) (n : ℕ) (h : n + 1 < cfg2.N) (h9 : n + 1 = 9) :
    accSq (F := Ideal) V c (n + 1) h (ix2 (0 : Fin 1) j) = Spec.colSumSqAt (V c main_v9) (V c main_v44) j := by
  rw [accSq_apply V c j (n + 1) h, show n + 1 + 1 = 10 from by omega, sum_ten_blocks]
  exact Finset.sum_congr rfl fun i _ => dif_pos i.isLt

/-! ### The two statistics outputs: one write-back each, at the last point, of the whole row -/

/-- After the last point the column-sum accumulator, as a 1 × 128 array, is the specification's. -/
theorem accSum_eq_spec (c : Dev nD) (h : 8 + 1 < cfg2.N) :
    (accSum (F := Ideal) V c (8 + 1) h : FVec Ideal S1x128 .f32) = Spec.colSum (V c main_v9) (V c main_v44) := by
  funext y
  obtain ⟨p, j, rfl⟩ : ∃ (p : Fin 1) (j : Fin 128), y = ix2 p j := ⟨y 0, y 1, eq_ix2 y⟩
  obtain rfl : p = 0 := Subsingleton.elim _ _
  rw [Spec.colSum_apply]
  exact accSum_last V c j 8 h rfl

/-- The one write-back of the column-sum output, at the last point, writes the specification's array: the block is the whole
    1 × 128 array. -/
theorem flushed2_3_eq (c : Dev nD) (t : Fin cfg2.N) (hf : (cfg2.win 3).flush t = true) :
    (dat2 (F := Ideal) V c).flushed 3 t = ((cfg2.win 3).blk t).view.read (Elt Ideal)
      (Spec.colSum (V c main_v9) (V c main_v44)) := by
  have hN : cfg2.N = 10 := N_2
  have h9 : t.val = 9 := by have h1 := (flush2_3 t).mp hf; have h2 := t.isLt; omega
  obtain rfl : t = t2_9 := Fin.ext h9
  show (cfg2.win 3).cut (grid2.coords t2_9) ((dat2 (F := Ideal) V c).after 3 t2_9) = _
  rw [after2_3, ← accSum_eq_spec V c t2_9.isLt]
  have hacc : (outsAt2 (F := Ideal) V c t2_9.val t2_9.isLt).2.1 = accSum (F := Ideal) V c (8 + 1) t2_9.isLt :=
    (outsAt2_stats (F := Ideal) V c 8 t2_9.isLt rfl).1
  rw [hacc]
  have hz' : (fun a => win2_3.index t2_9 a * main_v45_1.ty.shape.size a) = fun _ => 0 := funext fun a => by fin_cases a <;> decide +kernel
  exact (Memref.read_access_unit_zero (Elt Ideal) main_v45_1 hz' (fun a => by rw [congrFun hz' a]; simp) (accSum (F := Ideal) V c (8 + 1) t2_9.isLt)).symm

/-- After the last point the column-sum-of-squares accumulator, as a 1 × 128 array, is the specification's. -/
theorem accSq_eq_spec (c : Dev nD) (h : 8 + 1 < cfg2.N) :
    (accSq (F := Ideal) V c (8 + 1) h : FVec Ideal S1x128 .f32) = Spec.colSumSq (V c main_v9) (V c main_v44) := by
  funext y
  obtain ⟨p, j, rfl⟩ : ∃ (p : Fin 1) (j : Fin 128), y = ix2 p j := ⟨y 0, y 1, eq_ix2 y⟩
  obtain rfl : p = 0 := Subsingleton.elim _ _
  rw [Spec.colSumSq_apply]
  exact accSq_last V c j 8 h rfl

/-- The one write-back of the column-sum-of-squares output, at the last point, writes the specification's array: the block is the whole
    1 × 128 array. -/
theorem flushed2_4_eq (c : Dev nD) (t : Fin cfg2.N) (hf : (cfg2.win 4).flush t = true) :
    (dat2 (F := Ideal) V c).flushed 4 t = ((cfg2.win 4).blk t).view.read (Elt Ideal)
      (Spec.colSumSq (V c main_v9) (V c main_v44)) := by
  have hN : cfg2.N = 10 := N_2
  have h9 : t.val = 9 := by have h1 := (flush2_4 t).mp hf; have h2 := t.isLt; omega
  obtain rfl : t = t2_9 := Fin.ext h9
  show (cfg2.win 4).cut (grid2.coords t2_9) ((dat2 (F := Ideal) V c).after 4 t2_9) = _
  rw [after2_4, ← accSq_eq_spec V c t2_9.isLt]
  have hacc : (outsAt2 (F := Ideal) V c t2_9.val t2_9.isLt).2.2.1 = accSq (F := Ideal) V c (8 + 1) t2_9.isLt :=
    (outsAt2_stats (F := Ideal) V c 8 t2_9.isLt rfl).2
  rw [hacc]
  have hz' : (fun a => win2_4.index t2_9 a * main_v45_2.ty.shape.size a) = fun _ => 0 := funext fun a => by fin_cases a <;> decide +kernel
  exact (Memref.read_access_unit_zero (Elt Ideal) main_v45_2 hz' (fun a => by rw [congrFun hz' a]; simp) (accSq (F := Ideal) V c (8 + 1) t2_9.isLt)).symm

/-- Every index of the column-sum output is in the last point's block, which is written back. -/
theorem covered2_3 (i : S1x128.Idx) :
    ∃ t : Fin cfg2.N, (cfg2.win 3).flush t = true ∧ i ∈ ((cfg2.win 3).blk t).view.set := by
  have hi0 : (i 0).val < 1 := (i 0).isLt
  have hi1 : (i 1).val < 128 := (i 1).isLt
  obtain ⟨-, -, -, -, -, -, e0, e1, -⟩ := index_facts2 t2_9
  refine ⟨t2_9, (flush2_3 t2_9).mpr rfl, ?_⟩
  show i ∈ ((View.whole main_v45_1).slice (win2_3.rect t2_9)).set
  rw [View.set_slice_whole, Rect.mem_set_unit]
  intro a
  match a with
  | ⟨0, _⟩ => show win2_3.index t2_9 (0 : Fin 2) * 1 ≤ (i 0).val ∧ (i 0).val < win2_3.index t2_9 (0 : Fin 2) * 1 + 1; rw [e0]; omega
  | ⟨1, _⟩ => show win2_3.index t2_9 (1 : Fin 2) * 128 ≤ (i 1).val ∧ (i 1).val < win2_3.index t2_9 (1 : Fin 2) * 128 + 128; rw [e1]; omega

/-- Every index of the column-sum-of-squares output is in the last point's block, which is written back. -/
theorem covered2_4 (i : S1x128.Idx) :
    ∃ t : Fin cfg2.N, (cfg2.win 4).flush t = true ∧ i ∈ ((cfg2.win 4).blk t).view.set := by
  have hi0 : (i 0).val < 1 := (i 0).isLt
  have hi1 : (i 1).val < 128 := (i 1).isLt
  obtain ⟨-, -, -, -, -, -, -, -, e0, e1⟩ := index_facts2 t2_9
  refine ⟨t2_9, (flush2_4 t2_9).mpr rfl, ?_⟩
  show i ∈ ((View.whole main_v45_2).slice (win2_4.rect t2_9)).set
  rw [View.set_slice_whole, Rect.mem_set_unit]
  intro a
  match a with
  | ⟨0, _⟩ => show win2_4.index t2_9 (0 : Fin 2) * 1 ≤ (i 0).val ∧ (i 0).val < win2_4.index t2_9 (0 : Fin 2) * 1 + 1; rw [e0]; omega
  | ⟨1, _⟩ => show win2_4.index t2_9 (1 : Fin 2) * 128 ≤ (i 1).val ∧ (i 1).val < win2_4.index t2_9 (1 : Fin 2) * 128 + 128; rw [e1]; omega

/-- The column-sum output after the region holds, at column j, the sum over all 50000 rows of d + s. -/
theorem arr2_1 (V : (c : Dev nD) → (b : Ref sig .tc) → Buf (Elt Ideal) ((c : Thread nD τ).loc b)) (c : Dev nD) :
    (dat2 (F := Ideal) V c).arrAt 3 cfg2.N = Spec.colSum (V c main_v9) (V c main_v44) :=
  (dat2 (F := Ideal) V c).arrAt_eq_of_cover 3 _ (flushed2_3_eq V c) covered2_3

/-- The column-sum-of-squares output after the region holds, at column j, the sum over all 50000 rows of (d + s)². -/
theorem arr2_2 (V : (c : Dev nD) → (b : Ref sig .tc) → Buf (Elt Ideal) ((c : Thread nD τ).loc b)) (c : Dev nD) :
    (dat2 (F := Ideal) V c).arrAt 4 cfg2.N = Spec.colSumSq (V c main_v9) (V c main_v44) :=
  (dat2 (F := Ideal) V c).arrAt_eq_of_cover 4 _ (flushed2_4_eq V c) covered2_4

end Cert.KernelIdeal.Hand

end
-- ==== Proof.Norm3Value.lean ====
/-
  The array the normalisation region leaves, on the extended reals, index by index.

  At point t of its grid of ten the region's body reads rows 5000·t … 5000·t + 4999 of x and the one row of each of
  mean, var, gamma, beta, and writes back, at row p and column q of the block,
      max(((x(5000·t + p, q) − mean(q)) · rsqrt(var(q) + ε)) · gamma(q) + beta(q), 0):
  entry (5000·t + p, q) of the specification's normalised array. The ten blocks tile the 50000 rows (row r lies in block
  r / 5000), so the output array ends holding that array.
-/
import proofs.«153656_j10943576670413_2_alg».proof.Proof.Norm3
import proofs.«153656_j10943576670413_2_alg».proof.Proof.Spec
import Idealize.ShloMosaic.Lib.Pipeline.Value
import Idealize.ShloMosaic.Lib.ValueLayout
import Idealize.ShloMosaic.Lib.ValueIdx
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

-- the buffer contents when the region is entered, on the extended reals
variable (V : (c : Dev nD) → (b : Ref sig .tc) → Buf (Elt Ideal) ((c : Thread nD τ).loc b))

theorem offsets_zero : (![0, 0] : Fin 2 → Nat) = fun _ => 0 := funext fun a => by fin_cases a <;> rfl

/-! ## The body's value at an index of the block -/

/-- Entry (p, q) of what the body stores: the input block's entry less the mean row's, times the reciprocal square
    root of the variance row's plus ε, times the scale row's, plus the shift row's, cut below at zero. -/
theorem k3_pay1_apply (x0 : Vec Ideal S5000x128 .f32) (x1 x2 x3 x4 : Vec Ideal S1x128 .f32) (p : Fin 5000) (q : Fin 128) :
    k3_pay1 x0 x1 x2 x3 x4 (ix2 p q)
      = max (((x0 (ix2 p q) - x1 (ix2 (0 : Fin 1) q)) * Ideal.rsqrt (x2 (ix2 (0 : Fin 1) q) + Ideal.ofBits .f32 0x3727C5AC#32))
          * x3 (ix2 (0 : Fin 1) q) + x4 (ix2 (0 : Fin 1) q)) (Ideal.ofBits .f32 0x00000000#32) := by
  unfold k3_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-! ## The printed index maps, decided over the grid -/

/-- The block of x and the output block at point t are block row t; each 1 × 128 window's block is the whole row. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-! ## The input blocks as entries of the arrays -/

/-- Entry (p, q) of the block of x at point t is entry (5000·t + p, q) of x. -/
theorem iblk3_0_apply (c : Dev nD) (t : Fin cfg3.N) (p : Fin 5000) (q : Fin 128) (r : Fin 50000) (hr : r.val = 5000 * t.val + p.val) :
    (iblk3 V c 0 t : Vec Ideal S5000x128 .f32) (ix2 p q) = (V c main_v45_0 : FVec Ideal S50000x128 .f32) (ix2 r q) := by
  obtain ⟨e0, e1, -⟩ := index_facts3 t
  unfold iblk3
  rw [View.read_apply]
  show (V c main_v45_0 : FVec Ideal S50000x128 .f32) _ = _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 128 + 1 * q.val = q.val; rw [e1]; omega

/-- Entry (0, q) of the mean window's block at any point is entry (0, q) of the mean row. -/
theorem iblk3_1_apply (c : Dev nD) (t : Fin cfg3.N) (q : Fin 128) :
    (iblk3 V c 1 t : Vec Ideal S1x128 .f32) (ix2 (0 : Fin 1) q) = (V c main_v47 : FVec Ideal S1x128 .f32) (ix2 (0 : Fin 1) q) := by
  obtain ⟨-, -, e0, e1, -⟩ := index_facts3 t
  unfold iblk3
  rw [View.read_apply]
  show (V c main_v47 : FVec Ideal S1x128 .f32) _ = _
  congr 1
  funext a
  apply Fin.ext
  match a with
  | ⟨0, _⟩ => show win3_1.index t (0 : Fin 2) * 1 + 1 * 0 = 0; rw [e0]
  | ⟨1, _⟩ => show win3_1.index t (1 : Fin 2) * 128 + 1 * q.val = q.val; rw [e1]; omega

/-- The same for the variance row, -/
theorem iblk3_2_apply (c : Dev nD) (t : Fin cfg3.N) (q : Fin 128) :
    (iblk3 V c 2 t : Vec Ideal S1x128 .f32) (ix2 (0 : Fin 1) q) = (V c main_v51 : FVec Ideal S1x128 .f32) (ix2 (0 : Fin 1) q) := by
  obtain ⟨-, -, -, -, e0, e1, -⟩ := index_facts3 t
  unfold iblk3
  rw [View.read_apply]
  show (V c main_v51 : FVec Ideal S1x128 .f32) _ = _
  congr 1
  funext a
  apply Fin.ext
  match a with
  | ⟨0, _⟩ => show win3_2.index t (0 : Fin 2) * 1 + 1 * 0 = 0; rw [e0]
  | ⟨1, _⟩ => show win3_2.index t (1 : Fin 2) * 128 + 1 * q.val = q.val; rw [e1]; omega

/-- the scale row, -/
theorem iblk3_3_apply (c : Dev nD) (t : Fin cfg3.N) (q : Fin 128) :
    (iblk3 V c 3 t : Vec Ideal S1x128 .f32) (ix2 (0 : Fin 1) q) = (V c main_v52 : FVec Ideal S1x128 .f32) (ix2 (0 : Fin 1) q) := by
  obtain ⟨-, -, -, -, -, -, e0, e1, -⟩ := index_facts3 t
  unfold iblk3
  rw [View.read_apply]
  show (V c main_v52 : FVec Ideal S1x128 .f32) _ = _
  congr 1
  funext a
  apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega

/-- and the shift row. -/
theorem iblk3_4_apply (c : Dev nD) (t : Fin cfg3.N) (q : Fin 128) :
    (iblk3 V c 4 t : Vec Ideal S1x128 .f32) (ix2 (0 : Fin 1) q) = (V c main_v53 : FVec Ideal S1x128 .f32) (ix2 (0 : Fin 1) q) := by
  obtain ⟨-, -, -, -, -, -, -, -, e0, e1, -⟩ := index_facts3 t
  unfold iblk3
  rw [View.read_apply]
  show (V c main_v53 : FVec Ideal S1x128 .f32) _ = _
  congr 1
  funext a
  apply Fin.ext
  match a with
  | ⟨0, _⟩ => show win3_4.index t (0 : Fin 2) * 1 + 1 * 0 = 0; rw [e0]
  | ⟨1, _⟩ => show win3_4.index t (1 : Fin 2) * 128 + 1 * q.val = q.val; rw [e1]; omega

/-! ## What a point writes back -/

/-- What point t writes back is block t of the specification's normalised array of the arrays the region finds. -/
theorem flushed3_eq (c : Dev nD) (t : Fin cfg3.N) :
    (dat3 (F := Ideal) V c).flushed 5 t = ((cfg3.win 5).blk t).view.read (Elt Ideal)
      (Spec.norm (V c main_v45_0) (V c main_v47) (V c main_v51) (V c main_v52) (V c main_v53)) := by
  show (cfg3.win 5).cut (grid3.coords t) ((dat3 (F := Ideal) V c).after 5 t) = _
  rw [after3_5]
  unfold out3_5
  rw [View.canon_unit_zero offsets_zero]
  simp only [View.ld_unit_zero (S := S5000x128) offsets_zero, View.ld_unit_zero (S := S1x128) offsets_zero]
  obtain ⟨-, -, -, -, -, -, -, -, -, -, e0, e1⟩ := index_facts3 t
  funext j
  obtain ⟨p, q, rfl⟩ : ∃ (p : Fin 5000) (q : Fin 128), j = ix2 p q := ⟨j 0, j 1, eq_ix2 j⟩
  have hN : cfg3.N = 10 := N_3
  have hr : 5000 * t.val + p.val < 50000 := by have h1 := t.isLt; have h2 := p.isLt; omega
  have hemb : ((cfg3.win 5).blk t).view.emb (ix2 p q) = (ix2 (⟨5000 * t.val + p.val, hr⟩ : Fin 50000) q : S50000x128.Idx) := by
    funext a
    apply Fin.ext
    match a with
    | ⟨0, _⟩ => show win3_5.index t (0 : Fin 2) * 5000 + 1 * p.val = 5000 * t.val + p.val; rw [e0]; omega
    | ⟨1, _⟩ => show win3_5.index t (1 : Fin 2) * 128 + 1 * q.val = q.val; rw [e1]; omega
  show k3_pay1 (iblk3 V c 0 t) (iblk3 V c 1 t) (iblk3 V c 2 t) (iblk3 V c 3 t) (iblk3 V c 4 t) (ix2 p q) = Spec.norm _ _ _ _ _ (((cfg3.win 5).blk t).view.emb (ix2 p q))
  rw [hemb, Spec.norm_apply, k3_pay1_apply, iblk3_0_apply V c t p q ⟨5000 * t.val + p.val, hr⟩ rfl, iblk3_1_apply, iblk3_2_apply, iblk3_3_apply, iblk3_4_apply]
  rfl

/-! ## The blocks tile the array -/

/-- An index of the output array is in point t's block iff each coordinate is in the block's range on its axis. -/
theorem mem_blk3_5 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v54).slice (win3_5.rect t)).set ↔ _
  rw [View.set_slice_whole, Rect.mem_set_unit]
  exact Iff.rfl

/-- Row r of the output array lies in the block of point r / 5000, which is written back. -/
theorem covered3_5 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  let t : Fin cfg3.N := ⟨(i 0).val / 5000, by rw [show cfg3.N = 10 from N_3]; omega⟩
  obtain ⟨-, -, -, -, -, -, -, -, -, -, e0, e1⟩ := index_facts3 t
  have htv : t.val = (i 0).val / 5000 := rfl
  refine ⟨t, flush3_5 t, ?_⟩
  rw [mem_blk3_5]
  intro a
  match a with
  | ⟨0, _⟩ => show win3_5.index t (0 : Fin 2) * 5000 ≤ (i 0).val ∧ (i 0).val < win3_5.index t (0 : Fin 2) * 5000 + 5000; rw [e0, htv]; omega
  | ⟨1, _⟩ => show win3_5.index t (1 : Fin 2) * 128 ≤ (i 1).val ∧ (i 1).val < win3_5.index t (1 : Fin 2) * 128 + 128; rw [e1]; omega

/-! ## The array after the region -/

/-- The output array after the region is the specification's normalised array of the arrays the region finds. -/
theorem arr3 (V : (c : Dev nD) → (b : Ref sig .tc) → Buf (Elt Ideal) ((c : Thread nD τ).loc b)) (c : Dev nD) :
    (dat3 (F := Ideal) V c).arrAt 5 cfg3.N = Spec.norm (V c main_v45_0) (V c main_v47) (V c main_v51) (V c main_v52) (V c main_v53) :=
  (dat3 (F := Ideal) V c).arrAt_eq_of_cover 5 _ (fun t _ => flushed3_eq V c t) covered3_5

end Cert.KernelIdeal.Hand

end
-- ==== Proof.KerValue.lean ====
import proofs.«153656_j10943576670413_2_alg».proof.Proof.Frames
import proofs.«153656_j10943576670413_2_alg».proof.Proof.Terms
import proofs.«153656_j10943576670413_2_alg».proof.Proof.Proj0Value
import proofs.«153656_j10943576670413_2_alg».proof.Proof.Proj1Value
import proofs.«153656_j10943576670413_2_alg».proof.Proof.Stats2Value
import proofs.«153656_j10943576670413_2_alg».proof.Proof.Norm3Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

/-! ## The kernel program's results, read off its run at the extended reals

The contents of every buffer at each boundary between a host stretch and a region, followed from the launch memory:
a host stretch's results are its operations applied to the contents before it, a region's output arrays are their
closed forms (the specification), everything else is carried over. -/

variable (m : (ℓ : Loc nD τ sig) → Buf (Elt Ideal) ℓ) (c : Dev nD)

/-- An argument no host stretch writes and no region outputs is carried, unchanged, to every boundary. -/
theorem W1_arg (r : Ref sig .tc) (h : r ∉ (hostOps0_W : List (Ref sig .tc))) : W1 m c (Proc.devRef .tc r) = m ((c : Thread nD τ).loc r) :=
  W1_of m c r h

-- host stretch 0: the concatenated transposed weights
theorem V1_v4 : (V1 m) c main_v4 = w4t (m ((c : Thread nD τ).loc main_arg2)) (m ((c : Thread nD τ).loc main_arg3)) (m ((c : Thread nD τ).loc main_arg4)) (m ((c : Thread nD τ).loc main_arg5)) := by
  dsimp only [V1, W1, W0, hostOps0]; after_results; rfl

theorem V1_arg0 : (V1 m) c main_arg0 = (m ((c : Thread nD τ).loc main_arg0)) :=
  W1_of m c main_arg0 (by decide)

-- region 0: the node projection
theorem W2_v5 : W2 D0 m c (Proc.devRef .tc main_v5) = kerProj (m ((c : Thread nD τ).loc main_arg0)) (m ((c : Thread nD τ).loc main_arg2)) (m ((c : Thread nD τ).loc main_arg3)) (m ((c : Thread nD τ).loc main_arg4)) (m ((c : Thread nD τ).loc main_arg5)) :=
  (W2_arr D0 m c 2).trans ((arr0 (V1 m) c).trans (by rw [V1_v4, V1_arg0]; rfl))

theorem W2_arg6 : W2 D0 m c (Proc.devRef .tc main_arg6) = (m ((c : Thread nD τ).loc main_arg6)) :=
  (W2_of_ne D0 m c main_arg6 (by decide)).trans (W1_of m c main_arg6 (by decide))

-- host stretch 1: the four column blocks and the transposed edge weights
theorem V3_v6 : (V3 D0 m) c main_v6 = cols0 (W2 D0 m c (Proc.devRef .tc main_v5)) := by
  dsimp only [V3, W3, hostOps1]; after_results; rfl
theorem V3_v7 : (V3 D0 m) c main_v7 = cols1 (W2 D0 m c (Proc.devRef .tc main_v5)) := by
  dsimp only [V3, W3, hostOps1]; after_results; rfl
theorem V3_v8 : (V3 D0 m) c main_v8 = cols2 (W2 D0 m c (Proc.devRef .tc main_v5)) := by
  dsimp only [V3, W3, hostOps1]; after_results; rfl
theorem V3_v9 : (V3 D0 m) c main_v9 = cols3 (W2 D0 m c (Proc.devRef .tc main_v5)) := by
  dsimp only [V3, W3, hostOps1]; after_results; rfl
theorem V3_v10 : (V3 D0 m) c main_v10 = tr (W2 D0 m c (Proc.devRef .tc main_arg6)) := by
  dsimp only [V3, W3, hostOps1]; after_results; rfl
theorem V3_arg1 : (V3 D0 m) c main_arg1 = (m ((c : Thread nD τ).loc main_arg1)) :=
  (W3_of D0 m c main_arg1 (by decide)).trans ((W2_of_ne D0 m c main_arg1 (by decide)).trans (W1_of m c main_arg1 (by decide)))

-- region 1: the edge projection
theorem W4_v11 : W4 D0 D1 m c (Proc.devRef .tc main_v11) = kerEdge (m ((c : Thread nD τ).loc main_arg1)) (m ((c : Thread nD τ).loc main_arg6)) :=
  (W4_arr D0 D1 m c 2).trans ((arr1 (V3 D0 m) c).trans (by rw [V3_arg1, V3_v10, W2_arg6]; rfl))

theorem W4_v6 : W4 D0 D1 m c (Proc.devRef .tc main_v6) = cols0 (kerProj (m ((c : Thread nD τ).loc main_arg0)) (m ((c : Thread nD τ).loc main_arg2)) (m ((c : Thread nD τ).loc main_arg3)) (m ((c : Thread nD τ).loc main_arg4)) (m ((c : Thread nD τ).loc main_arg5))) :=
  (W4_of_ne D0 D1 m c main_v6 (by decide)).trans ((V3_v6 m c).trans (by rw [W2_v5]))
theorem W4_v7 : W4 D0 D1 m c (Proc.devRef .tc main_v7) = cols1 (kerProj (m ((c : Thread nD τ).loc main_arg0)) (m ((c : Thread nD τ).loc main_arg2)) (m ((c : Thread nD τ).loc main_arg3)) (m ((c : Thread nD τ).loc main_arg4)) (m ((c : Thread nD τ).loc main_arg5))) :=
  (W4_of_ne D0 D1 m c main_v7 (by decide)).trans ((V3_v7 m c).trans (by rw [W2_v5]))
theorem W4_v8 : W4 D0 D1 m c (Proc.devRef .tc main_v8) = cols2 (kerProj (m ((c : Thread nD τ).loc main_arg0)) (m ((c : Thread nD τ).loc main_arg2)) (m ((c : Thread nD τ).loc main_arg3)) (m ((c : Thread nD τ).loc main_arg4)) (m ((c : Thread nD τ).loc main_arg5))) :=
  (W4_of_ne D0 D1 m c main_v8 (by decide)).trans ((V3_v8 m c).trans (by rw [W2_v5]))
theorem W4_v9 : W4 D0 D1 m c (Proc.devRef .tc main_v9) = cols3 (kerProj (m ((c : Thread nD τ).loc main_arg0)) (m ((c : Thread nD τ).loc main_arg2)) (m ((c : Thread nD τ).loc main_arg3)) (m ((c : Thread nD τ).loc main_arg4)) (m ((c : Thread nD τ).loc main_arg5))) :=
  (W4_of_ne D0 D1 m c main_v9 (by decide)).trans ((V3_v9 m c).trans (by rw [W2_v5]))
theorem W4_arg9 : W4 D0 D1 m c (Proc.devRef .tc main_arg9) = (m ((c : Thread nD τ).loc main_arg9)) :=
  (W4_of_ne D0 D1 m c main_arg9 (by decide)).trans ((W3_of D0 m c main_arg9 (by decide)).trans ((W2_of_ne D0 m c main_arg9 (by decide)).trans (W1_of m c main_arg9 (by decide))))
theorem W4_arg10 : W4 D0 D1 m c (Proc.devRef .tc main_arg10) = (m ((c : Thread nD τ).loc main_arg10)) :=
  (W4_of_ne D0 D1 m c main_arg10 (by decide)).trans ((W3_of D0 m c main_arg10 (by decide)).trans ((W2_of_ne D0 m c main_arg10 (by decide)).trans (W1_of m c main_arg10 (by decide))))

-- host stretch 2: the summed messages
theorem V5_v44_raw : (V5 D0 D1 m) c main_v44 = message (W4 D0 D1 m c (Proc.devRef .tc main_v6)) (W4 D0 D1 m c (Proc.devRef .tc main_v7)) (W4 D0 D1 m c (Proc.devRef .tc main_v8)) (W4 D0 D1 m c (Proc.devRef .tc main_v11)) (W4 D0 D1 m c (Proc.devRef .tc main_arg9)) (W4 D0 D1 m c (Proc.devRef .tc main_arg10)) := by
  dsimp only [V5, W5, hostOps2]; after_results_simp; rfl
theorem V5_v44 : (V5 D0 D1 m) c main_v44 = kerMsg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  rw [V5_v44_raw, W4_v6, W4_v7, W4_v8, W4_v11, W4_arg9, W4_arg10]; rfl
theorem V5_v9 : (V5 D0 D1 m) c main_v9 = cols3 (kerProj (m ((c : Thread nD τ).loc main_arg0)) (m ((c : Thread nD τ).loc main_arg2)) (m ((c : Thread nD τ).loc main_arg3)) (m ((c : Thread nD τ).loc main_arg4)) (m ((c : Thread nD τ).loc main_arg5))) :=
  (W5_of D0 D1 m c main_v9 (by decide)).trans (W4_v9 m c)

-- region 2: the pre-normalisation activations and their column statistics
theorem W6_v45_0 : W6 D0 D1 D2 m c (Proc.devRef .tc main_v45_0) = Spec.preAct ((V5 D0 D1 m) c main_v9) ((V5 D0 D1 m) c main_v44) :=
  (W6_arr D0 D1 D2 m c 2).trans (arr2_0 (V5 D0 D1 m) c)
theorem W6_v45_1 : W6 D0 D1 D2 m c (Proc.devRef .tc main_v45_1) = Spec.colSum ((V5 D0 D1 m) c main_v9) ((V5 D0 D1 m) c main_v44) :=
  (W6_arr D0 D1 D2 m c 3).trans (arr2_1 (V5 D0 D1 m) c)
theorem W6_v45_2 : W6 D0 D1 D2 m c (Proc.devRef .tc main_v45_2) = Spec.colSumSq ((V5 D0 D1 m) c main_v9) ((V5 D0 D1 m) c main_v44) :=
  (W6_arr D0 D1 D2 m c 4).trans (arr2_2 (V5 D0 D1 m) c)
theorem W6_arg7 : W6 D0 D1 D2 m c (Proc.devRef .tc main_arg7) = (m ((c : Thread nD τ).loc main_arg7)) :=
  (W6_of_ne D0 D1 D2 m c main_arg7 (by decide)).trans ((W5_of D0 D1 m c main_arg7 (by decide)).trans ((W4_of_ne D0 D1 m c main_arg7 (by decide)).trans ((W3_of D0 m c main_arg7 (by decide)).trans ((W2_of_ne D0 m c main_arg7 (by decide)).trans (W1_of m c main_arg7 (by decide))))))
theorem W6_arg8 : W6 D0 D1 D2 m c (Proc.devRef .tc main_arg8) = (m ((c : Thread nD τ).loc main_arg8)) :=
  (W6_of_ne D0 D1 D2 m c main_arg8 (by decide)).trans ((W5_of D0 D1 m c main_arg8 (by decide)).trans ((W4_of_ne D0 D1 m c main_arg8 (by decide)).trans ((W3_of D0 m c main_arg8 (by decide)).trans ((W2_of_ne D0 m c main_arg8 (by decide)).trans (W1_of m c main_arg8 (by decide))))))

-- host stretch 3: mean, variance, the scale and shift as rows
theorem V7_v47 : (V7 D0 D1 D2 m) c main_v47 = over50000 (W6 D0 D1 D2 m c (Proc.devRef .tc main_v45_1)) := by
  dsimp only [V7, W7, hostOps3]; after_results; rfl
theorem V7_v51 : (V7 D0 D1 D2 m) c main_v51 = varRow (over50000 (W6 D0 D1 D2 m c (Proc.devRef .tc main_v45_1))) (W6 D0 D1 D2 m c (Proc.devRef .tc main_v45_2)) := by
  dsimp only [V7, W7, hostOps3]; after_results; rfl
theorem V7_v52 : (V7 D0 D1 D2 m) c main_v52 = asRow (W6 D0 D1 D2 m c (Proc.devRef .tc main_arg7)) := by
  dsimp only [V7, W7, hostOps3]; after_results; rfl
theorem V7_v53 : (V7 D0 D1 D2 m) c main_v53 = asRow (W6 D0 D1 D2 m c (Proc.devRef .tc main_arg8)) := by
  dsimp only [V7, W7, hostOps3]; after_results; rfl
theorem V7_v45_0 : (V7 D0 D1 D2 m) c main_v45_0 = W6 D0 D1 D2 m c (Proc.devRef .tc main_v45_0) :=
  W7_of D0 D1 D2 m c main_v45_0 (by decide)

/-- The kernel program's second result is the edge projection e · WEᵀ. -/
theorem ker_v11 : W8 D0 D1 D2 D3 m c (Proc.devRef .tc main_v11) = kerEdge (m ((c : Thread nD τ).loc main_arg1)) (m ((c : Thread nD τ).loc main_arg6)) :=
  (W8_main_v11 D0 D1 D2 D3 m c).trans ((arr1 (V3 D0 m) c).trans (by rw [V3_arg1, V3_v10, W2_arg6]; rfl))

/-- The kernel program's first result is the normalised, rectified activations, as a function of the arguments. -/
theorem ker_v54 : W8 D0 D1 D2 D3 m c (Proc.devRef .tc main_v54) = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W8_main_v54 D0 D1 D2 D3 m c, arr3 (V7 D0 D1 D2 m) c, V7_v45_0, V7_v47, V7_v51, V7_v52, V7_v53, W6_v45_0, W6_v45_1, W6_v45_2, W6_arg7, W6_arg8,
    V5_v9, V5_v44]
  rfl

end Cert.KernelIdeal.Hand

end
-- ==== Proof.RefRead.lean ====
/-
  The reference program's run, read one operation at a time.
-/
import proofs.«153656_j10943576670413_2_alg».proof.Proof.Gen.ReferenceIdeal.Run
import proofs.«153656_j10943576670413_2_alg».proof.Proof.Gen.ReferenceIdeal.Read
-- ==== Proof.LibConcatCols.lean ====
/-
  Four matrices of one shape laid side by side, read at an entry.

  The concatenation along the columns of four m × w matrices is the m × 4w matrix whose column w·q + j is column j of
  the q-th matrix.
-/
import Idealize.ShloMosaic.Lib.Pipeline.Value
import Idealize.ShloMosaic.Lib.ValueIdx

namespace Cert.Lib.ConcatCols

open Idealize.ShloMosaic Idealize.ShloMosaic.ValueIdx

variable {α : Type}

/-- Four m × w matrices concatenated along the columns into an m × n matrix, read at row i and column q·w + j
    (q the block, j < w the column inside it): the q-th matrix at (i, j). -/
theorem concat4_cols_apply {m w n : Nat} (x0 x1 x2 x3 : (⟨2, ![m, w]⟩ : Shape).Idx → α)
    (h : Shape.Concatenates [(⟨2, ![m, w]⟩ : Shape), ⟨2, ![m, w]⟩, ⟨2, ![m, w]⟩, ⟨2, ![m, w]⟩] ⟨2, ![m, n]⟩ 1)
    (i : Fin m) (c : Fin n) (q : Fin 4) (j : Fin w) (hc : c.val = q.val * w + j.val) :
    concatenate (⟨2, ![m, n]⟩ : Shape) 1 [⟨⟨2, ![m, w]⟩, x0⟩, ⟨⟨2, ![m, w]⟩, x1⟩, ⟨⟨2, ![m, w]⟩, x2⟩, ⟨⟨2, ![m, w]⟩, x3⟩] h (ix2 i c)
      = (![x0, x1, x2, x3] q) (ix2 i j) := by
  have hi : ∀ b : Fin (⟨2, ![m, w]⟩ : Shape).rank, b.cast (rfl : (⟨2, ![m, w]⟩ : Shape).rank = (⟨2, ![m, n]⟩ : Shape).rank) ≠ (1 : Fin 2) →
      ((ix2 i j : (⟨2, ![m, w]⟩ : Shape).Idx) b).val = ((ix2 i c : (⟨2, ![m, n]⟩ : Shape).Idx) (b.cast rfl)).val := fun b hb => by
    match b, hb with
    | ⟨0, _⟩, _ => rfl
    | ⟨1, _⟩, hb => exact absurd rfl hb
  match q, hc with
  | ⟨0, _⟩, hc =>
    have hc' : c.val = 0 * w + j.val := hc
    exact concatenate_apply_piece (t := ⟨2, ![m, n]⟩) 1 [⟨⟨2, ![m, w]⟩, x0⟩, ⟨⟨2, ![m, w]⟩, x1⟩, ⟨⟨2, ![m, w]⟩, x2⟩, ⟨⟨2, ![m, w]⟩, x3⟩] h (ix2 i c)
      0 (show (0 : Nat) < 4 by decide) ⟨2, ![m, w]⟩ x0 rfl rfl 0 rfl (ix2 i j) hi
      (by show 0 + j.val = c.val; omega)
  | ⟨1, _⟩, hc =>
    have hc' : c.val = 1 * w + j.val := hc
    exact concatenate_apply_piece (t := ⟨2, ![m, n]⟩) 1 [⟨⟨2, ![m, w]⟩, x0⟩, ⟨⟨2, ![m, w]⟩, x1⟩, ⟨⟨2, ![m, w]⟩, x2⟩, ⟨⟨2, ![m, w]⟩, x3⟩] h (ix2 i c)
      1 (show (1 : Nat) < 4 by decide) ⟨2, ![m, w]⟩ x1 rfl rfl w rfl (ix2 i j) hi
      (by show w + j.val = c.val; omega)
  | ⟨2, _⟩, hc =>
    have hc' : c.val = 2 * w + j.val := hc
    exact concatenate_apply_piece (t := ⟨2, ![m, n]⟩) 1 [⟨⟨2, ![m, w]⟩, x0⟩, ⟨⟨2, ![m, w]⟩, x1⟩, ⟨⟨2, ![m, w]⟩, x2⟩, ⟨⟨2, ![m, w]⟩, x3⟩] h (ix2 i c)
      2 (show (2 : Nat) < 4 by decide) ⟨2, ![m, w]⟩ x2 rfl rfl (w + w) rfl (ix2 i j) hi
      (by show w + w + j.val = c.val; omega)
  | ⟨3, _⟩, hc =>
    have hc' : c.val = 3 * w + j.val := hc
    exact concatenate_apply_piece (t := ⟨2, ![m, n]⟩) 1 [⟨⟨2, ![m, w]⟩, x0⟩, ⟨⟨2, ![m, w]⟩, x1⟩, ⟨⟨2, ![m, w]⟩, x2⟩, ⟨⟨2, ![m, w]⟩, x3⟩] h (ix2 i c)
      3 (show (3 : Nat) < 4 by decide) ⟨2, ![m, w]⟩ x3 rfl rfl (w + (w + w)) rfl (ix2 i j) hi
      (by show w + (w + w) + j.val = c.val; omega)

end Cert.Lib.ConcatCols
-- ==== Proof.RefProj.lean ====
/-
  The reference's five projections are the kernel program's, on the extended reals.

  The reference multiplies the node features by each transposed 128 × 128 weight matrix separately; the kernel program
  multiplies them once by the four transposed matrices laid side by side (128 × 512) and cuts the 512 result columns into
  four blocks of 128. Entry (i, j) of block q is Σ_k h(i, k) · W_q(j, k) either way: column 128·q + j of the side-by-side
  matrix is column j of the q-th transposed matrix. The edge projection is one product in both programs.

  The message chain (gathers by source and destination, the gate, the scatter-add) is spelled once in each program; the
  two spellings are the same function of the projections and the two index lists.
-/
import proofs.«153656_j10943576670413_2_alg».proof.Proof.Terms
import proofs.«153656_j10943576670413_2_alg».proof.Proof.RefRead
import Idealize.ShloMosaic.Lib.Pipeline.Value
import Idealize.ShloMosaic.Lib.ValueIdx
import Idealize.ShloMosaic.Lib.ValueLayout
import proofs.«153656_j10943576670413_2_alg».proof.Proof.LibConcatCols

noncomputable section

open scoped BigOperators

namespace Cert.KernelIdeal.Hand

open Idealize.ShloMosaic Idealize.ShloMosaic.ValueIdx Cert.KernelIdeal

/-- Two rank-2 indices with equal coordinates are equal. -/
theorem idx2_ext {n0 n1 : Nat} (p q : (⟨2, ![n0, n1]⟩ : Shape).Idx) (h0 : p 0 = q 0) (h1 : p 1 = q 1) : p = q := by
  rw [eq_ix2 p, eq_ix2 q, h0, h1]

/-- A transposed 128 × 128 matrix read at (k, j) is the matrix at (j, k). -/
theorem tr_apply (W : FVec Ideal S128x128 .f32) (k j : Fin 128) : tr W (ix2 k j) = W (ix2 j k) :=
  transpose_ix2_apply W Cert.KernelIdeal.Gen.transposes_S128x128_S128x128_1_0 k j

/-- The edge projection: the reference's product with the transposed matrix is the kernel program's. -/
theorem ref_edge (e : FVec Ideal S800000x128 .f32) (WE : FVec Ideal S128x128 .f32) :
    Host.dotGeneral (F := Ideal) Cert.ReferenceIdeal.dot_S800000x128_S128x128_S800000x128_1_0_0_1_n_n none e
      (transpose Cert.ReferenceIdeal.S128x128 [1, 0] WE Cert.ReferenceIdeal.Gen.transposes_S128x128_S128x128_1_0) = kerEdge e WE := by
  funext i
  obtain ⟨a, b, rfl⟩ : ∃ a b, i = ix2 a b := ⟨i 0, i 1, eq_ix2 i⟩
  refine (Cert.ReferenceIdeal.Read.val_main_v7_apply e WE (ix2 a b)).trans ?_
  show _ = Spec.edgeProjAt e (tr WE) a b
  unfold Spec.edgeProjAt
  refine Finset.sum_congr rfl fun k _ => ?_
  have e1 : Cert.ReferenceIdeal.Read.lidx_main_v7 (ix2 a b) k = ix2 a k := idx2_ext _ _ rfl rfl
  have e2 : Cert.ReferenceIdeal.Read.ridx_main_v7 (ix2 a b) k = ix2 k b := idx2_ext _ _ rfl rfl
  exact congrArg₂ (· * ·) (congrArg e e1) (congrArg (tr WE) e2)

/-- Entry (i, j) of the reference's product of the node features with a transposed weight matrix: Σ_k h(i, k) · W(j, k). -/
theorem refProj_apply (h : FVec Ideal S50000x128 .f32) (W : FVec Ideal S128x128 .f32) (i : Fin 50000) (j : Fin 128) :
    Host.dotGeneral (F := Ideal) Cert.ReferenceIdeal.dot_S50000x128_S128x128_S50000x128_1_0_0_1_n_n none h
      (transpose Cert.ReferenceIdeal.S128x128 [1, 0] W Cert.ReferenceIdeal.Gen.transposes_S128x128_S128x128_1_0) (ix2 i j)
      = ∑ k : Fin 128, h (ix2 i k) * W (ix2 j k) := by
  refine (Cert.ReferenceIdeal.Read.val_main_v1_apply h W (ix2 i j)).trans ?_
  refine Finset.sum_congr rfl fun k _ => ?_
  have e1 : Cert.ReferenceIdeal.Read.lidx_main_v1 (ix2 i j) k = ix2 i k := idx2_ext _ _ rfl rfl
  have e2 : Cert.ReferenceIdeal.Read.ridx_main_v1 (ix2 i j) k = ix2 k j := idx2_ext _ _ rfl rfl
  exact congrArg₂ (· * ·) (congrArg h e1) ((congrArg (tr W) e2).trans (tr_apply W k j))

/-- The four weight matrices side by side, read at row k and column 128·q + j: the q-th matrix at (j, k). -/
theorem w4t_apply (WA WB WC WD : FVec Ideal S128x128 .f32) (k : Fin 128) (c : Fin 512) (q : Fin 4) (j : Fin 128)
    (hc : c.val = q.val * 128 + j.val) :
    w4t WA WB WC WD (ix2 k c) = (![WA, WB, WC, WD] q) (ix2 j k) := by
  refine (Cert.Lib.ConcatCols.concat4_cols_apply (tr WA) (tr WB) (tr WC) (tr WD)
    Cert.KernelIdeal.Gen.concatenates_S128x128_S128x128_S128x128_S128x128_S128x512_d1 k c q j hc).trans ?_
  match q with
  | ⟨0, _⟩ => exact tr_apply WA k j
  | ⟨1, _⟩ => exact tr_apply WB k j
  | ⟨2, _⟩ => exact tr_apply WC k j
  | ⟨3, _⟩ => exact tr_apply WD k j

/-- Entry (i, 128·q + j) of the kernel program's node projection: Σ_k h(i, k) · W_q(j, k). -/
theorem kerProj_apply (h : FVec Ideal S50000x128 .f32) (WA WB WC WD : FVec Ideal S128x128 .f32) (i : Fin 50000) (c : Fin 512)
    (q : Fin 4) (j : Fin 128) (hc : c.val = q.val * 128 + j.val) :
    kerProj h WA WB WC WD (ix2 i c) = ∑ k : Fin 128, h (ix2 i k) * (![WA, WB, WC, WD] q) (ix2 j k) := by
  show Spec.nodeProjAt h (w4t WA WB WC WD) i c = _
  unfold Spec.nodeProjAt
  exact Finset.sum_congr rfl fun k _ => congrArg (h (ix2 i k) * ·) (w4t_apply WA WB WC WD k c q j hc)

/-- The reference's A-projection is columns 0–127 of the kernel program's node projection. -/
theorem ref_projA (h : FVec Ideal S50000x128 .f32) (WA WB WC WD : FVec Ideal S128x128 .f32) :
    Host.dotGeneral (F := Ideal) Cert.ReferenceIdeal.dot_S50000x128_S128x128_S50000x128_1_0_0_1_n_n none h
      (transpose Cert.ReferenceIdeal.S128x128 [1, 0] WA Cert.ReferenceIdeal.Gen.transposes_S128x128_S128x128_1_0)
      = cols0 (kerProj h WA WB WC WD) := by
  funext idx
  obtain ⟨i, j, rfl⟩ : ∃ i j, idx = ix2 i j := ⟨idx 0, idx 1, eq_ix2 idx⟩
  rw [refProj_apply]
  refine Eq.symm ((slice2_axis1_eq 0 (kerProj h WA WB WC WD) Cert.KernelIdeal.Gen.slices_S50000x512_S50000x128_0_0 i j).trans ?_)
  exact kerProj_apply h WA WB WC WD i _ 0 j rfl

/-- The reference's B-projection is columns 128–255 of the kernel program's node projection. -/
theorem ref_projB (h : FVec Ideal S50000x128 .f32) (WA WB WC WD : FVec Ideal S128x128 .f32) :
    Host.dotGeneral (F := Ideal) Cert.ReferenceIdeal.dot_S50000x128_S128x128_S50000x128_1_0_0_1_n_n none h
      (transpose Cert.ReferenceIdeal.S128x128 [1, 0] WB Cert.ReferenceIdeal.Gen.transposes_S128x128_S128x128_1_0)
      = cols1 (kerProj h WA WB WC WD) := by
  funext idx
  obtain ⟨i, j, rfl⟩ : ∃ i j, idx = ix2 i j := ⟨idx 0, idx 1, eq_ix2 idx⟩
  rw [refProj_apply]
  refine Eq.symm ((slice2_axis1_eq 128 (kerProj h WA WB WC WD) Cert.KernelIdeal.Gen.slices_S50000x512_S50000x128_0_128 i j).trans ?_)
  exact kerProj_apply h WA WB WC WD i _ 1 j rfl

/-- The reference's C-projection is columns 256–383 of the kernel program's node projection. -/
theorem ref_projC (h : FVec Ideal S50000x128 .f32) (WA WB WC WD : FVec Ideal S128x128 .f32) :
    Host.dotGeneral (F := Ideal) Cert.ReferenceIdeal.dot_S50000x128_S128x128_S50000x128_1_0_0_1_n_n none h
      (transpose Cert.ReferenceIdeal.S128x128 [1, 0] WC Cert.ReferenceIdeal.Gen.transposes_S128x128_S128x128_1_0)
      = cols2 (kerProj h WA WB WC WD) := by
  funext idx
  obtain ⟨i, j, rfl⟩ : ∃ i j, idx = ix2 i j := ⟨idx 0, idx 1, eq_ix2 idx⟩
  rw [refProj_apply]
  refine Eq.symm ((slice2_axis1_eq 256 (kerProj h WA WB WC WD) Cert.KernelIdeal.Gen.slices_S50000x512_S50000x128_0_256 i j).trans ?_)
  exact kerProj_apply h WA WB WC WD i _ 2 j rfl

/-- The reference's D-projection is columns 384–511 of the kernel program's node projection. -/
theorem ref_projD (h : FVec Ideal S50000x128 .f32) (WA WB WC WD : FVec Ideal S128x128 .f32) :
    Host.dotGeneral (F := Ideal) Cert.ReferenceIdeal.dot_S50000x128_S128x128_S50000x128_1_0_0_1_n_n none h
      (transpose Cert.ReferenceIdeal.S128x128 [1, 0] WD Cert.ReferenceIdeal.Gen.transposes_S128x128_S128x128_1_0)
      = cols3 (kerProj h WA WB WC WD) := by
  funext idx
  obtain ⟨i, j, rfl⟩ : ∃ i j, idx = ix2 i j := ⟨idx 0, idx 1, eq_ix2 idx⟩
  rw [refProj_apply]
  refine Eq.symm ((slice2_axis1_eq 384 (kerProj h WA WB WC WD) Cert.KernelIdeal.Gen.slices_S50000x512_S50000x128_0_384 i j).trans ?_)
  exact kerProj_apply h WA WB WC WD i _ 3 j rfl

/-- The reference's spelling of the wrapped node index column. -/
theorem ref_wrapIdx (a : IVec S800000 32) :
    broadcastInDim Cert.ReferenceIdeal.S800000x1 ![0] Cert.ReferenceIdeal.Gen.bcast_S800000_S800000x1_0
      (select (cmpi .slt a (broadcastInDim Cert.ReferenceIdeal.S800000 ![] Cert.ReferenceIdeal.Gen.bcast_S_S800000 (constantI Cert.ReferenceIdeal.S_ 32 0#32)))
        (addi a (broadcastInDim Cert.ReferenceIdeal.S800000 ![] Cert.ReferenceIdeal.Gen.bcast_S_S800000 (constantI Cert.ReferenceIdeal.S_ 32 50000#32))) a)
      = wrapIdx a := rfl

/-- The two programs' gather records are one record. -/
theorem ref_gatherDims :
    Cert.ReferenceIdeal.gather_S50000x128_S800000x1_S800000x128_1_0_n_n_0_1_1128
      = Cert.KernelIdeal.gather_S50000x128_S800000x1_S800000x128_1_0_n_n_0_1_1128 := rfl

/-- The two programs' scatter records are one record. -/
theorem ref_scatterDims :
    Cert.ReferenceIdeal.scatter_S50000x128_S800000x1_S800000x128_1_0_0_1
      = Cert.KernelIdeal.scatter_S50000x128_S800000x1_S800000x128_1_0_0_1 := rfl

/-- The message chain as the reference spells it (gathers by the wrapped source and destination, the gate, the
    scatter-add into zeros by destination) is the kernel program's. -/
theorem ref_message (Ah Bh Ch : FVec Ideal S50000x128 .f32) (en : FVec Ideal S800000x128 .f32) (src dst : IVec S800000 32) :
    Host.scatterAdd (F := Ideal) Cert.ReferenceIdeal.scatter_S50000x128_S800000x1_S800000x128_1_0_0_1
      (broadcastInDim Cert.ReferenceIdeal.S50000x128 ![] Cert.ReferenceIdeal.Gen.bcast_S_S50000x128
        (constant (F := Ideal) Cert.ReferenceIdeal.S_ .f32 0x00000000#32))
      (broadcastInDim Cert.ReferenceIdeal.S800000x1 ![0] Cert.ReferenceIdeal.Gen.bcast_S800000_S800000x1_0 dst)
      (mulf (Host.gather Cert.ReferenceIdeal.gather_S50000x128_S800000x1_S800000x128_1_0_n_n_0_1_1128 Ch (wrapIdx src))
        (Host.divf (F := Ideal)
          (broadcastInDim Cert.ReferenceIdeal.S800000x128 ![] Cert.ReferenceIdeal.Gen.bcast_S_S800000x128
            (constant (F := Ideal) Cert.ReferenceIdeal.S_ .f32 0x3F800000#32))
          (addf (broadcastInDim Cert.ReferenceIdeal.S800000x128 ![] Cert.ReferenceIdeal.Gen.bcast_S_S800000x128
              (constant (F := Ideal) Cert.ReferenceIdeal.S_ .f32 0x3F800000#32))
            (Host.exp (F := Ideal) (Host.negf (F := Ideal)
              (addf (addf (Host.gather Cert.ReferenceIdeal.gather_S50000x128_S800000x1_S800000x128_1_0_n_n_0_1_1128 Ah (wrapIdx src))
                (Host.gather Cert.ReferenceIdeal.gather_S50000x128_S800000x1_S800000x128_1_0_n_n_0_1_1128 Bh (wrapIdx dst))) en))))))
      = message Ah Bh Ch en src dst := rfl

/-- The reference's summed messages, as its run reads them, are the kernel program's message chain applied to the
    reference's own four projections. -/
theorem ref_message_v40 (h : FVec Ideal S50000x128 .f32) (e : FVec Ideal S800000x128 .f32) (WA WB WC WE : FVec Ideal S128x128 .f32)
    (src dst : IVec S800000 32) :
    Cert.ReferenceIdeal.Read.val_main_v40 (F := Ideal) h e WA WB WC WE src dst
      = message (Cert.ReferenceIdeal.Read.val_main_v1 (F := Ideal) h WA) (Cert.ReferenceIdeal.Read.val_main_v3 (F := Ideal) h WB)
          (Cert.ReferenceIdeal.Read.val_main_v5 (F := Ideal) h WC) (Cert.ReferenceIdeal.Read.val_main_v7 (F := Ideal) e WE) src dst := rfl

end Cert.KernelIdeal.Hand

end
-- ==== Proof.RefTail.lean ====
/-
  The reference's last stretch as a function of the pre-normalisation activations X (50000 × 128):
    μ_j = (0 + Σ_i X_ij) / 50000,   v_j = (0 + Σ_i (X_ij − μ_j) · (X_ij − μ_j)) / 50000   (two passes over the rows),
    out_ij = max((((X_ij − μ_j) · rsqrt(v_j + ε)) · γ_j) + β_j, 0).
  When every X_ij is a real number, v_j = (Σ_i X_ij · X_ij) / 50000 − μ_j · μ_j, the one-pass form, so the stretch
  equals the normalisation of X by the one-pass mean and variance rows.
-/
import proofs.«153656_j10943576670413_2_alg».proof.Proof.Terms
import proofs.«153656_j10943576670413_2_alg».proof.Proof.RefRead
import proofs.«153656_j10943576670413_2_alg».proof.Proof.LibBatchStats

noncomputable section

open scoped BigOperators

namespace Cert.KernelIdeal.Hand

open Idealize.ShloMosaic Idealize.ShloMosaic.ValueIdx Cert.KernelIdeal

/-- A 128-vector repeated down the 50000 rows: first as a 1 × 128 row, then row by row. -/
def refRows (v : FVec Ideal S128 .f32) : FVec Ideal S50000x128 .f32 :=
  broadcastInDim S50000x128 ![0, 1] Cert.ReferenceIdeal.Gen.bcast_S1x128_S50000x128_0_1
    (broadcastInDim S1x128 ![1] Cert.ReferenceIdeal.Gen.bcast_S128_S1x128_1 v)

/-- The column sums of a 50000 × 128 array, started from zero. -/
def refColSum (X : FVec Ideal S50000x128 .f32) : FVec Ideal S128 .f32 :=
  Host.reduceAdd (F := Ideal) X (constant (F := Ideal) S_ .f32 0x00000000#32)
    Cert.ReferenceIdeal.Gen.reducesTo_S50000x128_S128_d0 Cert.ReferenceIdeal.Gen.h_S_

/-- A 128-vector divided by 50000. -/
def refOver (v : FVec Ideal S128 .f32) : FVec Ideal S128 .f32 :=
  Host.divf (F := Ideal) v
    (broadcastInDim S128 ![] Cert.ReferenceIdeal.Gen.bcast_S_S128 (constant (F := Ideal) S_ .f32 0x47435000#32))

/-- The column means. -/
def refMean (X : FVec Ideal S50000x128 .f32) : FVec Ideal S128 .f32 := refOver (refColSum X)

/-- The activations less their column means. -/
def refCentred (X : FVec Ideal S50000x128 .f32) : FVec Ideal S50000x128 .f32 := subf X (refRows (refMean X))

/-- The two-pass column variances: the column means of the squared centred activations. -/
def refVar (X : FVec Ideal S50000x128 .f32) : FVec Ideal S128 .f32 :=
  refOver (refColSum (mulf (refCentred X) (refCentred X)))

/-- The reference's last stretch: normalise by the column means and two-pass variances, scale, shift, rectify. -/
def refTail (X : FVec Ideal S50000x128 .f32) (gamma beta : FVec Ideal S128 .f32) : FVec Ideal S50000x128 .f32 :=
  maximumf
    (addf
      (mulf
        (mulf (refCentred X)
          (refRows (Host.rsqrt (F := Ideal)
            (addf (refVar X)
              (broadcastInDim S128 ![] Cert.ReferenceIdeal.Gen.bcast_S_S128 (constant (F := Ideal) S_ .f32 0x3727C5AC#32))))))
        (refRows gamma))
      (refRows beta))
    (broadcastInDim S50000x128 ![] Cert.ReferenceIdeal.Gen.bcast_S_S50000x128 (constant (F := Ideal) S_ .f32 0x00000000#32))

/-- The reference's first result is its last stretch applied to its pre-normalisation activations. -/
theorem refTail_unfold (h : FVec Ideal S50000x128 .f32) (e : FVec Ideal S800000x128 .f32)
    (WA WB WC WD WE : FVec Ideal S128x128 .f32) (gamma beta : FVec Ideal S128 .f32) (src dst : IVec S800000 32) :
    Cert.ReferenceIdeal.Read.val_main_v69 (F := Ideal) h e WA WB WC WD WE gamma beta src dst
      = refTail (Cert.ReferenceIdeal.Read.val_main_v43 (F := Ideal) h e WA WB WC WD WE src dst) gamma beta := rfl

/-- A scalar repeated over a shape, read at an index. -/
theorem splat_apply {t : Shape} (h : S_.BroadcastsInDim t (![] : Fin 0 → Fin t.rank)) (c : FVec Ideal S_ .f32) (i : t.Idx) :
    broadcastInDim t ![] h c i = c ix0 := broadcastInDim_apply _ h c i ix0 (fun a => a.elim0)

/-- A 128-vector laid out as a 1 × 128 row and repeated down 50000 rows, read at (i, j): its entry j. -/
theorem rows_apply (h1 : S128.BroadcastsInDim S1x128 (![1] : Fin 1 → Fin S1x128.rank))
    (h2 : S1x128.BroadcastsInDim S50000x128 (![0, 1] : Fin 2 → Fin S50000x128.rank))
    (v : FVec Ideal S128 .f32) (i : Fin 50000) (j : Fin 128) :
    broadcastInDim S50000x128 ![0, 1] h2 (broadcastInDim S1x128 ![1] h1 v) (ix2 i j) = v (ix1 j) := by
  rw [broadcastInDim_apply _ h2 _ (ix2 i j) (ix2 (0 : Fin 1) j) (fun a => match a with
        | ⟨0, _⟩ => by show 0 = if (1 : Nat) = 1 then 0 else i.val; rw [if_pos rfl]
        | ⟨1, _⟩ => by show j.val = if (128 : Nat) = 1 then 0 else j.val; rw [if_neg (by decide)]),
      broadcastInDim_apply _ h1 v (ix2 (0 : Fin 1) j) (ix1 j) (fun a => match a with
        | ⟨0, _⟩ => by show j.val = if (128 : Nat) = 1 then 0 else j.val; rw [if_neg (by decide)])]

/-- The sum over the rows, started from the binary32 zero, read at column j: Σ_k X(k, j). -/
theorem colsum_apply (hr : S50000x128.ReducesTo [0] S128) (hu : 0 < S_.numel) (X : FVec Ideal S50000x128 .f32) (j : Fin 128) :
    Host.reduceAdd (F := Ideal) X (constant (F := Ideal) S_ .f32 0x00000000#32) hr hu (ix1 j) = ∑ k : Fin 50000, X (ix2 k j) := by
  simp only [Host.reduceAdd, Ideal.hostReduceAdd_def]
  rw [Ideal.hostReduceAdd_single hr (by decide), constant_apply, Ideal.ofBits_zero_f32, zero_add]
  refine Finset.sum_congr rfl fun k _ => ?_
  exact congrArg X (funext fun a => Fin.ext (by match a with | ⟨0, _⟩ => rfl | ⟨1, _⟩ => rfl))

/-- A 128-vector recast as a 1 × 128 row, read at (0, j): its entry j. -/
theorem asrow_apply (h : S128.ShapeCasts S1x128) (g : FVec Ideal S128 .f32) (j : Fin 128) :
    shapeCast S1x128 g h (ix2 (0 : Fin 1) j) = g (ix1 j) := by
  rw [shapeCast_addUnit_apply ![128] g h (ix2 (0 : Fin 1) j)]
  exact congrArg g (funext fun a => by match a with | ⟨0, _⟩ => rfl)

theorem refRows_apply (v : FVec Ideal S128 .f32) (i : Fin 50000) (j : Fin 128) : refRows v (ix2 i j) = v (ix1 j) :=
  rows_apply _ _ v i j

theorem refColSum_apply (X : FVec Ideal S50000x128 .f32) (j : Fin 128) : refColSum X (ix1 j) = ∑ k : Fin 50000, X (ix2 k j) :=
  colsum_apply _ _ X j

theorem refOver_apply (v : FVec Ideal S128 .f32) (j : Fin 128) :
    refOver v (ix1 j) = Ideal.div (v (ix1 j)) (Ideal.ofBits .f32 0x47435000#32) := by
  unfold refOver
  show Ideal.div (v (ix1 j)) (broadcastInDim S128 ![] _ (constant (F := Ideal) S_ .f32 0x47435000#32) (ix1 j)) = _
  rw [splat_apply, constant_apply]

/-- Column j's mean: (Σ_k X(k, j)) / 50000. -/
theorem refMean_apply (X : FVec Ideal S50000x128 .f32) (j : Fin 128) :
    refMean X (ix1 j) = Ideal.div (∑ k : Fin 50000, X (ix2 k j)) (Ideal.ofBits .f32 0x47435000#32) := by
  unfold refMean; rw [refOver_apply, refColSum_apply]

theorem refCentred_apply (X : FVec Ideal S50000x128 .f32) (i : Fin 50000) (j : Fin 128) :
    refCentred X (ix2 i j) = X (ix2 i j) - refMean X (ix1 j) := by
  unfold refCentred; rw [subf_apply, refRows_apply]

/-- Column j's two-pass variance: (Σ_k (X(k, j) − μ_j) · (X(k, j) − μ_j)) / 50000. -/
theorem refVar_apply (X : FVec Ideal S50000x128 .f32) (j : Fin 128) :
    refVar X (ix1 j) = Ideal.div (∑ k : Fin 50000, (X (ix2 k j) - refMean X (ix1 j)) * (X (ix2 k j) - refMean X (ix1 j)))
      (Ideal.ofBits .f32 0x47435000#32) := by
  unfold refVar; rw [refOver_apply, refColSum_apply]
  simp only [mulf_apply, refCentred_apply]

/-- The last stretch read at (i, j). -/
theorem refTail_apply (X : FVec Ideal S50000x128 .f32) (g b : FVec Ideal S128 .f32) (i : Fin 50000) (j : Fin 128) :
    refTail X g b (ix2 i j)
      = max (((X (ix2 i j) - refMean X (ix1 j)) * Ideal.rsqrt (refVar X (ix1 j) + Ideal.ofBits .f32 0x3727C5AC#32)) * g (ix1 j) + b (ix1 j))
          (Ideal.ofBits .f32 0x00000000#32) := by
  have e : Host.rsqrt (F := Ideal) (addf (refVar X)
        (broadcastInDim S128 ![] Cert.ReferenceIdeal.Gen.bcast_S_S128 (constant (F := Ideal) S_ .f32 0x3727C5AC#32))) (ix1 j)
      = Ideal.rsqrt (refVar X (ix1 j) + Ideal.ofBits .f32 0x3727C5AC#32) := by
    show Ideal.rsqrt (refVar X (ix1 j) + broadcastInDim S128 ![] _ (constant (F := Ideal) S_ .f32 0x3727C5AC#32) (ix1 j)) = _
    rw [splat_apply, constant_apply]
  unfold refTail
  rw [maximumf_apply, addf_apply, mulf_apply, mulf_apply, refRows_apply, refRows_apply, refRows_apply, refCentred_apply,
    splat_apply, constant_apply, e]

theorem over50000_apply (r : FVec Ideal S1x128 .f32) (j : Fin 128) :
    over50000 r (ix2 (0 : Fin 1) j) = Ideal.div (r (ix2 (0 : Fin 1) j)) (Ideal.ofBits .f32 0x47435000#32) := by
  unfold over50000
  show Ideal.div (r (ix2 (0 : Fin 1) j)) (broadcastInDim S1x128 ![] _ (constant (F := Ideal) S_ .f32 0x47435000#32) (ix2 (0 : Fin 1) j)) = _
  rw [splat_apply, constant_apply]

theorem varRow_apply (m s2 : FVec Ideal S1x128 .f32) (j : Fin 128) :
    varRow m s2 (ix2 (0 : Fin 1) j)
      = Ideal.div (s2 (ix2 (0 : Fin 1) j)) (Ideal.ofBits .f32 0x47435000#32) - m (ix2 (0 : Fin 1) j) * m (ix2 (0 : Fin 1) j) := by
  unfold varRow; rw [subf_apply, mulf_apply, over50000_apply]

theorem asRow_apply (g : FVec Ideal S128 .f32) (j : Fin 128) : asRow g (ix2 (0 : Fin 1) j) = g (ix1 j) :=
  asrow_apply _ g j

/-- On real activations the reference's last stretch is the normalisation by the one-pass mean and variance rows. -/
theorem refTail_eq (d s : FVec Ideal S50000x128 .f32) (gamma beta : FVec Ideal S128 .f32)
    (hX : ∀ i, Cert.Lib.BatchStats.IsReal (d i + s i)) :
    refTail (addf d s) gamma beta
      = Spec.norm (Spec.preAct d s) (over50000 (Spec.colSum d s))
          (varRow (over50000 (Spec.colSum d s)) (Spec.colSumSq d s)) (asRow gamma) (asRow beta) := by
  funext idx
  obtain ⟨i, j, rfl⟩ : ∃ (i : Fin 50000) (j : Fin 128), idx = ix2 i j := ⟨idx 0, idx 1, eq_ix2 idx⟩
  have hv := Cert.Lib.BatchStats.variance_one_pass_eq_two_pass_of_isReal (n := 50000) (by decide)
    (fun k => d (ix2 k j) + s (ix2 k j)) (fun k => hX (ix2 k j))
  simp only [Nat.cast_ofNat] at hv
  rw [Spec.norm_apply, refTail_apply]
  unfold Spec.normAt
  simp only [varRow_apply, over50000_apply, asRow_apply, Spec.colSum_apply, Spec.colSumSq_apply, refVar_apply, refMean_apply,
    Spec.colSumAt, Spec.colSumSqAt, Spec.preAct, addf_apply, Cert.Lib.BatchStats.ofBits_50000]
  rw [hv]

end Cert.KernelIdeal.Hand

end
-- ==== Proof.RealChain.lean ====
/-
  Every entry of the kernel program's pre-normalisation activations is a real number when every entry of its float
  arguments is:
  * a transpose, a slice, a concatenation and a row gather only move entries;
  * an entry of a row-by-column product is a finite sum of products;
  * the gate 1 / (1 + exp(−x)) of a real x is a real (the denominator is positive);
  * an entry of a scatter-add is the operand's entry plus a finite sum of update entries.
-/
import proofs.«153656_j10943576670413_2_alg».proof.Proof.Terms
import proofs.«153656_j10943576670413_2_alg».proof.Proof.LibBatchStats
import Idealize.ShloMosaic.Lib.Pipeline.Value

noncomputable section

open scoped BigOperators

namespace Cert.KernelIdeal.Hand

open Idealize.ShloMosaic Idealize.ShloMosaic.ValueIdx Cert.KernelIdeal Cert.KernelIdeal.Gen
open Cert.Lib.BatchStats (IsReal)

/-- A property of every entry of every piece holds of every entry of their concatenation: each entry of the
    concatenation is an entry of one of the pieces. -/
theorem concatenate_forall {α : Type} {t : Shape} (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

/-- A scalar repeated over a shape, read at an index. -/
theorem splat_read {t : Shape} (h : S_.BroadcastsInDim t (![] : Fin 0 → Fin t.rank)) (c : FVec Ideal S_ .f32) (i : t.Idx) :
    broadcastInDim t ![] h c i = c ix0 := broadcastInDim_apply _ h c i ix0 (fun a => a.elim0)

/-- The node projection of real arrays is real: each entry is a sum of 128 products. -/
theorem nodeProj_real (x : FVec Ideal S50000x128 .f32) (w : FVec Ideal S128x512 .f32)
    (hx : ∀ i, IsReal (x i)) (hw : ∀ i, IsReal (w i)) : ∀ i, IsReal (Spec.nodeProj x w i) := by
  intro i
  show IsReal (∑ k : Fin 128, x (ix2 (i 0) k) * w (ix2 k (i 1)))
  exact IsReal.sum_univ _ fun k => (hx _).mul (hw _)

/-- The edge projection of real arrays is real: each entry is a sum of 128 products. -/
theorem edgeProj_real (x : FVec Ideal S800000x128 .f32) (w : FVec Ideal S128x128 .f32)
    (hx : ∀ i, IsReal (x i)) (hw : ∀ i, IsReal (w i)) : ∀ i, IsReal (Spec.edgeProj x w i) := by
  intro i
  show IsReal (∑ k : Fin 128, x (ix2 (i 0) k) * w (ix2 k (i 1)))
  exact IsReal.sum_univ _ fun k => (hx _).mul (hw _)

/-- The transpose of a real matrix is real: each entry is an entry of the matrix. -/
theorem tr_real (W : FVec Ideal S128x128 .f32) (hW : ∀ i, IsReal (W i)) : ∀ i, IsReal (tr W i) := by
  intro i
  unfold tr transpose
  exact hW _

/-- The four transposed real matrices side by side are real. -/
theorem w4t_real (WA WB WC WD : FVec Ideal S128x128 .f32) (hA : ∀ i, IsReal (WA i)) (hB : ∀ i, IsReal (WB i))
    (hC : ∀ i, IsReal (WC i)) (hD : ∀ i, IsReal (WD i)) : ∀ i, IsReal (w4t WA WB WC WD i) := by
  intro i
  unfold w4t
  refine concatenate_forall _ _ _ IsReal (fun p hp => ?_) i
  simp only [List.mem_cons, List.not_mem_nil, or_false] at hp
  rcases hp with rfl | rfl | rfl | rfl
  · exact tr_real WA hA
  · exact tr_real WB hB
  · exact tr_real WC hC
  · exact tr_real WD hD

/-- A block of columns of a real array is real: each entry is an entry of the array. -/
theorem cols0_real (p : FVec Ideal S50000x512 .f32) (hp : ∀ i, IsReal (p i)) : ∀ i, IsReal (cols0 p i) := by
  intro i; unfold cols0 extractStridedSlice; exact hp _
theorem cols1_real (p : FVec Ideal S50000x512 .f32) (hp : ∀ i, IsReal (p i)) : ∀ i, IsReal (cols1 p i) := by
  intro i; unfold cols1 extractStridedSlice; exact hp _
theorem cols2_real (p : FVec Ideal S50000x512 .f32) (hp : ∀ i, IsReal (p i)) : ∀ i, IsReal (cols2 p i) := by
  intro i; unfold cols2 extractStridedSlice; exact hp _
theorem cols3_real (p : FVec Ideal S50000x512 .f32) (hp : ∀ i, IsReal (p i)) : ∀ i, IsReal (cols3 p i) := by
  intro i; unfold cols3 extractStridedSlice; exact hp _

/-- Rows gathered from a real array are real: each entry is an entry of the array. -/
theorem gather_real {s si t : Shape} {w : Nat} (D : GatherDims s si t) (x : FVec Ideal s .f32) (idx : IVec si w)
    (hx : ∀ i, IsReal (x i)) : ∀ j, IsReal (Host.gather D x idx j) := by
  intro j; unfold Host.gather; exact hx _

/-- The gate 1 / (1 + exp(−(a + b + e))) of real arrays is real. -/
theorem gate_real (a b e : FVec Ideal S800000x128 .f32) (ha : ∀ i, IsReal (a i)) (hb : ∀ i, IsReal (b i))
    (he : ∀ i, IsReal (e i)) : ∀ i, IsReal (gate a b e i) := by
  intro i
  show IsReal (Ideal.div
    (broadcastInDim S800000x128 ![] bcast_S_S800000x128 (constant (F := Ideal) S_ .f32 0x3F800000#32) i)
    (broadcastInDim S800000x128 ![] bcast_S_S800000x128 (constant (F := Ideal) S_ .f32 0x3F800000#32) i
      + Ideal.exp (-(a i + b i + e i))))
  rw [splat_read, constant_apply, Cert.Lib.BatchStats.ofBits_one, EReal.coe_one]
  exact IsReal.logistic (((ha i).add (hb i)).add (he i))

/-- A scatter-add of real updates into a real array is real: each entry is the operand's plus a finite sum of
    update entries. -/
theorem scatterAdd_real {s si u : Shape} {w : Nat} (D : ScatterDims s si u) (x : FVec Ideal s .f32) (idx : IVec si w)
    (upd : FVec Ideal u .f32) (hx : ∀ i, IsReal (x i)) (hu : ∀ i, IsReal (upd i)) :
    ∀ i, IsReal (Host.scatterAdd (F := Ideal) D x idx upd i) := by
  intro i
  show IsReal (x i + ∑ j ∈ Finset.univ.filter (fun j => D.resultIdx? j idx = some i), upd j)
  exact (hx i).add (IsReal.sum _ _ fun j _ => hu j)

/-- The summed messages are real when the three node projections and the edge projection are. -/
theorem message_real (Ah Bh Ch : FVec Ideal S50000x128 .f32) (en : FVec Ideal S800000x128 .f32) (src dst : IVec S800000 32)
    (hA : ∀ i, IsReal (Ah i)) (hB : ∀ i, IsReal (Bh i)) (hC : ∀ i, IsReal (Ch i)) (he : ∀ i, IsReal (en i)) :
    ∀ i, IsReal (message Ah Bh Ch en src dst i) := by
  unfold message
  refine scatterAdd_real _ _ _ _ (fun i => ?_) (fun i => ?_)
  · rw [splat_read, constant_apply, Ideal.ofBits_zero_f32]; exact IsReal.zero
  · rw [mulf_apply]
    exact (gather_real _ Ch _ hC i).mul (gate_real _ _ _ (gather_real _ Ah _ hA) (gather_real _ Bh _ hB) he i)

/-- The kernel program's pre-normalisation activations are real when its seven float arguments are. -/
theorem kerPre_real (h : FVec Ideal S50000x128 .f32) (e : FVec Ideal S800000x128 .f32)
    (WA WB WC WD WE : FVec Ideal S128x128 .f32) (src dst : IVec S800000 32)
    (hh : ∀ i, IsReal (h i)) (he : ∀ i, IsReal (e i)) (hA : ∀ i, IsReal (WA i)) (hB : ∀ i, IsReal (WB i))
    (hC : ∀ i, IsReal (WC i)) (hD : ∀ i, IsReal (WD i)) (hE : ∀ i, IsReal (WE i)) :
    ∀ i, IsReal (cols3 (kerProj h WA WB WC WD) i + kerMsg h e WA WB WC WD WE src dst i) := by
  have hp : ∀ i, IsReal (kerProj h WA WB WC WD i) := nodeProj_real h _ hh (w4t_real WA WB WC WD hA hB hC hD)
  have hen : ∀ i, IsReal (kerEdge e WE i) := edgeProj_real e _ he (tr_real WE hE)
  intro i
  exact (cols3_real _ hp i).add
    (message_real _ _ _ _ src dst (cols0_real _ hp) (cols1_real _ hp) (cols2_real _ hp) hen i)

end Cert.KernelIdeal.Hand

end
-- ==== Proof.Join.lean ====
/-
  The reference's two results are the kernel side's terms, on the extended reals.

  The reference's pre-normalisation activations are h·WDᵀ plus its summed messages. Its four node projections are the
  four column blocks of the kernel program's single projection, its edge projection is the kernel program's, and its
  message chain is the kernel program's applied to those projections; so the activations are the kernel program's
  D-block plus its summed messages. When every entry of the seven float arguments is a real number, so is every
  activation, and the reference's last stretch (two-pass variance) is the normalisation by the one-pass mean and
  variance rows: the kernel program's first result.
-/
import proofs.«153656_j10943576670413_2_alg».proof.Proof.RefProj
import proofs.«153656_j10943576670413_2_alg».proof.Proof.RefTail
import proofs.«153656_j10943576670413_2_alg».proof.Proof.RealChain
import proofs.«153656_j10943576670413_2_alg».proof.Proof.LibBatchStats

noncomputable section

namespace Cert.KernelIdeal.Hand

open Idealize.ShloMosaic Cert.KernelIdeal
open Cert.Lib.BatchStats (IsReal)

/-- The reference's edge projection, as its run reads it, is the kernel program's second result. -/
theorem ref_edge_eq_ker (e : FVec Ideal S800000x128 .f32) (WE : FVec Ideal S128x128 .f32) :
    Cert.ReferenceIdeal.Read.val_main_v7 (F := Ideal) e WE = kerEdge e WE := ref_edge e WE

/-- The reference's A-, B-, C- and D-projections, as its run reads them, are the four column blocks. -/
theorem ref_v1_eq (h : FVec Ideal S50000x128 .f32) (WA WB WC WD : FVec Ideal S128x128 .f32) :
    Cert.ReferenceIdeal.Read.val_main_v1 (F := Ideal) h WA = cols0 (kerProj h WA WB WC WD) := ref_projA h WA WB WC WD
theorem ref_v3_eq (h : FVec Ideal S50000x128 .f32) (WA WB WC WD : FVec Ideal S128x128 .f32) :
    Cert.ReferenceIdeal.Read.val_main_v3 (F := Ideal) h WB = cols1 (kerProj h WA WB WC WD) := ref_projB h WA WB WC WD
theorem ref_v5_eq (h : FVec Ideal S50000x128 .f32) (WA WB WC WD : FVec Ideal S128x128 .f32) :
    Cert.ReferenceIdeal.Read.val_main_v5 (F := Ideal) h WC = cols2 (kerProj h WA WB WC WD) := ref_projC h WA WB WC WD
theorem ref_v42_eq (h : FVec Ideal S50000x128 .f32) (WA WB WC WD : FVec Ideal S128x128 .f32) :
    Cert.ReferenceIdeal.Read.val_main_v42 (F := Ideal) h WD = cols3 (kerProj h WA WB WC WD) := ref_projD h WA WB WC WD

/-- The reference's summed messages are the kernel program's. -/
theorem ref_v40_eq (h : FVec Ideal S50000x128 .f32) (e : FVec Ideal S800000x128 .f32) (WA WB WC WD WE : FVec Ideal S128x128 .f32)
    (src dst : IVec S800000 32) :
    Cert.ReferenceIdeal.Read.val_main_v40 (F := Ideal) h e WA WB WC WE src dst = kerMsg h e WA WB WC WD WE src dst := by
  rw [ref_message_v40, ref_v1_eq h WA WB WC WD, ref_v3_eq h WA WB WC WD, ref_v5_eq h WA WB WC WD, ref_edge_eq_ker]
  unfold kerMsg
  rfl

/-- The reference's pre-normalisation activations are the kernel program's D-block plus its summed messages. -/
theorem ref_v43_eq (h : FVec Ideal S50000x128 .f32) (e : FVec Ideal S800000x128 .f32) (WA WB WC WD WE : FVec Ideal S128x128 .f32)
    (src dst : IVec S800000 32) :
    Cert.ReferenceIdeal.Read.val_main_v43 (F := Ideal) h e WA WB WC WD WE src dst
      = addf (cols3 (kerProj h WA WB WC WD)) (kerMsg h e WA WB WC WD WE src dst) := by
  unfold Cert.ReferenceIdeal.Read.val_main_v43
  rw [ref_v42_eq h WA WB WC WD, ref_v40_eq h e WA WB WC WD WE src dst]

/-- On real arguments the reference's first result is the kernel program's. -/
theorem ref_out_eq_ker (h : FVec Ideal S50000x128 .f32) (e : FVec Ideal S800000x128 .f32) (WA WB WC WD WE : FVec Ideal S128x128 .f32)
    (gamma beta : FVec Ideal S128 .f32) (src dst : IVec S800000 32)
    (hh : ∀ i, IsReal (h i)) (he : ∀ i, IsReal (e i)) (hA : ∀ i, IsReal (WA i)) (hB : ∀ i, IsReal (WB i))
    (hC : ∀ i, IsReal (WC i)) (hD : ∀ i, IsReal (WD i)) (hE : ∀ i, IsReal (WE i)) :
    Cert.ReferenceIdeal.Read.val_main_v69 (F := Ideal) h e WA WB WC WD WE gamma beta src dst
      = kerOut h e WA WB WC WD WE gamma beta src dst := by
  rw [refTail_unfold, ref_v43_eq,
    refTail_eq _ _ gamma beta (kerPre_real h e WA WB WC WD WE src dst hh he hA hB hC hD hE)]
  unfold kerOut
  rfl

end Cert.KernelIdeal.Hand

end
-- ==== Proof.PreReal.lean ====
import proofs.«153656_j10943576670413_2_alg».proof.Proof.Gen.Pre_finite_inputs
import proofs.«153656_j10943576670413_2_alg».proof.Proof.LibBatchStats
import Idealize.ShloMosaic.Lib.ReduceAll
import Idealize.ShloMosaic.Lib.ValueIdx
import Idealize.ShloMosaic.PureOps.Ideal.Laws

noncomputable section

namespace Cert.KernelIdeal.Hand

open Idealize.ShloMosaic Idealize.ShloMosaic.ValueIdx Cert.Lib.BatchStats
open Cert.Pre_finite_inputs (S_ S50000x128 S800000x128 S128x128 S128 S800000)

/-- The scalar shape has one index. -/
instance subsingleton_scalarIdx : Subsingleton S_.Idx := ⟨fun _ _ => funext fun d => d.elim0⟩

/-- The binary32 pattern `0x7F800000` denotes `+∞`. -/
theorem ofBits_inf : Ideal.ofBits .f32 0x7F800000#32 = (⊤ : EReal) := by
  simp [Ideal.ofBits, Ideal.ieee]

/-- An extended real whose absolute value `max x (−x)` is below `+∞` is a real. -/
theorem isReal_of_abs_lt_inf (x : EReal)
    (h : Ideal.cmp .olt (max x (-x)) (Ideal.ofBits .f32 0x7F800000#32) = 1#1) : IsReal x := by
  rw [ofBits_inf] at h
  induction x using EReal.rec
  · simp [Ideal.cmp] at h
  · exact IsReal.coe _
  · simp [Ideal.cmp] at h

/-- An array every entry of which passes "`|x| < +∞`", the tests and-ed over the whole array, has only
    real entries. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) :
    ∀ i, IsReal (a i) := fun i =>
  isReal_of_abs_lt_inf (a i) (Host.reduce_andi_all _ _ hr hu ix0 e i)

/-- The finiteness precondition, decoded: when it holds every entry of each of the nine float arguments
    is a real. -/
theorem pre_real (a0 : FVec Ideal S50000x128 .f32) (a1 : FVec Ideal S800000x128 .f32)
    (a2 a3 a4 a5 a6 : FVec Ideal S128x128 .f32) (a7 a8 : FVec Ideal S128 .f32)
    (a9 a10 : IVec S800000 32)
    (h : Cert.Pre_finite_inputs.fn (F := Ideal) a0 a1 a2 a3 a4 a5 a6 a7 a8 a9 a10 = (fun _ => 1#1)) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i))
      ∧ (∀ i, IsReal (a8 i)) := by
  have h1 := congrFun h ix0
  simp only [Cert.Pre_finite_inputs.fn, Cert.Pre_finite_inputs.fn_part1, Cert.Pre_finite_inputs.fn_part2,
    andi, IntOp.andi_eq_one] at h1
  obtain ⟨⟨⟨⟨⟨⟨⟨⟨e0, e1⟩, e2⟩, e3⟩, e4⟩, e5⟩, e6⟩, e7⟩, e8⟩ := h1
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7,
    all_real a8 _ _ _ e8⟩

end Cert.KernelIdeal.Hand

end
-- ==== Proof.lean ====
/-
  The certificate of the gated graph-convolution layer: the kernel program (four pipelined regions — node projection,
  edge projection, batch statistics, normalisation — among host stretches of gathers, a gate and a scatter-add) against
  the plain reference.

  * The three frames. The kernel program's run is Lib/Pipeline/Regions.lean's run of @main as a list of segments, one
    record per region: the projections and the normalisation store one whole block per point; the statistics region
    carries two accumulators between its ten points, reset at the first and copied out at the last. The same text proves
    the word-level program's frame and the idealized one's. The reference is host operations only.
  * The idealization rewrote nothing, so "preserves" is trivial.
  * The algebraic claim, on the extended reals. The kernel multiplies h by the four transposed weight matrices laid side
    by side and slices the product into four column blocks; a column of a concatenation is a column of one piece, so each
    block is the reference's own product. The message chain is shared word for word. The kernel's statistics are the
    column sums of x = D·h + messages and of x², added up block by block; finite sums of extended reals do not depend on
    the grouping. The one law that needs finiteness is the variance: Σx²/n − (Σx/n)² = Σ(x − Σx/n)²/n holds for reals
    (∞ − ∞ is not a number), and every entry of x is a real because the inputs are finite — a sum of products of reals,
    plus a sum of products of a gathered real and a gate 1/(1 + e^(−s)) of a real s. The normalisation is then the same
    expression on both sides.
-/
import proofs.«153656_j10943576670413_2_alg».proof.Defs
import proofs.«153656_j10943576670413_2_alg».proof.Proof.Gen.Kernel
import proofs.«153656_j10943576670413_2_alg».proof.Proof.Gen.KernelIdeal
import proofs.«153656_j10943576670413_2_alg».proof.Proof.Gen.ReferenceIdeal
import proofs.«153656_j10943576670413_2_alg».proof.Proof.Gen.Pre_finite_inputs
import proofs.«153656_j10943576670413_2_alg».proof.Proof.BitsFrames
import proofs.«153656_j10943576670413_2_alg».proof.Proof.KerValue
import proofs.«153656_j10943576670413_2_alg».proof.Proof.Join
import proofs.«153656_j10943576670413_2_alg».proof.Proof.PreReal

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal.Hand in
/-- Both idealized programs run; the kernel's results are its terms of the arguments (the run read back), the
    reference's are the same terms (the joining law), the arguments agreeing and finite. -/
theorem algebraic : Cert.algebraic_KernelIdeal_ReferenceIdeal := by
  intro m ρ m' ρ' hpre hagree
  refine ⟨fun c => kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => kerEdge (m ((c.tc : Thread Cert.KernelIdeal.nD Cert.KernelIdeal.τ).loc Cert.KernelIdeal.main_arg1)) (m ((c.tc : Thread Cert.KernelIdeal.nD Cert.KernelIdeal.τ).loc Cert.KernelIdeal.main_arg6)), ?_, ?_⟩
  · exact (θ_run Cert.KernelIdeal.defs _ _).mono (fun r h c =>
      ⟨(h c _ (mem_uc Cert.KernelIdeal.main_v54 (by decide))).trans (ker_v54 m c),
       (h c _ (mem_uc Cert.KernelIdeal.main_v11 (by decide))).trans (ker_v11 m c),
       (h c _ (mem_uc Cert.KernelIdeal.main_arg0 (by decide))).trans (W8_main_arg0 D0 D1 D2 D3 m fits0 c),
       (h c _ (mem_uc Cert.KernelIdeal.main_arg1 (by decide))).trans (W8_main_arg1 D0 D1 D2 D3 m fits1 c),
       (h c _ (mem_uc Cert.KernelIdeal.main_arg2 (by decide))).trans (W8_main_arg2 D0 D1 D2 D3 m c),
       (h c _ (mem_uc Cert.KernelIdeal.main_arg3 (by decide))).trans (W8_main_arg3 D0 D1 D2 D3 m c),
       (h c _ (mem_uc Cert.KernelIdeal.main_arg4 (by decide))).trans (W8_main_arg4 D0 D1 D2 D3 m c),
       (h c _ (mem_uc Cert.KernelIdeal.main_arg5 (by decide))).trans (W8_main_arg5 D0 D1 D2 D3 m c),
       (h c _ (mem_uc Cert.KernelIdeal.main_arg6 (by decide))).trans (W8_main_arg6 D0 D1 D2 D3 m c),
       (h c _ (mem_uc Cert.KernelIdeal.main_arg7 (by decide))).trans (W8_main_arg7 D0 D1 D2 D3 m c),
       (h c _ (mem_uc Cert.KernelIdeal.main_arg8 (by decide))).trans (W8_main_arg8 D0 D1 D2 D3 m c),
       (h c _ (mem_uc Cert.KernelIdeal.main_arg9 (by decide))).trans (W8_main_arg9 D0 D1 D2 D3 m c),
       (h c _ (mem_uc Cert.KernelIdeal.main_arg10 (by decide))).trans (W8_main_arg10 D0 D1 D2 D3 m c)⟩) (run_all m ρ)
  · refine (θ_run Cert.ReferenceIdeal.defs _ _).mono (fun r h c => ?_) (Cert.ReferenceIdeal.Value.run (F := Ideal) m' ρ')
    obtain ⟨h69, h7, hargs⟩ := h c
    obtain ⟨e0, e1, e2, e3, e4, e5, e6, e7, e8, e9, e10⟩ := hagree c
    obtain ⟨r0, r1, r2, r3, r4, r5, r6, -, -⟩ := pre_real _ _ _ _ _ _ _ _ _ _ _ (hpre c)
    refine ⟨h69.trans ?_, h7.trans ?_, hargs⟩
    · rw [Cert.ReferenceIdeal.Read.val_main_v69_eq, e0, e1, e2, e3, e4, e5, e6, e7, e8, e9, e10]
      exact ref_out_eq_ker _ _ _ _ _ _ _ _ _ _ _ r0 r1 r2 r3 r4 r5 r6
    · rw [Cert.ReferenceIdeal.Read.val_main_v7_eq, e1, e6]
      exact ref_edge_eq_ker _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
